-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S1024 : Shape := ⟨1, ![1024]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg7 : FVec F S128 .f32) (main_arg8 : FVec F S128x40 .f32) (main_arg9 : FVec F S40 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg7
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x40 .f32 := Host.absf main_arg8
  let main_cst_8 : FVec F S_ .f32 := constant S_ .f32 0x7F800000#32
  let main_v25 : FVec F S128x40 .f32 := broadcastInDim S128x40 ![] bcast_S_S128x40 main_cst_8
  let main_v26 : IVec S128x40 1 := cmpf .olt main_v24 main_v25
  let main_c_9 : IVec S_ 1 := constantI S_ 1 1#1
  let main_v27 : IVec S_ 1 := (fun x v => Host.reduce IntOp.andi x v reducesTo_S128x40_S_d0_1 h_S_) main_v26 main_c_9
  let main_v28 : IVec S_ 1 := andi main_v23 main_v27
  let main_v29 : FVec F S40 .f32 := Host.absf main_arg9
  let main_cst_10 : FVec F S_ .f32 := constant S_ .f32 0x7F800000#32
  let main_v30 : FVec F S40 .f32 := broadcastInDim S40 ![] bcast_S_S40 main_cst_10
  let main_v31 : IVec S40 1 := cmpf .olt main_v29 main_v30
  let main_c_11 : IVec S_ 1 := constantI S_ 1 1#1
  let main_v32 : IVec S_ 1 := (fun x v => Host.reduce IntOp.andi x v reducesTo_S40_S_d0 h_S_) main_v31 main_c_11
  let main_v33 : IVec S_ 1 := andi main_v28 main_v32
  main_v33

def fn {F : FTy → Type} [FloatOps F] (main_arg0 : FVec F S100000x128 .f32) (main_arg1 : IVec S1600000 32) (main_arg2 : IVec S1600000 32) (main_arg3 : IVec S1024 32) (main_arg4 : FVec F S128x128 .f32) (main_arg5 : FVec F S128 .f32) (main_arg6 : FVec F S128x128 .f32) (main_arg7 : FVec F S128 .f32) (main_arg8 : FVec F S128x40 .f32) (main_arg9 : FVec F S40 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg4
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg5
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg6
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg7 main_arg8 main_arg9 main_v13 main_v16
-- ==== Kernel.lean ====
abbrev S100000x128 : Shape := ⟨2, ![100000, 128]⟩
abbrev S1600000 : Shape := ⟨1, ![1600000]⟩
abbrev S1024 : Shape := ⟨1, ![1024]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1 : Shape := ⟨1, ![1]⟩
abbrev S1x1 : Shape := ⟨2, ![1, 1]⟩
abbrev S1600000x128 : Shape := ⟨2, ![1600000, 128]⟩
abbrev S1x128 : Shape := ⟨2, ![1, 128]⟩
abbrev S4000x128 : Shape := ⟨2, ![4000, 128]⟩
abbrev S4000x1 : Shape := ⟨2, ![4000, 1]⟩
abbrev S1024x1 : Shape := ⟨2, ![1024, 1]⟩
abbrev S1024x128 : Shape := ⟨2, ![1024, 128]⟩
abbrev S1x40 : Shape := ⟨2, ![1, 40]⟩
abbrev S1024x40 : Shape := ⟨2, ![1024, 40]⟩

abbrev nBuf : Space → Nat
  | .hbm => 100
  | .vmem => 24
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S1024, .i32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x40, .f32⟩
  | .hbm, ⟨9, _⟩ => ⟨S40, .f32⟩
  | .hbm, ⟨10, _⟩ => ⟨S_, .f32⟩
  | .hbm, ⟨11, _⟩ => ⟨S1600000, .f32⟩
  | .hbm, ⟨12, _⟩ => ⟨S_, .f32⟩
  | .hbm, ⟨13, _⟩ => ⟨S100000, .f32⟩
  | .hbm, ⟨14, _⟩ => ⟨S1600000x1, .i32⟩
  | .hbm, ⟨15, _⟩ => ⟨S100000, .f32⟩
  | .hbm, ⟨16, _⟩ => ⟨S100000x1, .f32⟩
  | .hbm, ⟨17, _⟩ => ⟨S_, .i32⟩
  | .hbm, ⟨18, _⟩ => ⟨S1600000, .i32⟩
  | .hbm, ⟨19, _⟩ => ⟨S1600000, .i1⟩
  | .hbm, ⟨20, _⟩ => ⟨S_, .i32⟩
  | .hbm, ⟨21, _⟩ => ⟨S1600000, .i32⟩
  | .hbm, ⟨22, _⟩ => ⟨S1600000, .i32⟩
  | .hbm, ⟨23, _⟩ => ⟨S1600000, .i32⟩
  | .hbm, ⟨24, _⟩ => ⟨S1600000x1, .i32⟩
  | .hbm, ⟨25, _⟩ => ⟨S1, .i32⟩
  | .hbm, ⟨26, _⟩ => ⟨S_, .i32⟩
  | .hbm, ⟨27, _⟩ => ⟨S1600000x1, .i32⟩
  | .hbm, ⟨28, _⟩ => ⟨S1600000x1, .i1⟩
  | .hbm, ⟨29, _⟩ => ⟨S1x1, .i32⟩
  | .hbm, ⟨30, _⟩ => ⟨S1600000x1, .i32⟩
  | .hbm, ⟨31, _⟩ => ⟨S1600000x1, .i1⟩
  | .hbm, ⟨32, _⟩ => ⟨S1600000x1, .i1⟩
  | .hbm, ⟨33, _⟩ => ⟨S_, .i1⟩
  | .hbm, ⟨34, _⟩ => ⟨S1600000, .i1⟩
  | .hbm, ⟨35, _⟩ => ⟨S1600000x128, .f32⟩
  | .hbm, ⟨36, _⟩ => ⟨S1600000x128, .i1⟩
  | .hbm, ⟨37, _⟩ => ⟨S_, .f32⟩
  | .hbm, ⟨38, _⟩ => ⟨S1600000x128, .f32⟩
  | .hbm, ⟨39, _⟩ => ⟨S1600000x128, .f32⟩
  | .hbm, ⟨40, _⟩ => ⟨S_, .f32⟩
  | .hbm, ⟨41, _⟩ => ⟨S100000x128, .f32⟩
  | .hbm, ⟨42, _⟩ => ⟨S1600000x1, .i32⟩
  | .hbm, ⟨43, _⟩ => ⟨S100000x128, .f32⟩
  | .hbm, ⟨44, _⟩ => ⟨S1x128, .f32⟩
  | .hbm, ⟨45, _⟩ => ⟨S100000x128, .f32⟩
  | .hbm, ⟨46, _⟩ => ⟨S_, .i32⟩
  | .hbm, ⟨47, _⟩ => ⟨S1600000, .i32⟩
  | .hbm, ⟨48, _⟩ => ⟨S1600000, .i1⟩
  | .hbm, ⟨49, _⟩ => ⟨S_, .i32⟩
  | .hbm, ⟨50, _⟩ => ⟨S1600000, .i32⟩
  | .hbm, ⟨51, _⟩ => ⟨S1600000, .i32⟩
  | .hbm, ⟨52, _⟩ => ⟨S1600000, .i32⟩
  | .hbm, ⟨53, _⟩ => ⟨S1600000x1, .i32⟩
  | .hbm, ⟨54, _⟩ => ⟨S1, .i32⟩
  | .hbm, ⟨55, _⟩ => ⟨S_, .i32⟩
  | .hbm, ⟨56, _⟩ => ⟨S1600000x1, .i32⟩
  | .hbm, ⟨57, _⟩ => ⟨S1600000x1, .i1⟩
  | .hbm, ⟨58, _⟩ => ⟨S1x1, .i32⟩
  | .hbm, ⟨59, _⟩ => ⟨S1600000x1, .i32⟩
  | .hbm, ⟨60, _⟩ => ⟨S1600000x1, .i1⟩
  | .hbm, ⟨61, _⟩ => ⟨S1600000x1, .i1⟩
  | .hbm, ⟨62, _⟩ => ⟨S_, .i1⟩
  | .hbm, ⟨63, _⟩ => ⟨S1600000, .i1⟩
  | .hbm, ⟨64, _⟩ => ⟨S1600000x128, .f32⟩
  | .hbm, ⟨65, _⟩ => ⟨S1600000x128, .i1⟩
  | .hbm, ⟨66, _⟩ => ⟨S_, .f32⟩
  | .hbm, ⟨67, _⟩ => ⟨S1600000x128, .f32⟩
  | .hbm, ⟨68, _⟩ => ⟨S1600000x128, .f32⟩
  | .hbm, ⟨69, _⟩ => ⟨S_, .f32⟩
  | .hbm, ⟨70, _⟩ => ⟨S100000x128, .f32⟩
  | .hbm, ⟨71, _⟩ => ⟨S1600000x1, .i32⟩
  | .hbm, ⟨72, _⟩ => ⟨S100000x128, .f32⟩
  | .hbm, ⟨73, _⟩ => ⟨S1x128, .f32⟩
  | .hbm, ⟨74, _⟩ => ⟨S100000x128, .f32⟩
  | .hbm, ⟨75, _⟩ => ⟨S_, .i32⟩
  | .hbm, ⟨76, _⟩ => ⟨S1024, .i32⟩
  | .hbm, ⟨77, _⟩ => ⟨S1024, .i1⟩
  | .hbm, ⟨78, _⟩ => ⟨S_, .i32⟩
  | .hbm, ⟨79, _⟩ => ⟨S1024, .i32⟩
  | .hbm, ⟨80, _⟩ => ⟨S1024, .i32⟩
  | .hbm, ⟨81, _⟩ => ⟨S1024, .i32⟩
  | .hbm, ⟨82, _⟩ => ⟨S1024x1, .i32⟩
  | .hbm, ⟨83, _⟩ => ⟨S1, .i32⟩
  | .hbm, ⟨84, _⟩ => ⟨S_, .i32⟩
  | .hbm, ⟨85, _⟩ => ⟨S1024x1, .i32⟩
  | .hbm, ⟨86, _⟩ => ⟨S1024x1, .i1⟩
  | .hbm, ⟨87, _⟩ => ⟨S1x1, .i32⟩
  | .hbm, ⟨88, _⟩ => ⟨S1024x1, .i32⟩
  | .hbm, ⟨89, _⟩ => ⟨S1024x1, .i1⟩
  | .hbm, ⟨90, _⟩ => ⟨S1024x1, .i1⟩
  | .hbm, ⟨91, _⟩ => ⟨S_, .i1⟩
  | .hbm, ⟨92, _⟩ => ⟨S1024, .i1⟩
  | .hbm, ⟨93, _⟩ => ⟨S1024x128, .f32⟩
  | .hbm, ⟨94, _⟩ => ⟨S1024x128, .i1⟩
  | .hbm, ⟨95, _⟩ => ⟨S_, .f32⟩
  | .hbm, ⟨96, _⟩ => ⟨S1024x128, .f32⟩
  | .hbm, ⟨97, _⟩ => ⟨S1024x128, .f32⟩
  | .hbm, ⟨98, _⟩ => ⟨S1x40, .f32⟩
  | .hbm, ⟨99, _⟩ => ⟨S1024x40, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S4000x1, .f32⟩
  | .local _ .vmem, ⟨5, _⟩ => ⟨S4000x1, .f32⟩
  | .local _ .vmem, ⟨6, _⟩ => ⟨S128x128, .f32⟩
  | .local _ .vmem, ⟨7, _⟩ => ⟨S1x128, .f32⟩
  | .local _ .vmem, ⟨8, _⟩ => ⟨S4000x128, .f32⟩
  | .local _ .vmem, ⟨9, _⟩ => ⟨S4000x128, .f32⟩
  | .local _ .vmem, ⟨10, _⟩ => ⟨S4000x128, .f32⟩
  | .local _ .vmem, ⟨11, _⟩ => ⟨S4000x128, .f32⟩
  | .local _ .vmem, ⟨12, _⟩ => ⟨S4000x128, .f32⟩
  | .local _ .vmem, ⟨13, _⟩ => ⟨S4000x128, .f32⟩
  | .local _ .vmem, ⟨14, _⟩ => ⟨S4000x1, .f32⟩
  | .local _ .vmem, ⟨15, _⟩ => ⟨S4000x1, .f32⟩
  | .local _ .vmem, ⟨16, _⟩ => ⟨S128x128, .f32⟩
  | .local _ .vmem, ⟨17, _⟩ => ⟨S1x128, .f32⟩
  | .local _ .vmem, ⟨18, _⟩ => ⟨S4000x128, .f32⟩
  | .local _ .vmem, ⟨19, _⟩ => ⟨S4000x128, .f32⟩
  | .local _ .vmem, ⟨20, _⟩ => ⟨S1024x128, .f32⟩
  | .local _ .vmem, ⟨21, _⟩ => ⟨S128x40, .f32⟩
  | .local _ .vmem, ⟨22, _⟩ => ⟨S1x40, .f32⟩
  | .local _ .vmem, ⟨23, _⟩ => ⟨S1024x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_cst_0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_call0_c : Ref sig .tc := ⟨.hbm, 17, rfl⟩
abbrev main_call0_v0 : Ref sig .tc := ⟨.hbm, 18, rfl⟩
abbrev main_call0_v1 : Ref sig .tc := ⟨.hbm, 19, rfl⟩
abbrev main_call0_c_0 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_c_1 : Ref sig .tc := ⟨.hbm, 25, rfl⟩
abbrev main_call0_c_2 : Ref sig .tc := ⟨.hbm, 26, rfl⟩
abbrev main_call0_v6 : Ref sig .tc := ⟨.hbm, 27, rfl⟩
abbrev main_call0_v7 : Ref sig .tc := ⟨.hbm, 28, rfl⟩
abbrev main_call0_v8 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_c_3 : Ref sig .tc := ⟨.hbm, 33, rfl⟩
abbrev main_call0_v12 : Ref sig .tc := ⟨.hbm, 34, rfl⟩
abbrev main_call0_v13 : Ref sig .tc := ⟨.hbm, 35, rfl⟩
abbrev main_call0_v14 : Ref sig .tc := ⟨.hbm, 36, rfl⟩
abbrev main_call0_cst : Ref sig .tc := ⟨.hbm, 37, rfl⟩
abbrev main_call0_v15 : Ref sig .tc := ⟨.hbm, 38, rfl⟩
abbrev main_v5 : Ref sig .tc := ⟨.hbm, 39, rfl⟩
abbrev main_cst_1 : Ref sig .tc := ⟨.hbm, 40, rfl⟩
abbrev main_v6 : Ref sig .tc := ⟨.hbm, 41, rfl⟩
abbrev main_v7 : Ref sig .tc := ⟨.hbm, 42, rfl⟩
abbrev main_v8 : Ref sig .tc := ⟨.hbm, 43, rfl⟩
abbrev main_v9 : Ref sig .tc := ⟨.hbm, 44, rfl⟩
abbrev main_v10 : Ref sig .tc := ⟨.hbm, 45, rfl⟩
abbrev main_call1_c : Ref sig .tc := ⟨.hbm, 46, rfl⟩
abbrev main_call1_v0 : Ref sig .tc := ⟨.hbm, 47, rfl⟩
abbrev main_call1_v1 : Ref sig .tc := ⟨.hbm, 48, rfl⟩
abbrev main_call1_c_0 : Ref sig .tc := ⟨.hbm, 49, rfl⟩
abbrev main_call1_v2 : Ref sig .tc := ⟨.hbm, 50, rfl⟩
abbrev main_call1_v3 : Ref sig .tc := ⟨.hbm, 51, rfl⟩
abbrev main_call1_v4 : Ref sig .tc := ⟨.hbm, 52, rfl⟩
abbrev main_call1_v5 : Ref sig .tc := ⟨.hbm, 53, rfl⟩
abbrev main_call1_c_1 : Ref sig .tc := ⟨.hbm, 54, rfl⟩
abbrev main_call1_c_2 : Ref sig .tc := ⟨.hbm, 55, rfl⟩
abbrev main_call1_v6 : Ref sig .tc := ⟨.hbm, 56, rfl⟩
abbrev main_call1_v7 : Ref sig .tc := ⟨.hbm, 57, rfl⟩
abbrev main_call1_v8 : Ref sig .tc := ⟨.hbm, 58, rfl⟩
abbrev main_call1_v9 : Ref sig .tc := ⟨.hbm, 59, rfl⟩
abbrev main_call1_v10 : Ref sig .tc := ⟨.hbm, 60, rfl⟩
abbrev main_call1_v11 : Ref sig .tc := ⟨.hbm, 61, rfl⟩
abbrev main_call1_c_3 : Ref sig .tc := ⟨.hbm, 62, rfl⟩
abbrev main_call1_v12 : Ref sig .tc := ⟨.hbm, 63, rfl⟩
abbrev main_call1_v13 : Ref sig .tc := ⟨.hbm, 64, rfl⟩
abbrev main_call1_v14 : Ref sig .tc := ⟨.hbm, 65, rfl⟩
abbrev main_call1_cst : Ref sig .tc := ⟨.hbm, 66, rfl⟩
abbrev main_call1_v15 : Ref sig .tc := ⟨.hbm, 67, rfl⟩
abbrev main_v11 : Ref sig .tc := ⟨.hbm, 68, rfl⟩
abbrev main_cst_2 : Ref sig .tc := ⟨.hbm, 69, rfl⟩
abbrev main_v12 : Ref sig .tc := ⟨.hbm, 70, rfl⟩
abbrev main_v13 : Ref sig .tc := ⟨.hbm, 71, rfl⟩
abbrev main_v14 : Ref sig .tc := ⟨.hbm, 72, rfl⟩
abbrev main_v15 : Ref sig .tc := ⟨.hbm, 73, rfl⟩
abbrev main_v16 : Ref sig .tc := ⟨.hbm, 74, rfl⟩
abbrev main_call2_c : Ref sig .tc := ⟨.hbm, 75, rfl⟩
abbrev main_call2_v0 : Ref sig .tc := ⟨.hbm, 76, rfl⟩
abbrev main_call2_v1 : Ref sig .tc := ⟨.hbm, 77, rfl⟩
abbrev main_call2_c_0 : Ref sig .tc := ⟨.hbm, 78, rfl⟩
abbrev main_call2_v2 : Ref sig .tc := ⟨.hbm, 79, rfl⟩
abbrev main_call2_v3 : Ref sig .tc := ⟨.hbm, 80, rfl⟩
abbrev main_call2_v4 : Ref sig .tc := ⟨.hbm, 81, rfl⟩
abbrev main_call2_v5 : Ref sig .tc := ⟨.hbm, 82, rfl⟩
abbrev main_call2_c_1 : Ref sig .tc := ⟨.hbm, 83, rfl⟩
abbrev main_call2_c_2 : Ref sig .tc := ⟨.hbm, 84, rfl⟩
abbrev main_call2_v6 : Ref sig .tc := ⟨.hbm, 85, rfl⟩
abbrev main_call2_v7 : Ref sig .tc := ⟨.hbm, 86, rfl⟩
abbrev main_call2_v8 : Ref sig .tc := ⟨.hbm, 87, rfl⟩
abbrev main_call2_v9 : Ref sig .tc := ⟨.hbm, 88, rfl⟩
abbrev main_call2_v10 : Ref sig .tc := ⟨.hbm, 89, rfl⟩
abbrev main_call2_v11 : Ref sig .tc := ⟨.hbm, 90, rfl⟩
abbrev main_call2_c_3 : Ref sig .tc := ⟨.hbm, 91, rfl⟩
abbrev main_call2_v12 : Ref sig .tc := ⟨.hbm, 92, rfl⟩
abbrev main_call2_v13 : Ref sig .tc := ⟨.hbm, 93, rfl⟩
abbrev main_call2_v14 : Ref sig .tc := ⟨.hbm, 94, rfl⟩
abbrev main_call2_cst : Ref sig .tc := ⟨.hbm, 95, rfl⟩
abbrev main_call2_v15 : Ref sig .tc := ⟨.hbm, 96, rfl⟩
abbrev main_v17 : Ref sig .tc := ⟨.hbm, 97, rfl⟩
abbrev main_v18 : Ref sig .tc := ⟨.hbm, 98, rfl⟩
abbrev main_v19 : Ref sig .tc := ⟨.hbm, 99, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc2_stg0_0 : Ref sig .tc := ⟨.vmem, 20, rfl⟩
abbrev cc2_stg1_0 : Ref sig .tc := ⟨.vmem, 21, rfl⟩
abbrev cc2_stg2_0 : Ref sig .tc := ⟨.vmem, 22, rfl⟩
abbrev cc2_stg3_0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem4_0 : DmaSem sig := 17
abbrev cc1_sem5_0 : DmaSem sig := 18
abbrev cc1_sem5_1 : DmaSem sig := 19
abbrev cc2_sem0_0 : DmaSem sig := 20
abbrev cc2_sem1_0 : DmaSem sig := 21
abbrev cc2_sem2_0 : DmaSem sig := 22
abbrev cc2_sem3_0 : DmaSem sig := 23

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S4000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S1024x128 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S128x40 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x40 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1024x40 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x128_0 : S1600000.BroadcastsInDim S1600000x128 (![0] : Fin 1 → Fin S1600000x128.rank)
  bcast_S_S1600000x128 : S_.BroadcastsInDim S1600000x128 (![] : Fin 0 → Fin S1600000x128.rank)
  bcast_S_S100000x128 : S_.BroadcastsInDim S100000x128 (![] : Fin 0 → Fin S100000x128.rank)
  shapeCasts_S128_S1x128 : S128.ShapeCasts S1x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x128 : S4000x1.Broadcasts S4000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  bcast_S_S1024 : S_.BroadcastsInDim S1024 (![] : Fin 0 → Fin S1024.rank)
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S1x1_S1024x1_0_1 : S1x1.BroadcastsInDim S1024x1 (![0, 1] : Fin 2 → Fin S1024x1.rank)
  reducesTo_S1024x1_S1024_d1 : S1024x1.ReducesTo [1] S1024
  bcast_S1024_S1024x128_0 : S1024.BroadcastsInDim S1024x128 (![0] : Fin 1 → Fin S1024x128.rank)
  bcast_S_S1024x128 : S_.BroadcastsInDim S1024x128 (![] : Fin 0 → Fin S1024x128.rank)
  shapeCasts_S40_S1x40 : S40.ShapeCasts S1x40
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S128x40_S128x40_0_0 : ∀ a, (![0, 0] : Fin 2 → Nat) a + S128x40.size a ≤ S128x40.size a
  h_S128x40 : 0 < S128x40.numel
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S1024x40 : S1x40.Broadcasts S1024x40
  reduces_S1024x40_S1024 : S1024x40.Reduces [1] S1024
  shapeCasts_S1024_S1024x1 : S1024.ShapeCasts S1024x1
  broadcasts_S1024x1_S1024x40 : S1024x1.Broadcasts S1024x40
  inb_S1024x40_S1024x40_0_0 : ∀ a, (![0, 0] : Fin 2 → Nat) a + S1024x40.size a ≤ S1024x40.size a
  h_S1024x40 : 0 < S1024x40.numel
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S4000x128_S128x128_S4000x128_1_0_0_1_n_n_wf : DotDims.WF S4000x128 S128x128 S4000x128 [1] [0] [0] [1] [] []
  gather_S100000x128_S1024x1_S1024x128_1_0_n_n_0_1_1128_wf : GatherDims.WF S100000x128 S1024x1 S1024x128 [1] [0] [] [0] [] 1 ![1, 128]
  dot_S1024x128_S128x40_S1024x40_1_0_0_1_n_n_wf : DotDims.WF S1024x128 S128x40 S1024x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S100000x128.size a
  hwx0_1 : ∀ i : grid0.Coords, EltTy.bits .f32 = 32 ∨ (Rect.block (s := S100000x128) S4000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x1.size a ≤ S100000x1.size a
  hwx0_2 : ∀ i : grid0.Coords, EltTy.bits .f32 = 32 ∨ (Rect.block (s := S100000x1) S4000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4000x128.size a ≤ S100000x128.size a
  hwx0_5 : ∀ i : grid0.Coords, EltTy.bits .f32 = 32 ∨ (Rect.block (s := S100000x128) S4000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S100000x128.size a
  hwx1_1 : ∀ i : grid1.Coords, EltTy.bits .f32 = 32 ∨ (Rect.block (s := S100000x128) S4000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x1.size a ≤ S100000x1.size a
  hwx1_2 : ∀ i : grid1.Coords, EltTy.bits .f32 = 32 ∨ (Rect.block (s := S100000x1) S4000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4000x128.size a ≤ S100000x128.size a
  hwx1_5 : ∀ i : grid1.Coords, EltTy.bits .f32 = 32 ∨ (Rect.block (s := S100000x128) S4000x128.size (cc1_transform_5 i) (hinb1_5 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S1024x128.size a ≤ S1024x128.size a
  hwx2_0 : ∀ i : grid2.Coords, EltTy.bits .f32 = 32 ∨ (Rect.block (s := S1024x128) S1024x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x40.size a ≤ S128x40.size a
  hwx2_1 : ∀ i : grid2.Coords, EltTy.bits .f32 = 32 ∨ (Rect.block (s := S128x40) S128x40.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x40.size a ≤ S1x40.size a
  hwx2_2 : ∀ i : grid2.Coords, EltTy.bits .f32 = 32 ∨ (Rect.block (s := S1x40) S1x40.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1024x40.size a ≤ S1024x40.size a
  hwx2_3 : ∀ i : grid2.Coords, EltTy.bits .f32 = 32 ∨ (Rect.block (s := S1024x40) S1024x40.size (cc2_transform_3 i) (hinb2_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def gather_S100000x128_S1024x1_S1024x128_1_0_n_n_0_1_1128 : GatherDims S100000x128 S1024x1 S1024x128 where
  offsetDims := [1]
  collapsedSliceDims := [0]
  operandBatchingDims := []
  startIndicesBatchingDims := []
  startIndexMap := [0]
  indexVectorDim := 1
  sliceSizes := ![1, 128]
  wf := gather_S100000x128_S1024x1_S1024x128_1_0_n_n_0_1_1128_wf
def dot_S1024x128_S128x40_S1024x40_1_0_0_1_n_n : DotDims S1024x128 S128x40 S1024x40 where
  lhsContracting := [1]
  rhsContracting := [0]
  lhsNonContracting := [0]
  rhsNonContracting := [1]
  lhsBatch := []
  rhsBatch := []
  wf := dot_S1024x128_S128x40_S1024x40_1_0_0_1_n_n_wf

abbrev win0_0 : Pipeline.Window sig grid0 :=
  Pipeline.Window.ofSpec (Memref.whole main_v8) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S4000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v10) S4000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v14) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v10) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S4000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v15) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v16) S4000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v17) S1024x128.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_arg8) S128x40.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v18) S1x40.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v19) S1024x40.size cc2_transform_3 reads2_3 true true 1 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x128 : Shape := ⟨2, ![100000, 128]⟩
abbrev S1600000 : Shape := ⟨1, ![1600000]⟩
abbrev S1024 : Shape := ⟨1, ![1024]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩
abbrev S1600000x1 : Shape := ⟨2, ![1600000, 1]⟩
abbrev S1 : Shape := ⟨1, ![1]⟩
abbrev S1x1 : Shape := ⟨2, ![1, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩
abbrev S1024x1 : Shape := ⟨2, ![1024, 1]⟩
abbrev S1024x128 : Shape := ⟨2, ![1024, 128]⟩
abbrev S1024x40 : Shape := ⟨2, ![1024, 40]⟩
abbrev S1x40 : Shape := ⟨2, ![1, 40]⟩

abbrev nBuf : Space → Nat
  | .hbm => 146
  | .vmem => 0
  | .smem => 0
  | _ => 0

abbrev hbmTy0_0 (i : Nat) : BufTy := match i % 128 with
  | 0 => ⟨S100000x128, .f32⟩
  | 1 => ⟨S1600000, .i32⟩
  | 2 => ⟨S1600000, .i32⟩
  | 3 => ⟨S1024, .i32⟩
  | 4 => ⟨S128x128, .f32⟩
  | 5 => ⟨S128, .f32⟩
  | 6 => ⟨S128x128, .f32⟩
  | 7 => ⟨S128, .f32⟩
  | 8 => ⟨S128x40, .f32⟩
  | 9 => ⟨S40, .f32⟩
  | 10 => ⟨S_, .i32⟩
  | 11 => ⟨S1600000, .i32⟩
  | 12 => ⟨S1600000, .i1⟩
  | 13 => ⟨S_, .i32⟩
  | 14 => ⟨S1600000, .i32⟩
  | 15 => ⟨S1600000, .i32⟩
  | 16 => ⟨S1600000, .i32⟩
  | 17 => ⟨S1600000x1, .i32⟩
  | 18 => ⟨S1, .i32⟩
  | 19 => ⟨S_, .i32⟩
  | 20 => ⟨S1600000x1, .i32⟩
  | 21 => ⟨S1600000x1, .i1⟩
  | 22 => ⟨S1x1, .i32⟩
  | 23 => ⟨S1600000x1, .i32⟩
  | 24 => ⟨S1600000x1, .i1⟩
  | 25 => ⟨S1600000x1, .i1⟩
  | 26 => ⟨S_, .i1⟩
  | 27 => ⟨S1600000, .i1⟩
  | 28 => ⟨S1600000x128, .f32⟩
  | 29 => ⟨S1600000x128, .i1⟩
  | 30 => ⟨S_, .f32⟩
  | 31 => ⟨S1600000x128, .f32⟩
  | 32 => ⟨S1600000x128, .f32⟩
  | 33 => ⟨S_, .f32⟩
  | 34 => ⟨S100000x128, .f32⟩
  | 35 => ⟨S1600000x1, .i32⟩
  | 36 => ⟨S100000x128, .f32⟩
  | 37 => ⟨S_, .f32⟩
  | 38 => ⟨S1600000, .f32⟩
  | 39 => ⟨S_, .f32⟩
  | 40 => ⟨S100000, .f32⟩
  | 41 => ⟨S1600000x1, .i32⟩
  | 42 => ⟨S100000, .f32⟩
  | 43 => ⟨S100000x128, .f32⟩
  | 44 => ⟨S_, .f32⟩
  | 45 => ⟨S100000, .f32⟩
  | 46 => ⟨S100000, .f32⟩
  | 47 => ⟨S100000x1, .f32⟩
  | 48 => ⟨S100000x128, .f32⟩
  | 49 => ⟨S100000x128, .f32⟩
  | 50 => ⟨S100000x128, .f32⟩
  | 51 => ⟨S1x128, .f32⟩
  | 52 => ⟨S100000x128, .f32⟩
  | 53 => ⟨S100000x128, .f32⟩
  | 54 => ⟨S_, .f32⟩
  | 55 => ⟨S100000x128, .f32⟩
  | 56 => ⟨S100000x128, .f32⟩
  | 57 => ⟨S_, .i32⟩
  | 58 => ⟨S1600000, .i32⟩
  | 59 => ⟨S1600000, .i1⟩
  | 60 => ⟨S_, .i32⟩
  | 61 => ⟨S1600000, .i32⟩
  | 62 => ⟨S1600000, .i32⟩
  | 63 => ⟨S1600000, .i32⟩
  | 64 => ⟨S1600000x1, .i32⟩
  | 65 => ⟨S1, .i32⟩
  | 66 => ⟨S_, .i32⟩
  | 67 => ⟨S1600000x1, .i32⟩
  | 68 => ⟨S1600000x1, .i1⟩
  | 69 => ⟨S1x1, .i32⟩
  | 70 => ⟨S1600000x1, .i32⟩
  | 71 => ⟨S1600000x1, .i1⟩
  | 72 => ⟨S1600000x1, .i1⟩
  | 73 => ⟨S_, .i1⟩
  | 74 => ⟨S1600000, .i1⟩
  | 75 => ⟨S1600000x128, .f32⟩
  | 76 => ⟨S1600000x128, .i1⟩
  | 77 => ⟨S_, .f32⟩
  | 78 => ⟨S1600000x128, .f32⟩
  | 79 => ⟨S1600000x128, .f32⟩
  | 80 => ⟨S_, .f32⟩
  | 81 => ⟨S100000x128, .f32⟩
  | 82 => ⟨S1600000x1, .i32⟩
  | 83 => ⟨S100000x128, .f32⟩
  | 84 => ⟨S_, .f32⟩
  | 85 => ⟨S1600000, .f32⟩
  | 86 => ⟨S_, .f32⟩
  | 87 => ⟨S100000, .f32⟩
  | 88 => ⟨S1600000x1, .i32⟩
  | 89 => ⟨S100000, .f32⟩
  | 90 => ⟨S100000x128, .f32⟩
  | 91 => ⟨S_, .f32⟩
  | 92 => ⟨S100000, .f32⟩
  | 93 => ⟨S100000, .f32⟩
  | 94 => ⟨S100000x1, .f32⟩
  | 95 => ⟨S100000x128, .f32⟩
  | 96 => ⟨S100000x128, .f32⟩
  | 97 => ⟨S100000x128, .f32⟩
  | 98 => ⟨S1x128, .f32⟩
  | 99 => ⟨S100000x128, .f32⟩
  | 100 => ⟨S100000x128, .f32⟩
  | 101 => ⟨S_, .f32⟩
  | 102 => ⟨S100000x128, .f32⟩
  | 103 => ⟨S100000x128, .f32⟩
  | 104 => ⟨S_, .i32⟩
  | 105 => ⟨S1024, .i32⟩
  | 106 => ⟨S1024, .i1⟩
  | 107 => ⟨S_, .i32⟩
  | 108 => ⟨S1024, .i32⟩
  | 109 => ⟨S1024, .i32⟩
  | 110 => ⟨S1024, .i32⟩
  | 111 => ⟨S1024x1, .i32⟩
  | 112 => ⟨S1, .i32⟩
  | 113 => ⟨S_, .i32⟩
  | 114 => ⟨S1024x1, .i32⟩
  | 115 => ⟨S1024x1, .i1⟩
  | 116 => ⟨S1x1, .i32⟩
  | 117 => ⟨S1024x1, .i32⟩
  | 118 => ⟨S1024x1, .i1⟩
  | 119 => ⟨S1024x1, .i1⟩
  | 120 => ⟨S_, .i1⟩
  | 121 => ⟨S1024, .i1⟩
  | 122 => ⟨S1024x128, .f32⟩
  | 123 => ⟨S1024x128, .i1⟩
  | 124 => ⟨S_, .f32⟩
  | 125 => ⟨S1024x128, .f32⟩
  | 126 => ⟨S1024x128, .f32⟩
  | 127 => ⟨S1024x40, .f32⟩
  | _ => ⟨S100000x128, .f32⟩

abbrev hbmTy0_1 (i : Nat) : BufTy := match i % 128 with
  | 0 => ⟨S1x40, .f32⟩
  | 1 => ⟨S1024x40, .f32⟩
  | 2 => ⟨S1024x40, .f32⟩
  | 3 => ⟨S_, .f32⟩
  | 4 => ⟨S1024, .f32⟩
  | 5 => ⟨S_, .f32⟩
  | 6 => ⟨S1024, .f32⟩
  | 7 => ⟨S1024, .f32⟩
  | 8 => ⟨S1024x1, .f32⟩
  | 9 => ⟨S1024x40, .f32⟩
  | 10 => ⟨S1024x40, .f32⟩
  | 11 => ⟨S1024x40, .f32⟩
  | 12 => ⟨S_, .f32⟩
  | 13 => ⟨S1024, .f32⟩
  | 14 => ⟨S1024x1, .f32⟩
  | 15 => ⟨S1024x1, .f32⟩
  | 16 => ⟨S1024x40, .f32⟩
  | 17 => ⟨S1024x40, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_call0_c : Ref sig .tc := ⟨.hbm, 10, rfl⟩
abbrev main_call0_v0 : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_c_1 : Ref sig .tc := ⟨.hbm, 18, rfl⟩
abbrev main_call0_c_2 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_3 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_call0_cst : Ref sig .tc := ⟨.hbm, 30, rfl⟩
abbrev main_call0_v15 : Ref sig .tc := ⟨.hbm, 31, rfl⟩
abbrev main_v0 : Ref sig .tc := ⟨.hbm, 32, rfl⟩
abbrev main_cst : Ref sig .tc := ⟨.hbm, 33, rfl⟩
abbrev main_v1 : Ref sig .tc := ⟨.hbm, 34, rfl⟩
abbrev main_v2 : Ref sig .tc := ⟨.hbm, 35, rfl⟩
abbrev main_v3 : Ref sig .tc := ⟨.hbm, 36, rfl⟩
abbrev main_cst_0 : Ref sig .tc := ⟨.hbm, 37, rfl⟩
abbrev main_v4 : Ref sig .tc := ⟨.hbm, 38, rfl⟩
abbrev main_cst_1 : Ref sig .tc := ⟨.hbm, 39, rfl⟩
abbrev main_v5 : Ref sig .tc := ⟨.hbm, 40, rfl⟩
abbrev main_v6 : Ref sig .tc := ⟨.hbm, 41, rfl⟩
abbrev main_v7 : Ref sig .tc := ⟨.hbm, 42, rfl⟩
abbrev main_v8 : Ref sig .tc := ⟨.hbm, 43, rfl⟩
abbrev main_cst_2 : Ref sig .tc := ⟨.hbm, 44, rfl⟩
abbrev main_v9 : Ref sig .tc := ⟨.hbm, 45, rfl⟩
abbrev main_v10 : Ref sig .tc := ⟨.hbm, 46, rfl⟩
abbrev main_v11 : Ref sig .tc := ⟨.hbm, 47, rfl⟩
abbrev main_v12 : Ref sig .tc := ⟨.hbm, 48, rfl⟩
abbrev main_v13 : Ref sig .tc := ⟨.hbm, 49, rfl⟩
abbrev main_v14 : Ref sig .tc := ⟨.hbm, 50, rfl⟩
abbrev main_v15 : Ref sig .tc := ⟨.hbm, 51, rfl⟩
abbrev main_v16 : Ref sig .tc := ⟨.hbm, 52, rfl⟩
abbrev main_v17 : Ref sig .tc := ⟨.hbm, 53, rfl⟩
abbrev main_call1_cst : Ref sig .tc := ⟨.hbm, 54, rfl⟩
abbrev main_call1_v0 : Ref sig .tc := ⟨.hbm, 55, rfl⟩
abbrev main_v18 : Ref sig .tc := ⟨.hbm, 56, rfl⟩
abbrev main_call2_c : Ref sig .tc := ⟨.hbm, 57, rfl⟩
abbrev main_call2_v0 : Ref sig .tc := ⟨.hbm, 58, rfl⟩
abbrev main_call2_v1 : Ref sig .tc := ⟨.hbm, 59, rfl⟩
abbrev main_call2_c_0 : Ref sig .tc := ⟨.hbm, 60, rfl⟩
abbrev main_call2_v2 : Ref sig .tc := ⟨.hbm, 61, rfl⟩
abbrev main_call2_v3 : Ref sig .tc := ⟨.hbm, 62, rfl⟩
abbrev main_call2_v4 : Ref sig .tc := ⟨.hbm, 63, rfl⟩
abbrev main_call2_v5 : Ref sig .tc := ⟨.hbm, 64, rfl⟩
abbrev main_call2_c_1 : Ref sig .tc := ⟨.hbm, 65, rfl⟩
abbrev main_call2_c_2 : Ref sig .tc := ⟨.hbm, 66, rfl⟩
abbrev main_call2_v6 : Ref sig .tc := ⟨.hbm, 67, rfl⟩
abbrev main_call2_v7 : Ref sig .tc := ⟨.hbm, 68, rfl⟩
abbrev main_call2_v8 : Ref sig .tc := ⟨.hbm, 69, rfl⟩
abbrev main_call2_v9 : Ref sig .tc := ⟨.hbm, 70, rfl⟩
abbrev main_call2_v10 : Ref sig .tc := ⟨.hbm, 71, rfl⟩
abbrev main_call2_v11 : Ref sig .tc := ⟨.hbm, 72, rfl⟩
abbrev main_call2_c_3 : Ref sig .tc := ⟨.hbm, 73, rfl⟩
abbrev main_call2_v12 : Ref sig .tc := ⟨.hbm, 74, rfl⟩
abbrev main_call2_v13 : Ref sig .tc := ⟨.hbm, 75, rfl⟩
abbrev main_call2_v14 : Ref sig .tc := ⟨.hbm, 76, rfl⟩
abbrev main_call2_cst : Ref sig .tc := ⟨.hbm, 77, rfl⟩
abbrev main_call2_v15 : Ref sig .tc := ⟨.hbm, 78, rfl⟩
abbrev main_v19 : Ref sig .tc := ⟨.hbm, 79, rfl⟩
abbrev main_cst_3 : Ref sig .tc := ⟨.hbm, 80, rfl⟩
abbrev main_v20 : Ref sig .tc := ⟨.hbm, 81, rfl⟩
abbrev main_v21 : Ref sig .tc := ⟨.hbm, 82, rfl⟩
abbrev main_v22 : Ref sig .tc := ⟨.hbm, 83, rfl⟩
abbrev main_cst_4 : Ref sig .tc := ⟨.hbm, 84, rfl⟩
abbrev main_v23 : Ref sig .tc := ⟨.hbm, 85, rfl⟩
abbrev main_cst_5 : Ref sig .tc := ⟨.hbm, 86, rfl⟩
abbrev main_v24 : Ref sig .tc := ⟨.hbm, 87, rfl⟩
abbrev main_v25 : Ref sig .tc := ⟨.hbm, 88, rfl⟩
abbrev main_v26 : Ref sig .tc := ⟨.hbm, 89, rfl⟩
abbrev main_v27 : Ref sig .tc := ⟨.hbm, 90, rfl⟩
abbrev main_cst_6 : Ref sig .tc := ⟨.hbm, 91, rfl⟩
abbrev main_v28 : Ref sig .tc := ⟨.hbm, 92, rfl⟩
abbrev main_v29 : Ref sig .tc := ⟨.hbm, 93, rfl⟩
abbrev main_v30 : Ref sig .tc := ⟨.hbm, 94, rfl⟩
abbrev main_v31 : Ref sig .tc := ⟨.hbm, 95, rfl⟩
abbrev main_v32 : Ref sig .tc := ⟨.hbm, 96, rfl⟩
abbrev main_v33 : Ref sig .tc := ⟨.hbm, 97, rfl⟩
abbrev main_v34 : Ref sig .tc := ⟨.hbm, 98, rfl⟩
abbrev main_v35 : Ref sig .tc := ⟨.hbm, 99, rfl⟩
abbrev main_v36 : Ref sig .tc := ⟨.hbm, 100, rfl⟩
abbrev main_call3_cst : Ref sig .tc := ⟨.hbm, 101, rfl⟩
abbrev main_call3_v0 : Ref sig .tc := ⟨.hbm, 102, rfl⟩
abbrev main_v37 : Ref sig .tc := ⟨.hbm, 103, rfl⟩
abbrev main_call4_c : Ref sig .tc := ⟨.hbm, 104, rfl⟩
abbrev main_call4_v0 : Ref sig .tc := ⟨.hbm, 105, rfl⟩
abbrev main_call4_v1 : Ref sig .tc := ⟨.hbm, 106, rfl⟩
abbrev main_call4_c_0 : Ref sig .tc := ⟨.hbm, 107, rfl⟩
abbrev main_call4_v2 : Ref sig .tc := ⟨.hbm, 108, rfl⟩
abbrev main_call4_v3 : Ref sig .tc := ⟨.hbm, 109, rfl⟩
abbrev main_call4_v4 : Ref sig .tc := ⟨.hbm, 110, rfl⟩
abbrev main_call4_v5 : Ref sig .tc := ⟨.hbm, 111, rfl⟩
abbrev main_call4_c_1 : Ref sig .tc := ⟨.hbm, 112, rfl⟩
abbrev main_call4_c_2 : Ref sig .tc := ⟨.hbm, 113, rfl⟩
abbrev main_call4_v6 : Ref sig .tc := ⟨.hbm, 114, rfl⟩
abbrev main_call4_v7 : Ref sig .tc := ⟨.hbm, 115, rfl⟩
abbrev main_call4_v8 : Ref sig .tc := ⟨.hbm, 116, rfl⟩
abbrev main_call4_v9 : Ref sig .tc := ⟨.hbm, 117, rfl⟩
abbrev main_call4_v10 : Ref sig .tc := ⟨.hbm, 118, rfl⟩
abbrev main_call4_v11 : Ref sig .tc := ⟨.hbm, 119, rfl⟩
abbrev main_call4_c_3 : Ref sig .tc := ⟨.hbm, 120, rfl⟩
abbrev main_call4_v12 : Ref sig .tc := ⟨.hbm, 121, rfl⟩
abbrev main_call4_v13 : Ref sig .tc := ⟨.hbm, 122, rfl⟩
abbrev main_call4_v14 : Ref sig .tc := ⟨.hbm, 123, rfl⟩
abbrev main_call4_cst : Ref sig .tc := ⟨.hbm, 124, rfl⟩
abbrev main_call4_v15 : Ref sig .tc := ⟨.hbm, 125, rfl⟩
abbrev main_v38 : Ref sig .tc := ⟨.hbm, 126, rfl⟩
abbrev main_v39 : Ref sig .tc := ⟨.hbm, 127, rfl⟩
abbrev main_v40 : Ref sig .tc := ⟨.hbm, 128, rfl⟩
abbrev main_v41 : Ref sig .tc := ⟨.hbm, 129, rfl⟩
abbrev main_v42 : Ref sig .tc := ⟨.hbm, 130, rfl⟩
abbrev main_call5_cst : Ref sig .tc := ⟨.hbm, 131, rfl⟩
abbrev main_call5_v0 : Ref sig .tc := ⟨.hbm, 132, rfl⟩
abbrev main_call5_cst_0 : Ref sig .tc := ⟨.hbm, 133, rfl⟩
abbrev main_call5_v1 : Ref sig .tc := ⟨.hbm, 134, rfl⟩
abbrev main_call5_v2 : Ref sig .tc := ⟨.hbm, 135, rfl⟩
abbrev main_call5_v3 : Ref sig .tc := ⟨.hbm, 136, rfl⟩
abbrev main_call5_v4 : Ref sig .tc := ⟨.hbm, 137, rfl⟩
abbrev main_call5_v5 : Ref sig .tc := ⟨.hbm, 138, rfl⟩
abbrev main_call5_v6 : Ref sig .tc := ⟨.hbm, 139, rfl⟩
abbrev main_call5_cst_1 : Ref sig .tc := ⟨.hbm, 140, rfl⟩
abbrev main_call5_v7 : Ref sig .tc := ⟨.hbm, 141, rfl⟩
abbrev main_call5_v8 : Ref sig .tc := ⟨.hbm, 142, rfl⟩
abbrev main_call5_v9 : Ref sig .tc := ⟨.hbm, 143, rfl⟩
abbrev main_call5_v10 : Ref sig .tc := ⟨.hbm, 144, rfl⟩
abbrev main_v43 : Ref sig .tc := ⟨.hbm, 145, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x128_0 : S1600000.BroadcastsInDim S1600000x128 (![0] : Fin 1 → Fin S1600000x128.rank)
  bcast_S_S1600000x128 : S_.BroadcastsInDim S1600000x128 (![] : Fin 0 → Fin S1600000x128.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S1024 : S_.BroadcastsInDim S1024 (![] : Fin 0 → Fin S1024.rank)
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S1x1_S1024x1_0_1 : S1x1.BroadcastsInDim S1024x1 (![0, 1] : Fin 2 → Fin S1024x1.rank)
  reducesTo_S1024x1_S1024_d1 : S1024x1.ReducesTo [1] S1024
  bcast_S1024_S1024x128_0 : S1024.BroadcastsInDim S1024x128 (![0] : Fin 1 → Fin S1024x128.rank)
  bcast_S_S1024x128 : S_.BroadcastsInDim S1024x128 (![] : Fin 0 → Fin S1024x128.rank)
  bcast_S40_S1x40_1 : S40.BroadcastsInDim S1x40 (![1] : Fin 1 → Fin S1x40.rank)
  bcast_S1x40_S1024x40_0_1 : S1x40.BroadcastsInDim S1024x40 (![0, 1] : Fin 2 → Fin S1024x40.rank)
  reducesTo_S1024x40_S1024_d1 : S1024x40.ReducesTo [1] S1024
  bcast_S1024x1_S1024x40_0_1 : S1024x1.BroadcastsInDim S1024x40 (![0, 1] : Fin 2 → Fin S1024x40.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  gather_S100000x128_S1024x1_S1024x128_1_0_n_n_0_1_1128_wf : GatherDims.WF S100000x128 S1024x1 S1024x128 [1] [0] [] [0] [] 1 ![1, 128]
  dot_S1024x128_S128x40_S1024x40_1_0_0_1_n_n_wf : DotDims.WF S1024x128 S128x40 S1024x40 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1024x1_S1024x128_1_0_n_n_0_1_1128 : GatherDims S100000x128 S1024x1 S1024x128 where
  offsetDims := [1]
  collapsedSliceDims := [0]
  operandBatchingDims := []
  startIndicesBatchingDims := []
  startIndexMap := [0]
  indexVectorDim := 1
  sliceSizes := ![1, 128]
  wf := gather_S100000x128_S1024x1_S1024x128_1_0_n_n_0_1_1128_wf
def dot_S1024x128_S128x40_S1024x40_1_0_0_1_n_n : DotDims S1024x128 S128x40 S1024x40 where
  lhsContracting := [1]
  rhsContracting := [0]
  lhsNonContracting := [0]
  rhsNonContracting := [1]
  lhsBatch := []
  rhsBatch := []
  wf := dot_S1024x128_S128x40_S1024x40_1_0_0_1_n_n_wf

class Facts : Prop extends Facts₀ where

variable [Facts]
-- ==== Proof.SageSpec.lean ====
/-
  The reference computation of the two-layer mean-aggregation network, cut into named stages, each stage the
  reference program's own host operations applied to whole arrays:

    take      rows of a node table picked by an integer vector (negative numbers wrap once by the row count,
              rows still out of range are filled with the quiet-NaN word);
    segSum    rows added into the table slot their edge's destination names (a scatter-add into zeros);
    degree    the same scatter-add of a vector of ones: the number of incoming edges of a node;
    layer     relu(((agg + x) / (deg + 1)) · W + b), the division row by row;
    head      log_softmax(x · Wl + bl) along the class axis.

  The whole network is  head (takeB (layer₂ ∘ layer₁)) ; both programs are shown to compute `net`.
-/
import proofs.«136289_j37039797961388_1_alg».proof.ReferenceIdeal
import Idealize.ShloMosaic.PureOps.Ideal

noncomputable section

namespace Cert.Sage

open Idealize.ShloMosaic Cert.ReferenceIdeal Cert.ReferenceIdeal.Facts₀ Cert.ReferenceIdeal.Facts

variable {F : FTy → Type} [FloatOps F] [Cert.ReferenceIdeal.Facts]

/-- Rows of a 100000-row table picked by 1,600,000 edge sources. -/
def takeE (x : FVec F S100000x128 .f32) (idx : IVec S1600000 32) : FVec F S1600000x128 .f32 :=
  select
    (broadcastInDim S1600000x128 ![0] bcast_S1600000_S1600000x128_0
      (Host.reduce IntOp.andi
        (andi
          (cmpi .sge
            (broadcastInDim S1600000x1 ![0] bcast_S1600000_S1600000x1_0
              (select (cmpi .slt idx (broadcastInDim S1600000 ![] bcast_S_S1600000 (constantI S_ 32 0#32)))
                (addi idx (broadcastInDim S1600000 ![] bcast_S_S1600000 (constantI S_ 32 100000#32))) idx))
            (broadcastInDim S1600000x1 ![] bcast_S_S1600000x1 (constantI S_ 32 0#32)))
          (cmpi .sle
            (broadcastInDim S1600000x1 ![0] bcast_S1600000_S1600000x1_0
              (select (cmpi .slt idx (broadcastInDim S1600000 ![] bcast_S_S1600000 (constantI S_ 32 0#32)))
                (addi idx (broadcastInDim S1600000 ![] bcast_S_S1600000 (constantI S_ 32 100000#32))) idx))
            (broadcastInDim S1600000x1 ![0, 1] bcast_S1x1_S1600000x1_0_1
              (broadcastInDim S1x1 ![1] bcast_S1_S1x1_1 (constantI S1 32 99999#32)))))
        (constantI S_ 1 1#1) reducesTo_S1600000x1_S1600000_d1 h_S_))
    (Host.gather gather_S100000x128_S1600000x1_S1600000x128_1_0_n_n_0_1_1128 x
      (broadcastInDim S1600000x1 ![0] bcast_S1600000_S1600000x1_0
        (select (cmpi .slt idx (broadcastInDim S1600000 ![] bcast_S_S1600000 (constantI S_ 32 0#32)))
          (addi idx (broadcastInDim S1600000 ![] bcast_S_S1600000 (constantI S_ 32 100000#32))) idx)))
    (broadcastInDim S1600000x128 ![] bcast_S_S1600000x128 (constant (F := F) S_ .f32 0x7FC00000#32))

/-- Rows of a 100000-row table picked by the 1024 batch nodes. -/
def takeB (x : FVec F S100000x128 .f32) (idx : IVec S1024 32) : FVec F S1024x128 .f32 :=
  select
    (broadcastInDim S1024x128 ![0] bcast_S1024_S1024x128_0
      (Host.reduce IntOp.andi
        (andi
          (cmpi .sge
            (broadcastInDim S1024x1 ![0] bcast_S1024_S1024x1_0
              (select (cmpi .slt idx (broadcastInDim S1024 ![] bcast_S_S1024 (constantI S_ 32 0#32)))
                (addi idx (broadcastInDim S1024 ![] bcast_S_S1024 (constantI S_ 32 100000#32))) idx))
            (broadcastInDim S1024x1 ![] bcast_S_S1024x1 (constantI S_ 32 0#32)))
          (cmpi .sle
            (broadcastInDim S1024x1 ![0] bcast_S1024_S1024x1_0
              (select (cmpi .slt idx (broadcastInDim S1024 ![] bcast_S_S1024 (constantI S_ 32 0#32)))
                (addi idx (broadcastInDim S1024 ![] bcast_S_S1024 (constantI S_ 32 100000#32))) idx))
            (broadcastInDim S1024x1 ![0, 1] bcast_S1x1_S1024x1_0_1
              (broadcastInDim S1x1 ![1] bcast_S1_S1x1_1 (constantI S1 32 99999#32)))))
        (constantI S_ 1 1#1) reducesTo_S1024x1_S1024_d1 h_S_))
    (Host.gather gather_S100000x128_S1024x1_S1024x128_1_0_n_n_0_1_1128 x
      (broadcastInDim S1024x1 ![0] bcast_S1024_S1024x1_0
        (select (cmpi .slt idx (broadcastInDim S1024 ![] bcast_S_S1024 (constantI S_ 32 0#32)))
          (addi idx (broadcastInDim S1024 ![] bcast_S_S1024 (constantI S_ 32 100000#32))) idx)))
    (broadcastInDim S1024x128 ![] bcast_S_S1024x128 (constant (F := F) S_ .f32 0x7FC00000#32))

/-- The edge messages summed into the slot of each edge's destination, from a table of zeros. -/
def segSum (u : FVec F S1600000x128 .f32) (dst : IVec S1600000 32) : FVec F S100000x128 .f32 :=
  Host.scatterAdd scatter_S100000x128_S1600000x1_S1600000x128_1_0_0_1
    (broadcastInDim S100000x128 ![] bcast_S_S100000x128 (constant (F := F) S_ .f32 0x00000000#32))
    (broadcastInDim S1600000x1 ![0] bcast_S1600000_S1600000x1_0 dst) u

/-- The number of edges arriving at each node: ones summed by destination, from zeros. -/
def degree (dst : IVec S1600000 32) : FVec F S100000 .f32 :=
  Host.scatterAdd scatter_S100000_S1600000x1_S1600000_n_0_0_1
    (broadcastInDim S100000 ![] bcast_S_S100000 (constant (F := F) S_ .f32 0x00000000#32))
    (broadcastInDim S1600000x1 ![0] bcast_S1600000_S1600000x1_0 dst)
    (broadcastInDim S1600000 ![] bcast_S_S1600000 (constant (F := F) S_ .f32 0x3F800000#32))

/-- One mean-aggregation layer on whole arrays: relu(((agg + x) / (deg + 1)) · W + b). -/
def layer (agg x : FVec F S100000x128 .f32) (deg : FVec F S100000 .f32) (W : FVec F S128x128 .f32)
    (b : FVec F S128 .f32) : FVec F S100000x128 .f32 :=
  maximumf
    (addf
      (Host.dotGeneral dot_S100000x128_S128x128_S100000x128_1_0_0_1_n_n none
        (Host.divf (addf agg x)
          (broadcastInDim S100000x128 ![0, 1] bcast_S100000x1_S100000x128_0_1
            (broadcastInDim S100000x1 ![0] bcast_S100000_S100000x1_0
              (addf deg (broadcastInDim S100000 ![] bcast_S_S100000 (constant (F := F) S_ .f32 0x3F800000#32))))))
        W)
      (broadcastInDim S100000x128 ![0, 1] bcast_S1x128_S100000x128_0_1
        (broadcastInDim S1x128 ![1] bcast_S128_S1x128_1 b)))
    (broadcastInDim S100000x128 ![] bcast_S_S100000x128 (constant (F := F) S_ .f32 0x00000000#32))

/-- The logits of the batch rows. -/
def logits (xb : FVec F S1024x128 .f32) (Wl : FVec F S128x40 .f32) (bl : FVec F S40 .f32) : FVec F S1024x40 .f32 :=
  addf (Host.dotGeneral dot_S1024x128_S128x40_S1024x40_1_0_0_1_n_n none xb Wl)
    (broadcastInDim S1024x40 ![0, 1] bcast_S1x40_S1024x40_0_1 (broadcastInDim S1x40 ![1] bcast_S40_S1x40_1 bl))

/-- A row minus its maximum (the maximum folded from -inf, then joined with -inf once more). -/
def shifted (z : FVec F S1024x40 .f32) : FVec F S1024x40 .f32 :=
  subf z
    (broadcastInDim S1024x40 ![0, 1] bcast_S1024x1_S1024x40_0_1
      (broadcastInDim S1024x1 ![0] bcast_S1024_S1024x1_0
        (maximumf (broadcastInDim S1024 ![] bcast_S_S1024 (constant (F := F) S_ .f32 0xFF800000#32))
          (Host.reduce FloatOps.maximumf z (constant (F := F) S_ .f32 0xFF800000#32) reducesTo_S1024x40_S1024_d1 h_S_))))

/-- log_softmax along the class axis. -/
def logSoftmax (z : FVec F S1024x40 .f32) : FVec F S1024x40 .f32 :=
  subf (shifted z)
    (broadcastInDim S1024x40 ![0, 1] bcast_S1024x1_S1024x40_0_1
      (Host.log
        (broadcastInDim S1024x1 ![0] bcast_S1024_S1024x1_0
          (Host.reduceAdd (Host.exp (shifted z)) (constant (F := F) S_ .f32 0x00000000#32) reducesTo_S1024x40_S1024_d1 h_S_))))

/-- The classifier head on the batch rows. -/
def head (xb : FVec F S1024x128 .f32) (Wl : FVec F S128x40 .f32) (bl : FVec F S40 .f32) : FVec F S1024x40 .f32 :=
  logSoftmax (logits xb Wl bl)

/-- The first layer's node table. -/
def hidden1 (a0 : FVec F S100000x128 .f32) (a1 a2 : IVec S1600000 32) (a4 : FVec F S128x128 .f32) (a5 : FVec F S128 .f32) :
    FVec F S100000x128 .f32 :=
  layer (segSum (takeE a0 a1) a2) a0 (degree a2) a4 a5

/-- The second layer's node table. -/
def hidden2 (a0 : FVec F S100000x128 .f32) (a1 a2 : IVec S1600000 32) (a4 : FVec F S128x128 .f32) (a5 : FVec F S128 .f32)
    (a6 : FVec F S128x128 .f32) (a7 : FVec F S128 .f32) : FVec F S100000x128 .f32 :=
  layer (segSum (takeE (hidden1 a0 a1 a2 a4 a5) a1) a2) (hidden1 a0 a1 a2 a4 a5) (degree a2) a6 a7

/-- The whole network: the class log-probabilities of the batch nodes. -/
def net (a0 : FVec F S100000x128 .f32) (a1 a2 : IVec S1600000 32) (a3 : IVec S1024 32) (a4 : FVec F S128x128 .f32)
    (a5 : FVec F S128 .f32) (a6 : FVec F S128x128 .f32) (a7 : FVec F S128 .f32) (a8 : FVec F S128x40 .f32)
    (a9 : FVec F S40 .f32) : FVec F S1024x40 .f32 :=
  head (takeB (hidden2 a0 a1 a2 a4 a5 a6 a7) a3) a8 a9

end Cert.Sage

end
-- ==== Proof.KernelRun.lean ====
/-
  The idealized kernel program's run with its result named. The program is three kernel regions among stretches of
  host operations; the generated frame of the program folds the memory through them — after a host stretch the
  operations' results, after a region each output array at what the grid's write-backs leave — and ends with every
  buffer at the last fold `W10`. Here the same launch is read once more, keeping beside the ten argument arrays the
  result buffer: it ends at `W10` of the result's reference, which the value modules then open stage by stage.
-/
import proofs.«136289_j37039797961388_1_alg».proof.Proof.Gen.KernelIdeal.Frame

set_option maxRecDepth 16384

noncomputable section

namespace Cert.Sage.KernelRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the idealized kernel program terminates, nothing faulting, with the result buffer
    at the last fold of the memory read at the result's reference and the ten argument arrays as launched. -/
theorem run : θ_run defs (onTc (τ := τ) (main (F := F))) ⟨m, fun _ => 0, ρ⟩ (fun r => ∀ c : Dev nD,
      r.2.mem ((c.tc : Thread nD τ).loc main_v19) = W10 m ρ c (Proc.devRef .tc main_v19)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v19 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c)⟩)

end Cert.Sage.KernelRun

end
-- ==== Proof.KernelForms.lean ====
/-
  The kernel regions' results as whole-array functions. A region's output array is read entry by entry: entry (n, q) of
  a layer's node table depends on row n of the aggregated messages and of the features, the degree entry of node n,
  column q of the weights and bias entry q; entry (r, j) of the head's table on row r of the batch features, the
  weights and the bias. The scalar formula itself is a parameter here (the modules that read the kernel bodies and
  the reference at an index supply it).
-/
import proofs.«136289_j37039797961388_1_alg».proof.KernelIdeal
import Idealize.ShloMosaic.PureOps.Ideal
import Idealize.ShloMosaic.Lib.ValueIdx

noncomputable section

namespace Cert.Sage.Forms

open Cert.KernelIdeal Idealize.ShloMosaic Idealize.ShloMosaic.ValueIdx

/-- The scalar shape of one layer entry: from the node's two rows, its degree entry, a weight column and a bias entry. -/
abbrev Entry := (Fin 128 → EReal) → (Fin 128 → EReal) → EReal → (Fin 128 → EReal) → EReal → EReal

/-- The scalar shape of one head entry: from the batch row, the weights, the bias and the class. -/
abbrev HeadEntry := (Fin 128 → EReal) → (Fin 128 → Fin 40 → EReal) → (Fin 40 → EReal) → Fin 40 → EReal

/-- Entry (n, q) of a layer's node table from whole arrays, the degree a column and the bias a row. -/
def layerAt (S : Entry) (agg x : FVec Ideal S100000x128 .f32) (degc : FVec Ideal S100000x1 .f32) (W : FVec Ideal S128x128 .f32)
    (b2 : FVec Ideal S1x128 .f32) (n : Fin 100000) (q : Fin 128) : EReal :=
  S (fun k => agg (ix2 n k)) (fun k => x (ix2 n k)) (degc (ix2 n (0 : Fin 1))) (fun k => W (ix2 k q)) (b2 (ix2 (0 : Fin 1) q))

/-- A layer's node table as one function of the arrays the region finds. -/
def layerG (S : Entry) (agg x : FVec Ideal S100000x128 .f32) (degc : FVec Ideal S100000x1 .f32) (W : FVec Ideal S128x128 .f32)
    (b2 : FVec Ideal S1x128 .f32) : S100000x128.Idx → EReal :=
  fun i => layerAt S agg x degc W b2 (i 0) (i 1)

/-- Entry (r, j) of the head's table from whole arrays, the bias a row. -/
def headAt (H : HeadEntry) (x0 : FVec Ideal S1024x128 .f32) (x1 : FVec Ideal S128x40 .f32) (x2 : FVec Ideal S1x40 .f32)
    (r : Fin 1024) (j : Fin 40) : EReal :=
  H (fun k => x0 (ix2 r k)) (fun k j' => x1 (ix2 k j')) (fun j' => x2 (ix2 (0 : Fin 1) j')) j

/-- The head's table as one function of the arrays the region finds. -/
def headG (H : HeadEntry) (x0 : FVec Ideal S1024x128 .f32) (x1 : FVec Ideal S128x40 .f32) (x2 : FVec Ideal S1x40 .f32) :
    S1024x40.Idx → EReal :=
  fun i => headAt H x0 x1 x2 (i 0) (i 1)

end Cert.Sage.Forms

end
-- ==== Proof.KernelBlocks.lean ====
/-
  From blocks to arrays. Each of the three kernel regions writes its output array block by block; here every output
  array, after the region's write-backs, is shown to be ONE function of the arrays the region finds at its entry:
  the layer's table for the two row-blocked regions (25 blocks of 4000 rows; a block's entry depends on the same row of
  the aggregated messages, of the features and of the degree column, and on the whole weights and bias), the head's
  table for the last region, whose single grid point holds the whole arrays. The scalar formula of an entry is a
  parameter, and that the printed body computes it at an index a hypothesis, supplied by the module that reads the
  bodies.
-/
import proofs.«136289_j37039797961388_1_alg».proof.Proof.Gen.KernelIdeal.Frame
import proofs.«136289_j37039797961388_1_alg».proof.Proof.KernelForms
import Idealize.ShloMosaic.Lib.Pipeline.Value
import Idealize.ShloMosaic.Lib.ValueIdx

set_option maxRecDepth 16384

noncomputable section

namespace Cert.Sage.KernelBlocks

open Cert.KernelIdeal Cert.KernelIdeal.Gen Cert.Sage.Forms
open Idealize.ShloMosaic Idealize.ShloMosaic.TcCoe Idealize.ShloMosaic.ValueIdx Idealize.SL.Sem
open Idealize.ShloMosaic.Pipeline (Dat Cfg Window)

theorem hz : (![0, 0] : Fin 2 → Nat) = fun _ => 0 := funext fun a => by fin_cases a <;> rfl

variable (S : Entry) (H : HeadEntry)

/-- One entry of a point's block: when the five loaded blocks hold, at the entry's row and column, what the whole arrays
    hold at row `n` and column `q`, the body's payload at the block index is the layer's entry (n, q). -/
theorem entry_eq
    (pay : Vec Ideal S4000x128 .f32 → Vec Ideal S4000x128 .f32 → Vec Ideal S4000x1 .f32 → Vec Ideal S128x128 .f32 →
      Vec Ideal S1x128 .f32 → FVec Ideal S4000x128 .f32)
    (hpay : ∀ (xa xx : Vec Ideal S4000x128 .f32) (xd : Vec Ideal S4000x1 .f32) (xw : Vec Ideal S128x128 .f32)
      (xb : Vec Ideal S1x128 .f32) (p : Fin 4000) (q : Fin 128),
      pay xa xx xd xw xb (ix2 p q)
        = S (fun k => xa (ix2 p k)) (fun k => xx (ix2 p k)) (xd (ix2 p (0 : Fin 1))) (fun k => xw (ix2 k q)) (xb (ix2 (0 : Fin 1) q)))
    (agg x : FVec Ideal S100000x128 .f32) (degc : FVec Ideal S100000x1 .f32) (W : FVec Ideal S128x128 .f32)
    (b2 : FVec Ideal S1x128 .f32)
    (xa xx : Vec Ideal S4000x128 .f32) (xd : Vec Ideal S4000x1 .f32) (xw : Vec Ideal S128x128 .f32) (xb : Vec Ideal S1x128 .f32)
    (p : Fin 4000) (q : Fin 128) (n : Fin 100000)
    (ha : ∀ k : Fin 128, xa (ix2 p k) = agg (ix2 n k))
    (hx : ∀ k : Fin 128, xx (ix2 p k) = x (ix2 n k))
    (hd : xd (ix2 p (0 : Fin 1)) = degc (ix2 n (0 : Fin 1)))
    (hw : ∀ k : Fin 128, xw (ix2 k q) = W (ix2 k q))
    (hb : xb (ix2 (0 : Fin 1) q) = b2 (ix2 (0 : Fin 1) q)) :
    pay xa xx xd xw xb (ix2 p q) = layerAt S agg x degc W b2 n q := by
  rw [hpay]
  unfold layerAt
  simp only [ha, hx, hd, hw, hb]

variable (V : (c : Dev nD) → (b : Ref sig .tc) → Buf (Elt Ideal) ((c : Thread nD τ).loc b))

/-! ## Region 0: a layer over 25 blocks of 4000 rows -/

/-- The printed index maps of this region over its 25 points: the three row-blocked inputs and the output sit at row
    block `t`, column block 0; the weights and the bias at block (0, 0). -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 ∧ t.val < 25 :=
  (by decide +kernel : ∀ t : Fin grid0.N, _)

/-- What point `t` writes back is block `t` of the layer's table read off the arrays the region finds: the loaded blocks
    are rows `4000 t …` of the row-blocked arrays and the whole weights and bias, so each entry of the body's payload is
    the entry of the table at the same row of the array. -/
theorem flushed0_eq
    (hpay : ∀ (xa xx : Vec Ideal S4000x128 .f32) (xd : Vec Ideal S4000x1 .f32) (xw : Vec Ideal S128x128 .f32)
      (xb : Vec Ideal S1x128 .f32) (p : Fin 4000) (q : Fin 128),
      k0_pay1 (F := Ideal) xa xx xd xw xb (ix2 p q)
        = S (fun k => xa (ix2 p k)) (fun k => xx (ix2 p k)) (xd (ix2 p (0 : Fin 1))) (fun k => xw (ix2 k q)) (xb (ix2 (0 : Fin 1) q)))
    (c : Dev nD) (t : Fin cfg0.N) :
    (dat0 V c).flushed 5 t = ((cfg0.win 5).blk t).view.read (Elt Ideal)
      (layerG S (V c main_v8) (V c main_arg0) (V c main_v4) (V c main_arg4) (V c main_v9)) := by
  show (cfg0.win 5).cut (grid0.coords t) ((dat0 V c).after 5 t) = _
  rw [after0_5]
  unfold out0_5
  rw [View.canon_unit_zero hz]
  simp only [View.ld_unit_zero (S := S4000x128) hz, View.ld_unit_zero (S := S4000x1) hz, View.ld_unit_zero (S := S128x128) hz,
    View.ld_unit_zero (S := S1x128) hz]
  funext j
  obtain ⟨e00, e01, e10, e11, e20, e21, e30, e31, e40, e41, e50, e51, ht⟩ := idx_facts0 t
  have hj0 : (j 0).val < 4000 := (j 0).isLt
  have hj1 : (j 1).val < 128 := (j 1).isLt
  have hlt : t.val * 4000 + (j 0).val < 100000 := by omega
  show k0_pay1 (iblk0 V c 0 t) (iblk0 V c 1 t) (iblk0 V c 2 t) (iblk0 V c 3 t) (iblk0 V c 4 t) j
      = layerG S (V c main_v8) (V c main_arg0) (V c main_v4) (V c main_arg4) (V c main_v9) (((cfg0.win 5).blk t).view.emb j)
  have h0 : ((((cfg0.win 5).blk t).view.emb j) 0 : Fin 100000) = (⟨t.val * 4000 + (j 0).val, hlt⟩ : Fin 100000) := by
    apply Fin.ext
    show win0_5.index t (0 : Fin 2) * 4000 + 1 * (j 0).val = t.val * 4000 + (j 0).val
    omega
  have h1 : ((((cfg0.win 5).blk t).view.emb j) 1 : Fin 128) = (j 1) := by
    apply Fin.ext
    show win0_5.index t (1 : Fin 2) * 128 + 1 * (j 1).val = (j 1).val
    omega
  refine (congrArg (k0_pay1 (iblk0 V c 0 t) (iblk0 V c 1 t) (iblk0 V c 2 t) (iblk0 V c 3 t) (iblk0 V c 4 t)) (eq_ix2 j)).trans ?_
  refine (entry_eq S k0_pay1 hpay (V c main_v8) (V c main_arg0) (V c main_v4) (V c main_arg4) (V c main_v9)
    (iblk0 V c 0 t) (iblk0 V c 1 t) (iblk0 V c 2 t) (iblk0 V c 3 t) (iblk0 V c 4 t) (j 0) (j 1)
    (⟨t.val * 4000 + (j 0).val, hlt⟩ : Fin 100000) ?_ ?_ ?_ ?_ ?_).trans ?_
  · intro k
    show V c main_v8 (((cfg0.win 0).blk t).view.emb (ix2 (j 0) k)) = _
    refine congrArg (V c main_v8) ?_
    funext a; apply Fin.ext
    match a with
    | ⟨0, _⟩ => show win0_0.index t (0 : Fin 2) * 4000 + 1 * (j 0).val = t.val * 4000 + (j 0).val; omega
    | ⟨1, _⟩ => show win0_0.index t (1 : Fin 2) * 128 + 1 * k.val = k.val; omega
  · intro k
    show V c main_arg0 (((cfg0.win 1).blk t).view.emb (ix2 (j 0) k)) = _
    refine congrArg (V c main_arg0) ?_
    funext a; apply Fin.ext
    match a with
    | ⟨0, _⟩ => show win0_1.index t (0 : Fin 2) * 4000 + 1 * (j 0).val = t.val * 4000 + (j 0).val; omega
    | ⟨1, _⟩ => show win0_1.index t (1 : Fin 2) * 128 + 1 * k.val = k.val; omega
  · show V c main_v4 (((cfg0.win 2).blk t).view.emb (ix2 (j 0) (0 : Fin 1))) = _
    refine congrArg (V c main_v4) ?_
    funext a; apply Fin.ext
    match a with
    | ⟨0, _⟩ => show win0_2.index t (0 : Fin 2) * 4000 + 1 * (j 0).val = t.val * 4000 + (j 0).val; omega
    | ⟨1, _⟩ => show win0_2.index t (1 : Fin 2) * 1 + 1 * 0 = 0; omega
  · intro k
    show V c main_arg4 (((cfg0.win 3).blk t).view.emb (ix2 k (j 1))) = _
    refine congrArg (V c main_arg4) ?_
    funext a; apply Fin.ext
    match a with
    | ⟨0, _⟩ => show win0_3.index t (0 : Fin 2) * 128 + 1 * k.val = k.val; omega
    | ⟨1, _⟩ => show win0_3.index t (1 : Fin 2) * 128 + 1 * (j 1).val = (j 1).val; omega
  · show V c main_v9 (((cfg0.win 4).blk t).view.emb (ix2 (0 : Fin 1) (j 1))) = _
    refine congrArg (V c main_v9) ?_
    funext a; apply Fin.ext
    match a with
    | ⟨0, _⟩ => show win0_4.index t (0 : Fin 2) * 1 + 1 * 0 = 0; omega
    | ⟨1, _⟩ => show win0_4.index t (1 : Fin 2) * 128 + 1 * (j 1).val = (j 1).val; omega
  · show layerAt S _ _ _ _ _ _ _ = layerAt S _ _ _ _ _ ((((cfg0.win 5).blk t).view.emb j) 0) ((((cfg0.win 5).blk t).view.emb j) 1)
    rw [h0, h1]

/-- An index of the output array is in point `t`'s block iff each coordinate is in the block's range on its axis. -/
theorem mem_blk0 (t : Fin cfg0.N) (i : S100000x128.Idx) :
    i ∈ ((cfg0.win 5).blk t).view.set ↔ ∀ a : Fin 2, win0_5.index t a * S4000x128.size a ≤ (i a).val
      ∧ (i a).val < win0_5.index t a * S4000x128.size a + S4000x128.size a := by
  show i ∈ ((View.whole main_v10).slice (win0_5.rect t)).set ↔ _
  rw [View.set_slice_whole, Rect.mem_set_unit]
  exact Iff.rfl

/-- Every row of the output array lies in the block of the point numbered by the row's quotient by 4000. -/
theorem cover0 (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  have hq : (i 0).val / 4000 < grid0.N := by rw [N_0]; omega
  obtain ⟨t, htv⟩ : ∃ t : Fin cfg0.N, t.val = (i 0).val / 4000 := ⟨⟨(i 0).val / 4000, hq⟩, rfl⟩
  obtain ⟨-, -, -, -, -, -, -, -, -, -, e50, e51, -⟩ := idx_facts0 t
  refine ⟨t, flush0_5 t, ?_⟩
  rw [mem_blk0]
  intro a
  match a with
  | ⟨0, _⟩ =>
    show win0_5.index t (0 : Fin 2) * 4000 ≤ (i 0).val ∧ (i 0).val < win0_5.index t (0 : Fin 2) * 4000 + 4000
    omega
  | ⟨1, _⟩ =>
    show win0_5.index t (1 : Fin 2) * 128 ≤ (i 1).val ∧ (i 1).val < win0_5.index t (1 : Fin 2) * 128 + 128
    omega

/-- The output array after the region's 25 write-backs is the layer's table of the arrays the region finds. -/
theorem final0
    (hpay : ∀ (xa xx : Vec Ideal S4000x128 .f32) (xd : Vec Ideal S4000x1 .f32) (xw : Vec Ideal S128x128 .f32)
      (xb : Vec Ideal S1x128 .f32) (p : Fin 4000) (q : Fin 128),
      k0_pay1 (F := Ideal) xa xx xd xw xb (ix2 p q)
        = S (fun k => xa (ix2 p k)) (fun k => xx (ix2 p k)) (xd (ix2 p (0 : Fin 1))) (fun k => xw (ix2 k q)) (xb (ix2 (0 : Fin 1) q)))
    (c : Dev nD) :
    (dat0 V c).arrAt 5 cfg0.N
      = layerG S (V c main_v8) (V c main_arg0) (V c main_v4) (V c main_arg4) (V c main_v9) :=
  (dat0 V c).arrAt_eq_of_cover 5 _ (fun t _ => flushed0_eq S V hpay c t) cover0

/-! ## Region 1: a layer over 25 blocks of 4000 rows -/

/-- The printed index maps of this region over its 25 points: the three row-blocked inputs and the output sit at row
    block `t`, column block 0; the weights and the bias at block (0, 0). -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 ∧ t.val < 25 :=
  (by decide +kernel : ∀ t : Fin grid1.N, _)

/-- What point `t` writes back is block `t` of the layer's table read off the arrays the region finds: the loaded blocks
    are rows `4000 t …` of the row-blocked arrays and the whole weights and bias, so each entry of the body's payload is
    the entry of the table at the same row of the array. -/
theorem flushed1_eq
    (hpay : ∀ (xa xx : Vec Ideal S4000x128 .f32) (xd : Vec Ideal S4000x1 .f32) (xw : Vec Ideal S128x128 .f32)
      (xb : Vec Ideal S1x128 .f32) (p : Fin 4000) (q : Fin 128),
      k1_pay1 (F := Ideal) xa xx xd xw xb (ix2 p q)
        = S (fun k => xa (ix2 p k)) (fun k => xx (ix2 p k)) (xd (ix2 p (0 : Fin 1))) (fun k => xw (ix2 k q)) (xb (ix2 (0 : Fin 1) q)))
    (c : Dev nD) (t : Fin cfg1.N) :
    (dat1 V c).flushed 5 t = ((cfg1.win 5).blk t).view.read (Elt Ideal)
      (layerG S (V c main_v14) (V c main_v10) (V c main_v4) (V c main_arg6) (V c main_v15)) := by
  show (cfg1.win 5).cut (grid1.coords t) ((dat1 V c).after 5 t) = _
  rw [after1_5]
  unfold out1_5
  rw [View.canon_unit_zero hz]
  simp only [View.ld_unit_zero (S := S4000x128) hz, View.ld_unit_zero (S := S4000x1) hz, View.ld_unit_zero (S := S128x128) hz,
    View.ld_unit_zero (S := S1x128) hz]
  funext j
  obtain ⟨e00, e01, e10, e11, e20, e21, e30, e31, e40, e41, e50, e51, ht⟩ := idx_facts1 t
  have hj0 : (j 0).val < 4000 := (j 0).isLt
  have hj1 : (j 1).val < 128 := (j 1).isLt
  have hlt : t.val * 4000 + (j 0).val < 100000 := by omega
  show k1_pay1 (iblk1 V c 0 t) (iblk1 V c 1 t) (iblk1 V c 2 t) (iblk1 V c 3 t) (iblk1 V c 4 t) j
      = layerG S (V c main_v14) (V c main_v10) (V c main_v4) (V c main_arg6) (V c main_v15) (((cfg1.win 5).blk t).view.emb j)
  have h0 : ((((cfg1.win 5).blk t).view.emb j) 0 : Fin 100000) = (⟨t.val * 4000 + (j 0).val, hlt⟩ : Fin 100000) := by
    apply Fin.ext
    show win1_5.index t (0 : Fin 2) * 4000 + 1 * (j 0).val = t.val * 4000 + (j 0).val
    omega
  have h1 : ((((cfg1.win 5).blk t).view.emb j) 1 : Fin 128) = (j 1) := by
    apply Fin.ext
    show win1_5.index t (1 : Fin 2) * 128 + 1 * (j 1).val = (j 1).val
    omega
  refine (congrArg (k1_pay1 (iblk1 V c 0 t) (iblk1 V c 1 t) (iblk1 V c 2 t) (iblk1 V c 3 t) (iblk1 V c 4 t)) (eq_ix2 j)).trans ?_
  refine (entry_eq S k1_pay1 hpay (V c main_v14) (V c main_v10) (V c main_v4) (V c main_arg6) (V c main_v15)
    (iblk1 V c 0 t) (iblk1 V c 1 t) (iblk1 V c 2 t) (iblk1 V c 3 t) (iblk1 V c 4 t) (j 0) (j 1)
    (⟨t.val * 4000 + (j 0).val, hlt⟩ : Fin 100000) ?_ ?_ ?_ ?_ ?_).trans ?_
  · intro k
    show V c main_v14 (((cfg1.win 0).blk t).view.emb (ix2 (j 0) k)) = _
    refine congrArg (V c main_v14) ?_
    funext a; apply Fin.ext
    match a with
    | ⟨0, _⟩ => show win1_0.index t (0 : Fin 2) * 4000 + 1 * (j 0).val = t.val * 4000 + (j 0).val; omega
    | ⟨1, _⟩ => show win1_0.index t (1 : Fin 2) * 128 + 1 * k.val = k.val; omega
  · intro k
    show V c main_v10 (((cfg1.win 1).blk t).view.emb (ix2 (j 0) k)) = _
    refine congrArg (V c main_v10) ?_
    funext a; apply Fin.ext
    match a with
    | ⟨0, _⟩ => show win1_1.index t (0 : Fin 2) * 4000 + 1 * (j 0).val = t.val * 4000 + (j 0).val; omega
    | ⟨1, _⟩ => show win1_1.index t (1 : Fin 2) * 128 + 1 * k.val = k.val; omega
  · show V c main_v4 (((cfg1.win 2).blk t).view.emb (ix2 (j 0) (0 : Fin 1))) = _
    refine congrArg (V c main_v4) ?_
    funext a; apply Fin.ext
    match a with
    | ⟨0, _⟩ => show win1_2.index t (0 : Fin 2) * 4000 + 1 * (j 0).val = t.val * 4000 + (j 0).val; omega
    | ⟨1, _⟩ => show win1_2.index t (1 : Fin 2) * 1 + 1 * 0 = 0; omega
  · intro k
    show V c main_arg6 (((cfg1.win 3).blk t).view.emb (ix2 k (j 1))) = _
    refine congrArg (V c main_arg6) ?_
    funext a; apply Fin.ext
    match a with
    | ⟨0, _⟩ => show win1_3.index t (0 : Fin 2) * 128 + 1 * k.val = k.val; omega
    | ⟨1, _⟩ => show win1_3.index t (1 : Fin 2) * 128 + 1 * (j 1).val = (j 1).val; omega
  · show V c main_v15 (((cfg1.win 4).blk t).view.emb (ix2 (0 : Fin 1) (j 1))) = _
    refine congrArg (V c main_v15) ?_
    funext a; apply Fin.ext
    match a with
    | ⟨0, _⟩ => show win1_4.index t (0 : Fin 2) * 1 + 1 * 0 = 0; omega
    | ⟨1, _⟩ => show win1_4.index t (1 : Fin 2) * 128 + 1 * (j 1).val = (j 1).val; omega
  · show layerAt S _ _ _ _ _ _ _ = layerAt S _ _ _ _ _ ((((cfg1.win 5).blk t).view.emb j) 0) ((((cfg1.win 5).blk t).view.emb j) 1)
    rw [h0, h1]

/-- An index of the output array is in point `t`'s block iff each coordinate is in the block's range on its axis. -/
theorem mem_blk1 (t : Fin cfg1.N) (i : S100000x128.Idx) :
    i ∈ ((cfg1.win 5).blk t).view.set ↔ ∀ a : Fin 2, win1_5.index t a * S4000x128.size a ≤ (i a).val
      ∧ (i a).val < win1_5.index t a * S4000x128.size a + S4000x128.size a := by
  show i ∈ ((View.whole main_v16).slice (win1_5.rect t)).set ↔ _
  rw [View.set_slice_whole, Rect.mem_set_unit]
  exact Iff.rfl

/-- Every row of the output array lies in the block of the point numbered by the row's quotient by 4000. -/
theorem cover1 (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  have hq : (i 0).val / 4000 < grid1.N := by rw [N_1]; omega
  obtain ⟨t, htv⟩ : ∃ t : Fin cfg1.N, t.val = (i 0).val / 4000 := ⟨⟨(i 0).val / 4000, hq⟩, rfl⟩
  obtain ⟨-, -, -, -, -, -, -, -, -, -, e50, e51, -⟩ := idx_facts1 t
  refine ⟨t, flush1_5 t, ?_⟩
  rw [mem_blk1]
  intro a
  match a with
  | ⟨0, _⟩ =>
    show win1_5.index t (0 : Fin 2) * 4000 ≤ (i 0).val ∧ (i 0).val < win1_5.index t (0 : Fin 2) * 4000 + 4000
    omega
  | ⟨1, _⟩ =>
    show win1_5.index t (1 : Fin 2) * 128 ≤ (i 1).val ∧ (i 1).val < win1_5.index t (1 : Fin 2) * 128 + 128
    omega

/-- The output array after the region's 25 write-backs is the layer's table of the arrays the region finds. -/
theorem final1
    (hpay : ∀ (xa xx : Vec Ideal S4000x128 .f32) (xd : Vec Ideal S4000x1 .f32) (xw : Vec Ideal S128x128 .f32)
      (xb : Vec Ideal S1x128 .f32) (p : Fin 4000) (q : Fin 128),
      k1_pay1 (F := Ideal) xa xx xd xw xb (ix2 p q)
        = S (fun k => xa (ix2 p k)) (fun k => xx (ix2 p k)) (xd (ix2 p (0 : Fin 1))) (fun k => xw (ix2 k q)) (xb (ix2 (0 : Fin 1) q)))
    (c : Dev nD) :
    (dat1 V c).arrAt 5 cfg1.N
      = layerG S (V c main_v14) (V c main_v10) (V c main_v4) (V c main_arg6) (V c main_v15) :=
  (dat1 V c).arrAt_eq_of_cover 5 _ (fun t _ => flushed1_eq S V hpay c t) cover1

/-! ## Region 2: the head, one grid point holding the whole arrays -/

/-- The printed index maps of the last region at its one point: every window at block (0, 0). -/
theorem idx_facts2 : ∀ t : Fin cfg2.N,
    win2_0.index t (0 : Fin 2) = 0 ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0 :=
  (by decide +kernel : ∀ t : Fin grid2.N, _)

/-- One entry of the head's block: the loaded blocks are the whole arrays, so the payload's entry is the table's. -/
theorem head_entry_eq
    (hpay : ∀ (x0 : Vec Ideal S1024x128 .f32) (x1 : Vec Ideal S128x40 .f32) (x2 : Vec Ideal S1x40 .f32) (r : Fin 1024) (j : Fin 40),
      k2_pay1 (F := Ideal) x0 x1 x2 (ix2 r j)
        = H (fun k => x0 (ix2 r k)) (fun k j' => x1 (ix2 k j')) (fun j' => x2 (ix2 (0 : Fin 1) j')) j)
    (A0 : FVec Ideal S1024x128 .f32) (A1 : FVec Ideal S128x40 .f32) (A2 : FVec Ideal S1x40 .f32)
    (x0 : Vec Ideal S1024x128 .f32) (x1 : Vec Ideal S128x40 .f32) (x2 : Vec Ideal S1x40 .f32) (r : Fin 1024) (j : Fin 40)
    (h0 : ∀ k : Fin 128, x0 (ix2 r k) = A0 (ix2 r k))
    (h1 : ∀ (k : Fin 128) (j' : Fin 40), x1 (ix2 k j') = A1 (ix2 k j'))
    (h2 : ∀ j' : Fin 40, x2 (ix2 (0 : Fin 1) j') = A2 (ix2 (0 : Fin 1) j')) :
    k2_pay1 (F := Ideal) x0 x1 x2 (ix2 r j) = headAt H A0 A1 A2 r j := by
  rw [hpay]
  unfold headAt
  simp only [h0, h1, h2]

/-- What the one point writes back is the head's table read off the arrays the region finds. -/
theorem flushed2_eq
    (hpay : ∀ (x0 : Vec Ideal S1024x128 .f32) (x1 : Vec Ideal S128x40 .f32) (x2 : Vec Ideal S1x40 .f32) (r : Fin 1024) (j : Fin 40),
      k2_pay1 (F := Ideal) x0 x1 x2 (ix2 r j)
        = H (fun k => x0 (ix2 r k)) (fun k j' => x1 (ix2 k j')) (fun j' => x2 (ix2 (0 : Fin 1) j')) j)
    (c : Dev nD) (t : Fin cfg2.N) :
    (dat2 V c).flushed 3 t = ((cfg2.win 3).blk t).view.read (Elt Ideal)
      (headG H (V c main_v17) (V c main_arg8) (V c main_v18)) := by
  show (cfg2.win 3).cut (grid2.coords t) ((dat2 V c).after 3 t) = _
  rw [after2_3]
  unfold out2_3
  rw [View.canon_unit_zero hz]
  simp only [View.ld_unit_zero (S := S1024x128) hz, View.ld_unit_zero (S := S128x40) hz, View.ld_unit_zero (S := S1x40) hz]
  funext j
  obtain ⟨e00, e01, e10, e11, e20, e21, e30, e31⟩ := idx_facts2 t
  have hj0 : (j 0).val < 1024 := (j 0).isLt
  have hj1 : (j 1).val < 40 := (j 1).isLt
  show k2_pay1 (iblk2 V c 0 t) (iblk2 V c 1 t) (iblk2 V c 2 t) j
      = headG H (V c main_v17) (V c main_arg8) (V c main_v18) (((cfg2.win 3).blk t).view.emb j)
  have g0 : ((((cfg2.win 3).blk t).view.emb j) 0 : Fin 1024) = (j 0) := by
    apply Fin.ext
    show win2_3.index t (0 : Fin 2) * 1024 + 1 * (j 0).val = (j 0).val
    omega
  have g1 : ((((cfg2.win 3).blk t).view.emb j) 1 : Fin 40) = (j 1) := by
    apply Fin.ext
    show win2_3.index t (1 : Fin 2) * 40 + 1 * (j 1).val = (j 1).val
    omega
  refine (congrArg (k2_pay1 (iblk2 V c 0 t) (iblk2 V c 1 t) (iblk2 V c 2 t)) (eq_ix2 j)).trans ?_
  refine (head_entry_eq H hpay (V c main_v17) (V c main_arg8) (V c main_v18)
    (iblk2 V c 0 t) (iblk2 V c 1 t) (iblk2 V c 2 t) (j 0) (j 1) ?_ ?_ ?_).trans ?_
  · intro k
    show V c main_v17 (((cfg2.win 0).blk t).view.emb (ix2 (j 0) k)) = _
    refine congrArg (V c main_v17) ?_
    funext a; apply Fin.ext
    match a with
    | ⟨0, _⟩ => show win2_0.index t (0 : Fin 2) * 1024 + 1 * (j 0).val = (j 0).val; omega
    | ⟨1, _⟩ => show win2_0.index t (1 : Fin 2) * 128 + 1 * k.val = k.val; omega
  · intro k j'
    show V c main_arg8 (((cfg2.win 1).blk t).view.emb (ix2 k j')) = _
    refine congrArg (V c main_arg8) ?_
    funext a; apply Fin.ext
    match a with
    | ⟨0, _⟩ => show win2_1.index t (0 : Fin 2) * 128 + 1 * k.val = k.val; omega
    | ⟨1, _⟩ => show win2_1.index t (1 : Fin 2) * 40 + 1 * j'.val = j'.val; omega
  · intro j'
    show V c main_v18 (((cfg2.win 2).blk t).view.emb (ix2 (0 : Fin 1) j')) = _
    refine congrArg (V c main_v18) ?_
    funext a; apply Fin.ext
    match a with
    | ⟨0, _⟩ => show win2_2.index t (0 : Fin 2) * 1 + 1 * 0 = 0; omega
    | ⟨1, _⟩ => show win2_2.index t (1 : Fin 2) * 40 + 1 * j'.val = j'.val; omega
  · show headAt H _ _ _ _ _ = headAt H _ _ _ ((((cfg2.win 3).blk t).view.emb j) 0) ((((cfg2.win 3).blk t).view.emb j) 1)
    rw [g0, g1]

/-- An index of the head's array is in the one point's block iff each coordinate is in the block's range. -/
theorem mem_blk2 (t : Fin cfg2.N) (i : S1024x40.Idx) :
    i ∈ ((cfg2.win 3).blk t).view.set ↔ ∀ a : Fin 2, win2_3.index t a * S1024x40.size a ≤ (i a).val
      ∧ (i a).val < win2_3.index t a * S1024x40.size a + S1024x40.size a := by
  show i ∈ ((View.whole main_v19).slice (win2_3.rect t)).set ↔ _
  rw [View.set_slice_whole, Rect.mem_set_unit]
  exact Iff.rfl

/-- The one point's block is the whole array. -/
theorem cover2 (i : S1024x40.Idx) :
    ∃ t : Fin cfg2.N, (cfg2.win 3).flush t = true ∧ i ∈ ((cfg2.win 3).blk t).view.set := by
  have hi0 : (i 0).val < 1024 := (i 0).isLt
  have hi1 : (i 1).val < 40 := (i 1).isLt
  obtain ⟨-, -, -, -, -, -, e30, e31⟩ := idx_facts2 t2_0
  refine ⟨t2_0, flush2_3 t2_0, ?_⟩
  rw [mem_blk2]
  intro a
  match a with
  | ⟨0, _⟩ =>
    show win2_3.index t2_0 (0 : Fin 2) * 1024 ≤ (i 0).val ∧ (i 0).val < win2_3.index t2_0 (0 : Fin 2) * 1024 + 1024
    omega
  | ⟨1, _⟩ =>
    show win2_3.index t2_0 (1 : Fin 2) * 40 ≤ (i 1).val ∧ (i 1).val < win2_3.index t2_0 (1 : Fin 2) * 40 + 40
    omega

/-- The head's array after the region is the head's table of the arrays the region finds. -/
theorem final2
    (hpay : ∀ (x0 : Vec Ideal S1024x128 .f32) (x1 : Vec Ideal S128x40 .f32) (x2 : Vec Ideal S1x40 .f32) (r : Fin 1024) (j : Fin 40),
      k2_pay1 (F := Ideal) x0 x1 x2 (ix2 r j)
        = H (fun k => x0 (ix2 r k)) (fun k j' => x1 (ix2 k j')) (fun j' => x2 (ix2 (0 : Fin 1) j')) j)
    (c : Dev nD) :
    (dat2 V c).arrAt 3 cfg2.N = headG H (V c main_v17) (V c main_arg8) (V c main_v18) :=
  (dat2 V c).arrAt_eq_of_cover 3 _ (fun t _ => flushed2_eq H V hpay c t) cover2

end Cert.Sage.KernelBlocks

end
-- ==== Proof.LibHostKept.lean ====
/-
  A buffer that no operation of a stretch of host lines writes keeps its contents.

  For a LITERAL list `ops` of host operations (the builders `nullary`, `unary`, `binary`, `ternary`, `quaternary`,
  `reshape`, and the outlined functions' typed forms of them) and a reference `b` that none of them writes,
  `after ops v b = v b` for any contents `v`.  The tactic `host_kept ops` closes such a goal: it walks the list once,
  reads each operation's written buffer, and decides the reference different from it.  Useful wherever a value is
  carried across a stretch that neither reads nor writes it — a program of several device regions among host lines,
  or a long host program read stretch by stretch.
-/
import Idealize.ShloMosaic.Lib.StableHlo.Run

namespace Cert.Kept

/-- Closes `after ops v b = v b` for a literal list `ops` (given by name) none of whose operations writes `b`. -/
macro "host_kept" l:ident : tactic => `(tactic| (
  refine Idealize.ShloMosaic.StableHlo.after_of_forall_not_mem _ _ (List.forall_iff_forall_mem.mp ?_)
  simp only [$l:ident, List.Forall, Idealize.ShloMosaic.StableHlo.nullary_writes, Idealize.ShloMosaic.StableHlo.unary_writes,
    Idealize.ShloMosaic.StableHlo.binary_writes, Idealize.ShloMosaic.StableHlo.ternary_writes,
    Idealize.ShloMosaic.StableHlo.quaternary_writes, Idealize.ShloMosaic.StableHlo.reshape_writes, Finset.mem_singleton]
  repeat' apply And.intro
  all_goals exact Idealize.ShloMosaic.StableHlo.devRef_ne_of_ne (by decide)))

end Cert.Kept
-- ==== Proof.LibTypedRef.lean ====
/-
  A value written into the buffer of a typed reference and read back through the same reference is the value.

  A typed reference names a buffer together with the type of the tensor value it holds and an equation saying that the
  buffer's own type is that type.  Contents pass between the value's type and the buffer's type by transport along that
  equation, in either direction.  The two transports are inverse to each other: to the buffer and back gives the value,
  and from the buffer and back gives the buffer's contents.  Both are proved for an arbitrary reference by making the
  equation the reflexive one, so neither statement asks what any particular reference's type is.

  Use: a stretch of host operations printed through typed references (the operations of an outlined function) leaves,
  once each operation's result has been rewritten to its function's value, every intermediate value wrapped in such a
  pair of transports.  Rewriting with the first lemma removes the pairs one by one, whichever proofs the two references
  carry, without the type of any reference being computed.
-/
import Idealize.ShloMosaic.Lib.StableHlo

namespace Cert.TypedRef

open Idealize.ShloMosaic Idealize.ShloMosaic.StableHlo

variable {sig : RefSig} {Val : EltTy → Type} {T : BufTy}

/-- Contents at the value's type, moved to the type of the reference's buffer and back, are unchanged. -/
theorem ofBuf_toBuf (x : TRef sig T) (w : T.Contents Val) : x.ofBuf (x.toBuf w) = w := by
  obtain ⟨r, h, _, _⟩ := x
  subst h
  rfl

/-- Contents of the reference's buffer, moved to the value's type and back, are unchanged. -/
theorem toBuf_ofBuf (x : TRef sig T) (w : x.ref.ty.Contents Val) : x.toBuf (x.ofBuf w) = w := by
  obtain ⟨r, h, _, _⟩ := x
  subst h
  rfl

end Cert.TypedRef
-- ==== Proof.KernelHost.lean ====
/-
  What the host stretches of the kernel program leave in the buffers its three device regions read.

  Between the launch and each region the host lines compute, from the arguments and from the previous region's output
  table, exactly the reference's stages: the in-degree of every node laid as a column, the rows of the node table picked
  by the edge sources and summed by edge destination, the rows picked by the batch nodes, and each bias laid as a row.
  Every other live buffer is carried unchanged across the lines and regions that do not write it, so it still holds what
  the launch or the previous region put there.
-/
import proofs.«136289_j37039797961388_1_alg».proof.Proof.Gen.KernelIdeal.Frame
import proofs.«136289_j37039797961388_1_alg».proof.Proof.Gen.ReferenceIdeal
import proofs.«136289_j37039797961388_1_alg».proof.Proof.SageSpec
import proofs.«136289_j37039797961388_1_alg».proof.Proof.LibHostKept
import proofs.«136289_j37039797961388_1_alg».proof.Proof.LibTypedRef
import Idealize.ShloMosaic.Lib.StableHlo.Run

noncomputable section

namespace Cert.Sage.KernelHost

open Cert.KernelIdeal Cert.KernelIdeal.Gen Idealize.ShloMosaic Idealize.ShloMosaic.TcCoe Idealize.ShloMosaic.StableHlo
open Cert.Kept Cert.TypedRef

variable {F : FTy → Type} [FloatOps F]

attribute [local irreducible] Host.reduce Host.gather Host.scatterAdd

/-! ## The kernel program's host spellings are the reference's stage functions (the two programs' shapes and dimension
    records are the same literals) -/

/-- The scatter-add of the edge messages into a table of zeros, in the kernel program's spelling, is the reference's
    segment sum. -/
theorem segSum_voc (u : FVec F S1600000x128 .f32) (i : IVec S1600000 32) :
    Host.scatterAdd scatter_S100000x128_S1600000x1_S1600000x128_1_0_0_1
      (broadcastInDim S100000x128 ![] Facts₀.bcast_S_S100000x128 (constant (F := F) S_ .f32 0x00000000#32))
      (broadcastInDim S1600000x1 ![0] Facts₀.bcast_S1600000_S1600000x1_0 i) u
    = Cert.Sage.segSum u i := by
  unfold Cert.Sage.segSum
  rfl

/-- The scatter-add of a vector of ones into a vector of zeros, in the kernel program's spelling, is the reference's
    in-degree. -/
theorem degree_voc (i : IVec S1600000 32) :
    Host.scatterAdd scatter_S100000_S1600000x1_S1600000_n_0_0_1
      (broadcastInDim S100000 ![] Facts₀.bcast_S_S100000 (constant (F := F) S_ .f32 0x00000000#32))
      (broadcastInDim S1600000x1 ![0] Facts₀.bcast_S1600000_S1600000x1_0 i)
      (broadcastInDim S1600000 ![] Facts₀.bcast_S_S1600000 (constant (F := F) S_ .f32 0x3F800000#32))
    = Cert.Sage.degree (F := F) i := by
  unfold Cert.Sage.degree
  rfl

/-- The rows of a node table picked by the edge sources (an index wrapped once when negative, a row out of range filled with the quiet-NaN word), in the kernel program's spelling, are the reference's `takeE`. -/
theorem takeE_voc (x : FVec F S100000x128 .f32) (idx : IVec S1600000 32) :
    select
      (broadcastInDim S1600000x128 ![0] Facts₀.bcast_S1600000_S1600000x128_0
        (Host.reduce IntOp.andi
          (andi
            (cmpi .sge
              (broadcastInDim S1600000x1 ![0] Facts₀.bcast_S1600000_S1600000x1_0
                (select (cmpi .slt idx (broadcastInDim S1600000 ![] Facts₀.bcast_S_S1600000 (constantI S_ 32 0#32)))
                  (addi idx (broadcastInDim S1600000 ![] Facts₀.bcast_S_S1600000 (constantI S_ 32 100000#32))) idx))
              (broadcastInDim S1600000x1 ![] Facts₀.bcast_S_S1600000x1 (constantI S_ 32 0#32)))
            (cmpi .sle
              (broadcastInDim S1600000x1 ![0] Facts₀.bcast_S1600000_S1600000x1_0
                (select (cmpi .slt idx (broadcastInDim S1600000 ![] Facts₀.bcast_S_S1600000 (constantI S_ 32 0#32)))
                  (addi idx (broadcastInDim S1600000 ![] Facts₀.bcast_S_S1600000 (constantI S_ 32 100000#32))) idx))
              (broadcastInDim S1600000x1 ![0, 1] Facts₀.bcast_S1x1_S1600000x1_0_1
                (broadcastInDim S1x1 ![1] Facts₀.bcast_S1_S1x1_1 (constantI S1 32 99999#32)))))
          (constantI S_ 1 1#1) Facts₀.reducesTo_S1600000x1_S1600000_d1 Facts₀.h_S_))
      (Host.gather gather_S100000x128_S1600000x1_S1600000x128_1_0_n_n_0_1_1128 x
        (broadcastInDim S1600000x1 ![0] Facts₀.bcast_S1600000_S1600000x1_0
          (select (cmpi .slt idx (broadcastInDim S1600000 ![] Facts₀.bcast_S_S1600000 (constantI S_ 32 0#32)))
            (addi idx (broadcastInDim S1600000 ![] Facts₀.bcast_S_S1600000 (constantI S_ 32 100000#32))) idx)))
      (broadcastInDim S1600000x128 ![] Facts₀.bcast_S_S1600000x128 (constant (F := F) S_ .f32 0x7FC00000#32))
    = Cert.Sage.takeE x idx := by
  unfold Cert.Sage.takeE
  rfl

/-- The rows of a node table picked by the batch nodes, in the kernel program's spelling, are the reference's `takeB`. -/
theorem takeB_voc (x : FVec F S100000x128 .f32) (idx : IVec S1024 32) :
    select
      (broadcastInDim S1024x128 ![0] Facts₀.bcast_S1024_S1024x128_0
        (Host.reduce IntOp.andi
          (andi
            (cmpi .sge
              (broadcastInDim S1024x1 ![0] Facts₀.bcast_S1024_S1024x1_0
                (select (cmpi .slt idx (broadcastInDim S1024 ![] Facts₀.bcast_S_S1024 (constantI S_ 32 0#32)))
                  (addi idx (broadcastInDim S1024 ![] Facts₀.bcast_S_S1024 (constantI S_ 32 100000#32))) idx))
              (broadcastInDim S1024x1 ![] Facts₀.bcast_S_S1024x1 (constantI S_ 32 0#32)))
            (cmpi .sle
              (broadcastInDim S1024x1 ![0] Facts₀.bcast_S1024_S1024x1_0
                (select (cmpi .slt idx (broadcastInDim S1024 ![] Facts₀.bcast_S_S1024 (constantI S_ 32 0#32)))
                  (addi idx (broadcastInDim S1024 ![] Facts₀.bcast_S_S1024 (constantI S_ 32 100000#32))) idx))
              (broadcastInDim S1024x1 ![0, 1] Facts₀.bcast_S1x1_S1024x1_0_1
                (broadcastInDim S1x1 ![1] Facts₀.bcast_S1_S1x1_1 (constantI S1 32 99999#32)))))
          (constantI S_ 1 1#1) Facts₀.reducesTo_S1024x1_S1024_d1 Facts₀.h_S_))
      (Host.gather gather_S100000x128_S1024x1_S1024x128_1_0_n_n_0_1_1128 x
        (broadcastInDim S1024x1 ![0] Facts₀.bcast_S1024_S1024x1_0
          (select (cmpi .slt idx (broadcastInDim S1024 ![] Facts₀.bcast_S_S1024 (constantI S_ 32 0#32)))
            (addi idx (broadcastInDim S1024 ![] Facts₀.bcast_S_S1024 (constantI S_ 32 100000#32))) idx)))
      (broadcastInDim S1024x128 ![] Facts₀.bcast_S_S1024x128 (constant (F := F) S_ .f32 0x7FC00000#32))
    = Cert.Sage.takeB x idx := by
  unfold Cert.Sage.takeB
  rfl

/-! ## What each stretch of host lines leaves, from any contents `v` before it -/

/-- The first stretch leaves in the degree column the in-degree of every node (ones summed by edge destination, from
    zeros), laid as a one-column matrix. -/
theorem deg_stretch (v : Valuation τ sig (Elt F)) :
    after hostOps0 v (Proc.devRef .tc main_v4)
      = shapeCast S100000x1 (Cert.Sage.degree (F := F) (v (Proc.devRef .tc main_arg2))) Facts₀.shapeCasts_S100000_S100000x1 := by
  after_results
  show shapeCast S100000x1 _ Facts₀.shapeCasts_S100000_S100000x1 = _
  exact congrArg (fun t => shapeCast S100000x1 t Facts₀.shapeCasts_S100000_S100000x1) (degree_voc _)

/-- The first gather stretch leaves the rows of the launched node table picked by the edge sources. -/
theorem take0_stretch (v : Valuation τ sig (Elt F)) :
    after hostOps0_1 v (Proc.devRef .tc main_v5)
      = Cert.Sage.takeE (F := F) (v (Proc.devRef .tc main_arg0)) (v (Proc.devRef .tc main_arg1)) := by
  after_results_simp
  simp only [ofBuf_toBuf]
  exact takeE_voc _ _

/-- The stretch before region 0 leaves the picked rows summed by edge destination. -/
theorem agg0_stretch (v : Valuation τ sig (Elt F)) :
    after hostOps0_2 v (Proc.devRef .tc main_v8)
      = Cert.Sage.segSum (F := F) (v (Proc.devRef .tc main_v5)) (v (Proc.devRef .tc main_arg2)) := by
  after_results
  exact segSum_voc _ _

/-- The stretch before region 0 leaves the first layer's bias laid as a one-row matrix. -/
theorem bias0_stretch (v : Valuation τ sig (Elt F)) :
    after hostOps0_2 v (Proc.devRef .tc main_v9)
      = shapeCast S1x128 (v (Proc.devRef .tc main_arg5)) Facts₀.shapeCasts_S128_S1x128 := by
  after_results
  rfl

/-- The second gather stretch leaves the rows of region 0's output table picked by the edge sources. -/
theorem take1_stretch (v : Valuation τ sig (Elt F)) :
    after hostOps1 v (Proc.devRef .tc main_v11)
      = Cert.Sage.takeE (F := F) (v (Proc.devRef .tc main_v10)) (v (Proc.devRef .tc main_arg1)) := by
  after_results_simp
  simp only [ofBuf_toBuf]
  exact takeE_voc _ _

/-- The stretch before region 1 leaves the picked rows summed by edge destination. -/
theorem agg1_stretch (v : Valuation τ sig (Elt F)) :
    after hostOps1_1 v (Proc.devRef .tc main_v14)
      = Cert.Sage.segSum (F := F) (v (Proc.devRef .tc main_v11)) (v (Proc.devRef .tc main_arg2)) := by
  after_results
  exact segSum_voc _ _

/-- The stretch before region 1 leaves the second layer's bias laid as a one-row matrix. -/
theorem bias1_stretch (v : Valuation τ sig (Elt F)) :
    after hostOps1_1 v (Proc.devRef .tc main_v15)
      = shapeCast S1x128 (v (Proc.devRef .tc main_arg7)) Facts₀.shapeCasts_S128_S1x128 := by
  after_results
  rfl

/-- The third gather stretch leaves the rows of region 1's output table picked by the batch nodes. -/
theorem take2_stretch (v : Valuation τ sig (Elt F)) :
    after hostOps2 v (Proc.devRef .tc main_v17)
      = Cert.Sage.takeB (F := F) (v (Proc.devRef .tc main_v16)) (v (Proc.devRef .tc main_arg3)) := by
  after_results_simp
  simp only [ofBuf_toBuf]
  exact takeB_voc _ _

/-- The stretch before region 2 leaves the classifier's bias laid as a one-row matrix. -/
theorem bias2_stretch (v : Valuation τ sig (Elt F)) :
    after hostOps2_1 v (Proc.devRef .tc main_v18)
      = shapeCast S1x40 (v (Proc.devRef .tc main_arg9)) Facts₀.shapeCasts_S40_S1x40 := by
  after_results
  rfl

variable (m : (ℓ : Loc nD τ sig) → Buf (Elt F) ℓ) (ρ : Dev nD → PrngReg) (c : Dev nD)

/-! ## The arguments are carried unchanged: no host line writes one, and a region they are no window of leaves them -/

/-- Argument 0 after the first stretch of host lines is still the launched one. -/
theorem W1_arg0 : W1 m ρ c (Proc.devRef .tc main_arg0) = m ((c : Thread nD τ).loc main_arg0) :=
  (show W1 m ρ c (Proc.devRef .tc main_arg0) = W0 m ρ c (Proc.devRef .tc main_arg0) from (by host_kept hostOps0)).trans rfl

/-- Argument 0 after the first gather stretch is still the launched one. -/
theorem W2_arg0 : W2 m ρ c (Proc.devRef .tc main_arg0) = m ((c : Thread nD τ).loc main_arg0) :=
  (show W2 m ρ c (Proc.devRef .tc main_arg0) = W1 m ρ c (Proc.devRef .tc main_arg0) from (by host_kept hostOps0_1)).trans (W1_arg0 m ρ c)

/-- Region 0 reads the node table as launched. -/
theorem W3_arg0 : W3 m ρ c (Proc.devRef .tc main_arg0) = m ((c : Thread nD τ).loc main_arg0) :=
  (show W3 m ρ c (Proc.devRef .tc main_arg0) = W2 m ρ c (Proc.devRef .tc main_arg0) from (by host_kept hostOps0_2)).trans (W2_arg0 m ρ c)

/-- Argument 1 after the first stretch of host lines is still the launched one. -/
theorem W1_arg1 : W1 m ρ c (Proc.devRef .tc main_arg1) = m ((c : Thread nD τ).loc main_arg1) :=
  (show W1 m ρ c (Proc.devRef .tc main_arg1) = W0 m ρ c (Proc.devRef .tc main_arg1) from (by host_kept hostOps0)).trans rfl

/-- Argument 1 after the first gather stretch is still the launched one. -/
theorem W2_arg1 : W2 m ρ c (Proc.devRef .tc main_arg1) = m ((c : Thread nD τ).loc main_arg1) :=
  (show W2 m ρ c (Proc.devRef .tc main_arg1) = W1 m ρ c (Proc.devRef .tc main_arg1) from (by host_kept hostOps0_1)).trans (W1_arg1 m ρ c)

/-- Argument 1 at region 0's entry is still the launched one. -/
theorem W3_arg1 : W3 m ρ c (Proc.devRef .tc main_arg1) = m ((c : Thread nD τ).loc main_arg1) :=
  (show W3 m ρ c (Proc.devRef .tc main_arg1) = W2 m ρ c (Proc.devRef .tc main_arg1) from (by host_kept hostOps0_2)).trans (W2_arg1 m ρ c)

/-- Argument 1 at region 0's exit is still the launched one. -/
theorem W4_arg1 : W4 m ρ c (Proc.devRef .tc main_arg1) = m ((c : Thread nD τ).loc main_arg1) :=
  (show W4 m ρ c (Proc.devRef .tc main_arg1) = W3 m ρ c (Proc.devRef .tc main_arg1) from (W4_of_ne m ρ c main_arg1 (by decide))).trans (W3_arg1 m ρ c)

/-- Argument 2 after the first stretch of host lines is still the launched one. -/
theorem W1_arg2 : W1 m ρ c (Proc.devRef .tc main_arg2) = m ((c : Thread nD τ).loc main_arg2) :=
  (show W1 m ρ c (Proc.devRef .tc main_arg2) = W0 m ρ c (Proc.devRef .tc main_arg2) from (by host_kept hostOps0)).trans rfl

/-- Argument 2 after the first gather stretch is still the launched one. -/
theorem W2_arg2 : W2 m ρ c (Proc.devRef .tc main_arg2) = m ((c : Thread nD τ).loc main_arg2) :=
  (show W2 m ρ c (Proc.devRef .tc main_arg2) = W1 m ρ c (Proc.devRef .tc main_arg2) from (by host_kept hostOps0_1)).trans (W1_arg2 m ρ c)

/-- Argument 2 at region 0's entry is still the launched one. -/
theorem W3_arg2 : W3 m ρ c (Proc.devRef .tc main_arg2) = m ((c : Thread nD τ).loc main_arg2) :=
  (show W3 m ρ c (Proc.devRef .tc main_arg2) = W2 m ρ c (Proc.devRef .tc main_arg2) from (by host_kept hostOps0_2)).trans (W2_arg2 m ρ c)

/-- Argument 2 at region 0's exit is still the launched one. -/
theorem W4_arg2 : W4 m ρ c (Proc.devRef .tc main_arg2) = m ((c : Thread nD τ).loc main_arg2) :=
  (show W4 m ρ c (Proc.devRef .tc main_arg2) = W3 m ρ c (Proc.devRef .tc main_arg2) from (W4_of_ne m ρ c main_arg2 (by decide))).trans (W3_arg2 m ρ c)

/-- Argument 2 after the second gather stretch is still the launched one. -/
theorem W5_arg2 : W5 m ρ c (Proc.devRef .tc main_arg2) = m ((c : Thread nD τ).loc main_arg2) :=
  (show W5 m ρ c (Proc.devRef .tc main_arg2) = W4 m ρ c (Proc.devRef .tc main_arg2) from (by host_kept hostOps1)).trans (W4_arg2 m ρ c)

/-- Argument 3 after the first stretch of host lines is still the launched one. -/
theorem W1_arg3 : W1 m ρ c (Proc.devRef .tc main_arg3) = m ((c : Thread nD τ).loc main_arg3) :=
  (show W1 m ρ c (Proc.devRef .tc main_arg3) = W0 m ρ c (Proc.devRef .tc main_arg3) from (by host_kept hostOps0)).trans rfl

/-- Argument 3 after the first gather stretch is still the launched one. -/
theorem W2_arg3 : W2 m ρ c (Proc.devRef .tc main_arg3) = m ((c : Thread nD τ).loc main_arg3) :=
  (show W2 m ρ c (Proc.devRef .tc main_arg3) = W1 m ρ c (Proc.devRef .tc main_arg3) from (by host_kept hostOps0_1)).trans (W1_arg3 m ρ c)

/-- Argument 3 at region 0's entry is still the launched one. -/
theorem W3_arg3 : W3 m ρ c (Proc.devRef .tc main_arg3) = m ((c : Thread nD τ).loc main_arg3) :=
  (show W3 m ρ c (Proc.devRef .tc main_arg3) = W2 m ρ c (Proc.devRef .tc main_arg3) from (by host_kept hostOps0_2)).trans (W2_arg3 m ρ c)

/-- Argument 3 at region 0's exit is still the launched one. -/
theorem W4_arg3 : W4 m ρ c (Proc.devRef .tc main_arg3) = m ((c : Thread nD τ).loc main_arg3) :=
  (show W4 m ρ c (Proc.devRef .tc main_arg3) = W3 m ρ c (Proc.devRef .tc main_arg3) from (W4_of_ne m ρ c main_arg3 (by decide))).trans (W3_arg3 m ρ c)

/-- Argument 3 after the second gather stretch is still the launched one. -/
theorem W5_arg3 : W5 m ρ c (Proc.devRef .tc main_arg3) = m ((c : Thread nD τ).loc main_arg3) :=
  (show W5 m ρ c (Proc.devRef .tc main_arg3) = W4 m ρ c (Proc.devRef .tc main_arg3) from (by host_kept hostOps1)).trans (W4_arg3 m ρ c)

/-- Argument 3 at region 1's entry is still the launched one. -/
theorem W6_arg3 : W6 m ρ c (Proc.devRef .tc main_arg3) = m ((c : Thread nD τ).loc main_arg3) :=
  (show W6 m ρ c (Proc.devRef .tc main_arg3) = W5 m ρ c (Proc.devRef .tc main_arg3) from (by host_kept hostOps1_1)).trans (W5_arg3 m ρ c)

/-- Argument 3 at region 1's exit is still the launched one. -/
theorem W7_arg3 : W7 m ρ c (Proc.devRef .tc main_arg3) = m ((c : Thread nD τ).loc main_arg3) :=
  (show W7 m ρ c (Proc.devRef .tc main_arg3) = W6 m ρ c (Proc.devRef .tc main_arg3) from (W7_of_ne m ρ c main_arg3 (by decide))).trans (W6_arg3 m ρ c)

/-- Argument 4 after the first stretch of host lines is still the launched one. -/
theorem W1_arg4 : W1 m ρ c (Proc.devRef .tc main_arg4) = m ((c : Thread nD τ).loc main_arg4) :=
  (show W1 m ρ c (Proc.devRef .tc main_arg4) = W0 m ρ c (Proc.devRef .tc main_arg4) from (by host_kept hostOps0)).trans rfl

/-- Argument 4 after the first gather stretch is still the launched one. -/
theorem W2_arg4 : W2 m ρ c (Proc.devRef .tc main_arg4) = m ((c : Thread nD τ).loc main_arg4) :=
  (show W2 m ρ c (Proc.devRef .tc main_arg4) = W1 m ρ c (Proc.devRef .tc main_arg4) from (by host_kept hostOps0_1)).trans (W1_arg4 m ρ c)

/-- Region 0 reads the first layer's weights as launched. -/
theorem W3_arg4 : W3 m ρ c (Proc.devRef .tc main_arg4) = m ((c : Thread nD τ).loc main_arg4) :=
  (show W3 m ρ c (Proc.devRef .tc main_arg4) = W2 m ρ c (Proc.devRef .tc main_arg4) from (by host_kept hostOps0_2)).trans (W2_arg4 m ρ c)

/-- Argument 5 after the first stretch of host lines is still the launched one. -/
theorem W1_arg5 : W1 m ρ c (Proc.devRef .tc main_arg5) = m ((c : Thread nD τ).loc main_arg5) :=
  (show W1 m ρ c (Proc.devRef .tc main_arg5) = W0 m ρ c (Proc.devRef .tc main_arg5) from (by host_kept hostOps0)).trans rfl

/-- Argument 5 after the first gather stretch is still the launched one. -/
theorem W2_arg5 : W2 m ρ c (Proc.devRef .tc main_arg5) = m ((c : Thread nD τ).loc main_arg5) :=
  (show W2 m ρ c (Proc.devRef .tc main_arg5) = W1 m ρ c (Proc.devRef .tc main_arg5) from (by host_kept hostOps0_1)).trans (W1_arg5 m ρ c)

/-- Argument 6 after the first stretch of host lines is still the launched one. -/
theorem W1_arg6 : W1 m ρ c (Proc.devRef .tc main_arg6) = m ((c : Thread nD τ).loc main_arg6) :=
  (show W1 m ρ c (Proc.devRef .tc main_arg6) = W0 m ρ c (Proc.devRef .tc main_arg6) from (by host_kept hostOps0)).trans rfl

/-- Argument 6 after the first gather stretch is still the launched one. -/
theorem W2_arg6 : W2 m ρ c (Proc.devRef .tc main_arg6) = m ((c : Thread nD τ).loc main_arg6) :=
  (show W2 m ρ c (Proc.devRef .tc main_arg6) = W1 m ρ c (Proc.devRef .tc main_arg6) from (by host_kept hostOps0_1)).trans (W1_arg6 m ρ c)

/-- Argument 6 at region 0's entry is still the launched one. -/
theorem W3_arg6 : W3 m ρ c (Proc.devRef .tc main_arg6) = m ((c : Thread nD τ).loc main_arg6) :=
  (show W3 m ρ c (Proc.devRef .tc main_arg6) = W2 m ρ c (Proc.devRef .tc main_arg6) from (by host_kept hostOps0_2)).trans (W2_arg6 m ρ c)

/-- Argument 6 at region 0's exit is still the launched one. -/
theorem W4_arg6 : W4 m ρ c (Proc.devRef .tc main_arg6) = m ((c : Thread nD τ).loc main_arg6) :=
  (show W4 m ρ c (Proc.devRef .tc main_arg6) = W3 m ρ c (Proc.devRef .tc main_arg6) from (W4_of_ne m ρ c main_arg6 (by decide))).trans (W3_arg6 m ρ c)

/-- Argument 6 after the second gather stretch is still the launched one. -/
theorem W5_arg6 : W5 m ρ c (Proc.devRef .tc main_arg6) = m ((c : Thread nD τ).loc main_arg6) :=
  (show W5 m ρ c (Proc.devRef .tc main_arg6) = W4 m ρ c (Proc.devRef .tc main_arg6) from (by host_kept hostOps1)).trans (W4_arg6 m ρ c)

/-- Region 1 reads the second layer's weights as launched. -/
theorem W6_arg6 : W6 m ρ c (Proc.devRef .tc main_arg6) = m ((c : Thread nD τ).loc main_arg6) :=
  (show W6 m ρ c (Proc.devRef .tc main_arg6) = W5 m ρ c (Proc.devRef .tc main_arg6) from (by host_kept hostOps1_1)).trans (W5_arg6 m ρ c)

/-- Argument 7 after the first stretch of host lines is still the launched one. -/
theorem W1_arg7 : W1 m ρ c (Proc.devRef .tc main_arg7) = m ((c : Thread nD τ).loc main_arg7) :=
  (show W1 m ρ c (Proc.devRef .tc main_arg7) = W0 m ρ c (Proc.devRef .tc main_arg7) from (by host_kept hostOps0)).trans rfl

/-- Argument 7 after the first gather stretch is still the launched one. -/
theorem W2_arg7 : W2 m ρ c (Proc.devRef .tc main_arg7) = m ((c : Thread nD τ).loc main_arg7) :=
  (show W2 m ρ c (Proc.devRef .tc main_arg7) = W1 m ρ c (Proc.devRef .tc main_arg7) from (by host_kept hostOps0_1)).trans (W1_arg7 m ρ c)

/-- Argument 7 at region 0's entry is still the launched one. -/
theorem W3_arg7 : W3 m ρ c (Proc.devRef .tc main_arg7) = m ((c : Thread nD τ).loc main_arg7) :=
  (show W3 m ρ c (Proc.devRef .tc main_arg7) = W2 m ρ c (Proc.devRef .tc main_arg7) from (by host_kept hostOps0_2)).trans (W2_arg7 m ρ c)

/-- Argument 7 at region 0's exit is still the launched one. -/
theorem W4_arg7 : W4 m ρ c (Proc.devRef .tc main_arg7) = m ((c : Thread nD τ).loc main_arg7) :=
  (show W4 m ρ c (Proc.devRef .tc main_arg7) = W3 m ρ c (Proc.devRef .tc main_arg7) from (W4_of_ne m ρ c main_arg7 (by decide))).trans (W3_arg7 m ρ c)

/-- Argument 7 after the second gather stretch is still the launched one. -/
theorem W5_arg7 : W5 m ρ c (Proc.devRef .tc main_arg7) = m ((c : Thread nD τ).loc main_arg7) :=
  (show W5 m ρ c (Proc.devRef .tc main_arg7) = W4 m ρ c (Proc.devRef .tc main_arg7) from (by host_kept hostOps1)).trans (W4_arg7 m ρ c)

/-- Argument 8 after the first stretch of host lines is still the launched one. -/
theorem W1_arg8 : W1 m ρ c (Proc.devRef .tc main_arg8) = m ((c : Thread nD τ).loc main_arg8) :=
  (show W1 m ρ c (Proc.devRef .tc main_arg8) = W0 m ρ c (Proc.devRef .tc main_arg8) from (by host_kept hostOps0)).trans rfl

/-- Argument 8 after the first gather stretch is still the launched one. -/
theorem W2_arg8 : W2 m ρ c (Proc.devRef .tc main_arg8) = m ((c : Thread nD τ).loc main_arg8) :=
  (show W2 m ρ c (Proc.devRef .tc main_arg8) = W1 m ρ c (Proc.devRef .tc main_arg8) from (by host_kept hostOps0_1)).trans (W1_arg8 m ρ c)

/-- Argument 8 at region 0's entry is still the launched one. -/
theorem W3_arg8 : W3 m ρ c (Proc.devRef .tc main_arg8) = m ((c : Thread nD τ).loc main_arg8) :=
  (show W3 m ρ c (Proc.devRef .tc main_arg8) = W2 m ρ c (Proc.devRef .tc main_arg8) from (by host_kept hostOps0_2)).trans (W2_arg8 m ρ c)

/-- Argument 8 at region 0's exit is still the launched one. -/
theorem W4_arg8 : W4 m ρ c (Proc.devRef .tc main_arg8) = m ((c : Thread nD τ).loc main_arg8) :=
  (show W4 m ρ c (Proc.devRef .tc main_arg8) = W3 m ρ c (Proc.devRef .tc main_arg8) from (W4_of_ne m ρ c main_arg8 (by decide))).trans (W3_arg8 m ρ c)

/-- Argument 8 after the second gather stretch is still the launched one. -/
theorem W5_arg8 : W5 m ρ c (Proc.devRef .tc main_arg8) = m ((c : Thread nD τ).loc main_arg8) :=
  (show W5 m ρ c (Proc.devRef .tc main_arg8) = W4 m ρ c (Proc.devRef .tc main_arg8) from (by host_kept hostOps1)).trans (W4_arg8 m ρ c)

/-- Argument 8 at region 1's entry is still the launched one. -/
theorem W6_arg8 : W6 m ρ c (Proc.devRef .tc main_arg8) = m ((c : Thread nD τ).loc main_arg8) :=
  (show W6 m ρ c (Proc.devRef .tc main_arg8) = W5 m ρ c (Proc.devRef .tc main_arg8) from (by host_kept hostOps1_1)).trans (W5_arg8 m ρ c)

/-- Argument 8 at region 1's exit is still the launched one. -/
theorem W7_arg8 : W7 m ρ c (Proc.devRef .tc main_arg8) = m ((c : Thread nD τ).loc main_arg8) :=
  (show W7 m ρ c (Proc.devRef .tc main_arg8) = W6 m ρ c (Proc.devRef .tc main_arg8) from (W7_of_ne m ρ c main_arg8 (by decide))).trans (W6_arg8 m ρ c)

/-- Argument 8 after the third gather stretch is still the launched one. -/
theorem W8_arg8 : W8 m ρ c (Proc.devRef .tc main_arg8) = m ((c : Thread nD τ).loc main_arg8) :=
  (show W8 m ρ c (Proc.devRef .tc main_arg8) = W7 m ρ c (Proc.devRef .tc main_arg8) from (by host_kept hostOps2)).trans (W7_arg8 m ρ c)

/-- Region 2 reads the classifier's weights as launched. -/
theorem W9_arg8 : W9 m ρ c (Proc.devRef .tc main_arg8) = m ((c : Thread nD τ).loc main_arg8) :=
  (show W9 m ρ c (Proc.devRef .tc main_arg8) = W8 m ρ c (Proc.devRef .tc main_arg8) from (by host_kept hostOps2_1)).trans (W8_arg8 m ρ c)

/-- Argument 9 after the first stretch of host lines is still the launched one. -/
theorem W1_arg9 : W1 m ρ c (Proc.devRef .tc main_arg9) = m ((c : Thread nD τ).loc main_arg9) :=
  (show W1 m ρ c (Proc.devRef .tc main_arg9) = W0 m ρ c (Proc.devRef .tc main_arg9) from (by host_kept hostOps0)).trans rfl

/-- Argument 9 after the first gather stretch is still the launched one. -/
theorem W2_arg9 : W2 m ρ c (Proc.devRef .tc main_arg9) = m ((c : Thread nD τ).loc main_arg9) :=
  (show W2 m ρ c (Proc.devRef .tc main_arg9) = W1 m ρ c (Proc.devRef .tc main_arg9) from (by host_kept hostOps0_1)).trans (W1_arg9 m ρ c)

/-- Argument 9 at region 0's entry is still the launched one. -/
theorem W3_arg9 : W3 m ρ c (Proc.devRef .tc main_arg9) = m ((c : Thread nD τ).loc main_arg9) :=
  (show W3 m ρ c (Proc.devRef .tc main_arg9) = W2 m ρ c (Proc.devRef .tc main_arg9) from (by host_kept hostOps0_2)).trans (W2_arg9 m ρ c)

/-- Argument 9 at region 0's exit is still the launched one. -/
theorem W4_arg9 : W4 m ρ c (Proc.devRef .tc main_arg9) = m ((c : Thread nD τ).loc main_arg9) :=
  (show W4 m ρ c (Proc.devRef .tc main_arg9) = W3 m ρ c (Proc.devRef .tc main_arg9) from (W4_of_ne m ρ c main_arg9 (by decide))).trans (W3_arg9 m ρ c)

/-- Argument 9 after the second gather stretch is still the launched one. -/
theorem W5_arg9 : W5 m ρ c (Proc.devRef .tc main_arg9) = m ((c : Thread nD τ).loc main_arg9) :=
  (show W5 m ρ c (Proc.devRef .tc main_arg9) = W4 m ρ c (Proc.devRef .tc main_arg9) from (by host_kept hostOps1)).trans (W4_arg9 m ρ c)

/-- Argument 9 at region 1's entry is still the launched one. -/
theorem W6_arg9 : W6 m ρ c (Proc.devRef .tc main_arg9) = m ((c : Thread nD τ).loc main_arg9) :=
  (show W6 m ρ c (Proc.devRef .tc main_arg9) = W5 m ρ c (Proc.devRef .tc main_arg9) from (by host_kept hostOps1_1)).trans (W5_arg9 m ρ c)

/-- Argument 9 at region 1's exit is still the launched one. -/
theorem W7_arg9 : W7 m ρ c (Proc.devRef .tc main_arg9) = m ((c : Thread nD τ).loc main_arg9) :=
  (show W7 m ρ c (Proc.devRef .tc main_arg9) = W6 m ρ c (Proc.devRef .tc main_arg9) from (W7_of_ne m ρ c main_arg9 (by decide))).trans (W6_arg9 m ρ c)

/-- Argument 9 after the third gather stretch is still the launched one. -/
theorem W8_arg9 : W8 m ρ c (Proc.devRef .tc main_arg9) = m ((c : Thread nD τ).loc main_arg9) :=
  (show W8 m ρ c (Proc.devRef .tc main_arg9) = W7 m ρ c (Proc.devRef .tc main_arg9) from (by host_kept hostOps2)).trans (W7_arg9 m ρ c)

/-! ## The degree column: computed once by the first stretch, then carried -/

/-- After the first stretch the degree column holds the in-degree of every node, from the launched edge destinations. -/
theorem W1_v4 : W1 m ρ c (Proc.devRef .tc main_v4) = shapeCast S100000x1 (Cert.Sage.degree (F := F) (m ((c : Thread nD τ).loc main_arg2))) Facts₀.shapeCasts_S100000_S100000x1 :=
  deg_stretch (W0 m ρ c)

/-- The two stretches before region 0 do not write the degree column. -/
theorem W3_v4_W1 : W3 m ρ c (Proc.devRef .tc main_v4) = W1 m ρ c (Proc.devRef .tc main_v4) :=
  (show W3 m ρ c (Proc.devRef .tc main_v4) = W2 m ρ c (Proc.devRef .tc main_v4) from (by host_kept hostOps0_2)).trans
    (show W2 m ρ c (Proc.devRef .tc main_v4) = W1 m ρ c (Proc.devRef .tc main_v4) from (by host_kept hostOps0_1))

/-! ## The live buffers at each region's entry -/

/-- Region 0's aggregate: the rows of the launched node table picked by the edge sources, summed by edge destination. -/
theorem W3_v8 : W3 m ρ c (Proc.devRef .tc main_v8) = Cert.Sage.segSum (Cert.Sage.takeE (m ((c : Thread nD τ).loc main_arg0)) (m ((c : Thread nD τ).loc main_arg1))) (m ((c : Thread nD τ).loc main_arg2)) :=
  (agg0_stretch (W2 m ρ c)).trans
    (congrArg₂ Cert.Sage.segSum
      ((take0_stretch (W1 m ρ c)).trans (congrArg₂ Cert.Sage.takeE (W1_arg0 m ρ c) (W1_arg1 m ρ c)))
      (W2_arg2 m ρ c))

/-- Region 0's degree column: the in-degree of every node, laid as a one-column matrix. -/
theorem W3_v4 : W3 m ρ c (Proc.devRef .tc main_v4) = shapeCast S100000x1 (Cert.Sage.degree (F := F) (m ((c : Thread nD τ).loc main_arg2))) Facts₀.shapeCasts_S100000_S100000x1 :=
  (W3_v4_W1 m ρ c).trans (W1_v4 m ρ c)

/-- Region 0's bias row: the first layer's bias laid as a one-row matrix. -/
theorem W3_v9 : W3 m ρ c (Proc.devRef .tc main_v9) = shapeCast S1x128 (m ((c : Thread nD τ).loc main_arg5)) Facts₀.shapeCasts_S128_S1x128 :=
  (bias0_stretch (W2 m ρ c)).trans
    (congrArg (fun t => shapeCast S1x128 t Facts₀.shapeCasts_S128_S1x128) (W2_arg5 m ρ c))

/-- Region 1's aggregate: the rows of region 0's output table picked by the edge sources, summed by edge destination. -/
theorem W6_v14 : W6 m ρ c (Proc.devRef .tc main_v14) = Cert.Sage.segSum (Cert.Sage.takeE (W4 m ρ c (Proc.devRef .tc main_v10)) (m ((c : Thread nD τ).loc main_arg1))) (m ((c : Thread nD τ).loc main_arg2)) :=
  (agg1_stretch (W5 m ρ c)).trans
    (congrArg₂ Cert.Sage.segSum
      ((take1_stretch (W4 m ρ c)).trans (congrArg (Cert.Sage.takeE (W4 m ρ c (Proc.devRef .tc main_v10))) (W4_arg1 m ρ c)))
      (W5_arg2 m ρ c))

/-- Region 1 reads region 0's output table as region 0 left it. -/
theorem W6_v10 : W6 m ρ c (Proc.devRef .tc main_v10) = W4 m ρ c (Proc.devRef .tc main_v10) :=
  (show W6 m ρ c (Proc.devRef .tc main_v10) = W5 m ρ c (Proc.devRef .tc main_v10) from (by host_kept hostOps1_1)).trans
    (show W5 m ρ c (Proc.devRef .tc main_v10) = W4 m ρ c (Proc.devRef .tc main_v10) from (by host_kept hostOps1))

/-- Region 1's degree column is still the in-degree of every node, laid as a one-column matrix. -/
theorem W6_v4 : W6 m ρ c (Proc.devRef .tc main_v4) = shapeCast S100000x1 (Cert.Sage.degree (F := F) (m ((c : Thread nD τ).loc main_arg2))) Facts₀.shapeCasts_S100000_S100000x1 :=
  (show W6 m ρ c (Proc.devRef .tc main_v4) = W5 m ρ c (Proc.devRef .tc main_v4) from (by host_kept hostOps1_1)).trans
    ((show W5 m ρ c (Proc.devRef .tc main_v4) = W4 m ρ c (Proc.devRef .tc main_v4) from (by host_kept hostOps1)).trans
      ((show W4 m ρ c (Proc.devRef .tc main_v4) = W3 m ρ c (Proc.devRef .tc main_v4) from
          (W4_arr m ρ c 2).trans (((dat0 (V3 m ρ) c).arrAt_in 2 rfl _).trans (A_eq0 (V3 m ρ) c 2))).trans
        ((W3_v4_W1 m ρ c).trans (W1_v4 m ρ c))))

/-- Region 1's bias row: the second layer's bias laid as a one-row matrix. -/
theorem W6_v15 : W6 m ρ c (Proc.devRef .tc main_v15) = shapeCast S1x128 (m ((c : Thread nD τ).loc main_arg7)) Facts₀.shapeCasts_S128_S1x128 :=
  (bias1_stretch (W5 m ρ c)).trans
    (congrArg (fun t => shapeCast S1x128 t Facts₀.shapeCasts_S128_S1x128) (W5_arg7 m ρ c))

/-- Region 2's input rows: the rows of region 1's output table picked by the batch nodes. -/
theorem W9_v17 : W9 m ρ c (Proc.devRef .tc main_v17) = Cert.Sage.takeB (W7 m ρ c (Proc.devRef .tc main_v16)) (m ((c : Thread nD τ).loc main_arg3)) :=
  (show W9 m ρ c (Proc.devRef .tc main_v17) = W8 m ρ c (Proc.devRef .tc main_v17) from (by host_kept hostOps2_1)).trans
    ((take2_stretch (W7 m ρ c)).trans (congrArg (Cert.Sage.takeB (W7 m ρ c (Proc.devRef .tc main_v16))) (W7_arg3 m ρ c)))

/-- Region 2's bias row: the classifier's bias laid as a one-row matrix. -/
theorem W9_v18 : W9 m ρ c (Proc.devRef .tc main_v18) = shapeCast S1x40 (m ((c : Thread nD τ).loc main_arg9)) Facts₀.shapeCasts_S40_S1x40 :=
  (bias2_stretch (W8 m ρ c)).trans
    (congrArg (fun t => shapeCast S1x40 t Facts₀.shapeCasts_S40_S1x40) (W8_arg9 m ρ c))

end Cert.Sage.KernelHost

end
-- ==== Proof.LibPlainProduct.lean ====
/-
  The plain matrix product at the ideal values, where a product is an exact sum.

  For `A : [m, k]` and `B : [k, n]`, the product contracting the second axis of `A` with the first of `B` into a zero
  accumulator has at `(a, b)` the sum over `c` of `A (a, c) · B (c, b)`.
-/
import Idealize.ShloMosaic.Lib.Pipeline.Value
import Idealize.ShloMosaic.Lib.ValueIdx
import Idealize.ShloMosaic.PureOps.Ideal.Laws

noncomputable section

namespace Cert.PlainProduct

open Idealize.ShloMosaic Idealize.ShloMosaic.ValueIdx

/-- `A · B` into the zero accumulator, read at `(a, b)`: the sum over the shared coordinate of the products. -/
theorem matmul_nn_apply {m n k : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    FloatOps.matmul (⟨[1], [0], [0], [1], [], [], w⟩ : DotDims _ _ _) prec A B (constant _ .f32 0x00000000#32) (ix2 a b)
      = ∑ c : Fin k, A (ix2 a c) * B (ix2 c b) := by
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Cert.PlainProduct

end
-- ==== Proof.LibHostProduct.lean ====
/-
  The host's matrix product and two of its broadcasts, read at an index, at the ideal values.

  For `A : [m, k]` and `B : [k, n]`, the host's product contracting the second axis of `A` with the first of `B` has at
  `(a, b)` the sum over `c` of `A (a, c) · B (c, b)`: it has no accumulator, so this is the whole entry.  An `[a, 1]`
  column laid along the columns of an `[a, b]` array has at `(p, c)` the column's entry `p`, and a vector of length `n`
  laid as a `[1, n]` row has at `(0, q)` its entry `q`.
-/
import Idealize.ShloMosaic.Lib.Pipeline.Value
import Idealize.ShloMosaic.Lib.ValueIdx
import Idealize.ShloMosaic.PureOps.Ideal.Laws

noncomputable section

namespace Cert.HostProduct

open Idealize.ShloMosaic Idealize.ShloMosaic.ValueIdx

/-- The host's `A · B`, read at `(a, b)`: the sum over the shared coordinate of the products. -/
theorem dotGeneral_nn_apply {m n k : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    Host.dotGeneral (⟨[1], [0], [0], [1], [], [], w⟩ : DotDims _ _ _) prec A B (ix2 a b)
      = ∑ c : Fin k, A (ix2 a c) * B (ix2 c b) := by
  show FloatOps.dotGeneral _ prec _ A B (ix2 a b) = _
  rw [Ideal.dotGeneral_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

variable {α : Type}

/-- An `[a, 1]` column laid along the columns of an `[a, b]` array: entry `(p, c)` is the column's entry `p`. -/
theorem broadcastInDim_col_apply {a b : ℕ} (h : (⟨2, ![a, 1]⟩ : Shape).BroadcastsInDim ⟨2, ![a, b]⟩ ![0, 1])
    (v : (⟨2, ![a, 1]⟩ : Shape).Idx → α) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) ?_
  intro ax
  match ax with
  | ⟨0, _⟩ =>
    show p.val = if a = 1 then 0 else p.val
    split
    · have := p.isLt; omega
    · rfl
  | ⟨1, _⟩ =>
    show (0 : ℕ) = if (1 : ℕ) = 1 then 0 else _
    simp

/-- A vector laid as a one-row matrix by the host: entry `(0, q)` is the vector's entry `q`. -/
theorem broadcastInDim_row_apply {n : ℕ} (h : (⟨1, ![n]⟩ : Shape).BroadcastsInDim ⟨2, ![1, n]⟩ ![1])
    (v : (⟨1, ![n]⟩ : Shape).Idx → α) (q : Fin n) :
    broadcastInDim ⟨2, ![1, n]⟩ ![1] h v (ix2 (0 : Fin 1) q) = v (ix1 q) := by
  refine broadcastInDim_apply ![1] h v (ix2 (0 : Fin 1) q) (ix1 q) ?_
  intro ax
  match ax with
  | ⟨0, _⟩ =>
    show q.val = if n = 1 then 0 else q.val
    split
    · have := q.isLt; omega
    · rfl

end Cert.HostProduct

end
-- ==== Proof.LibHostBroadcast.lean ====
/-
  The host's broadcasts of a bias, of a column and of a scalar, read at an index.

  A vector of length `n` placed as a one-row matrix and repeated down `a` rows has at `(p, q)` its entry `q`.  A vector of
  length `a` placed as a one-column matrix and repeated across `b` columns has at `(p, q)` its entry `p`.  A scalar
  repeated over any shape has everywhere its one value.
-/
import Idealize.ShloMosaic.Lib.Pipeline.Value
import Idealize.ShloMosaic.Lib.ValueIdx

noncomputable section

namespace Cert.HostBroadcast

open Idealize.ShloMosaic Idealize.ShloMosaic.ValueIdx

variable {α : Type}

/-- A vector as a `[1, n]` row repeated over `[a, n]`: at `(p, q)` its entry `q`. -/
theorem row_apply {a n : ℕ} (v : (⟨1, ![n]⟩ : Shape).Idx → α)
    (h1 : (⟨1, ![n]⟩ : Shape).BroadcastsInDim ⟨2, ![1, n]⟩ ![1])
    (h2 : (⟨2, ![1, n]⟩ : Shape).BroadcastsInDim ⟨2, ![a, n]⟩ ![0, 1]) (p : Fin a) (q : Fin n) :
    broadcastInDim ⟨2, ![a, n]⟩ ![0, 1] h2 (broadcastInDim ⟨2, ![1, n]⟩ ![1] h1 v) (ix2 p q) = v (ix1 q) := by
  rw [broadcastInDim_apply ![0, 1] h2 _ (ix2 p q) (ix2 (0 : Fin 1) q) (fun ax => by
    match ax with
    | ⟨0, _⟩ => show (0 : ℕ) = if (1 : ℕ) = 1 then 0 else p.val; rw [if_pos rfl]
    | ⟨1, _⟩ =>
      show q.val = if n = 1 then 0 else q.val
      split
      · have := q.isLt; omega
      · rfl)]
  exact broadcastInDim_apply ![1] h1 v (ix2 (0 : Fin 1) q) (ix1 q) (fun ax => by
    match ax with
    | ⟨0, _⟩ =>
      show q.val = if n = 1 then 0 else q.val
      split
      · have := q.isLt; omega
      · rfl)

/-- A vector as an `[a, 1]` column repeated over `[a, b]`: at `(p, q)` its entry `p`. -/
theorem col_apply {a b : ℕ} (v : (⟨1, ![a]⟩ : Shape).Idx → α)
    (h1 : (⟨1, ![a]⟩ : Shape).BroadcastsInDim ⟨2, ![a, 1]⟩ ![0])
    (h2 : (⟨2, ![a, 1]⟩ : Shape).BroadcastsInDim ⟨2, ![a, b]⟩ ![0, 1]) (p : Fin a) (q : Fin b) :
    broadcastInDim ⟨2, ![a, b]⟩ ![0, 1] h2 (broadcastInDim ⟨2, ![a, 1]⟩ ![0] h1 v) (ix2 p q) = v (ix1 p) := by
  rw [broadcastInDim_apply ![0, 1] h2 _ (ix2 p q) (ix2 p (0 : Fin 1)) (fun ax => by
    match ax with
    | ⟨0, _⟩ =>
      show p.val = if a = 1 then 0 else p.val
      split
      · have := p.isLt; omega
      · rfl
    | ⟨1, _⟩ => show (0 : ℕ) = if (1 : ℕ) = 1 then 0 else q.val; rw [if_pos rfl])]
  exact broadcastInDim_apply ![0] h1 v (ix2 p (0 : Fin 1)) (ix1 p) (fun ax => by
    match ax with
    | ⟨0, _⟩ =>
      show p.val = if a = 1 then 0 else p.val
      split
      · have := p.isLt; omega
      · rfl)

/-- The same column form one step at a time: an `[a]` vector as an `[a, 1]` column, at `(p, 0)`. -/
theorem col_one_apply {a : ℕ} (v : (⟨1, ![a]⟩ : Shape).Idx → α)
    (h1 : (⟨1, ![a]⟩ : Shape).BroadcastsInDim ⟨2, ![a, 1]⟩ ![0]) (p : Fin a) :
    broadcastInDim ⟨2, ![a, 1]⟩ ![0] h1 v (ix2 p (0 : Fin 1)) = v (ix1 p) :=
  broadcastInDim_apply ![0] h1 v (ix2 p (0 : Fin 1)) (ix1 p) (fun ax => by
    match ax with
    | ⟨0, _⟩ =>
      show p.val = if a = 1 then 0 else p.val
      split
      · have := p.isLt; omega
      · rfl)

/-- An `[a, 1]` column repeated over `[a, b]`, at `(p, q)`: the column's entry `(p, 0)`. -/
theorem col_spread_apply {a b : ℕ} (v : (⟨2, ![a, 1]⟩ : Shape).Idx → α)
    (h2 : (⟨2, ![a, 1]⟩ : Shape).BroadcastsInDim ⟨2, ![a, b]⟩ ![0, 1]) (p : Fin a) (q : Fin b) :
    broadcastInDim ⟨2, ![a, b]⟩ ![0, 1] h2 v (ix2 p q) = v (ix2 p (0 : Fin 1)) :=
  broadcastInDim_apply ![0, 1] h2 v (ix2 p q) (ix2 p (0 : Fin 1)) (fun ax => by
    match ax with
    | ⟨0, _⟩ =>
      show p.val = if a = 1 then 0 else p.val
      split
      · have := p.isLt; omega
      · rfl
    | ⟨1, _⟩ => show (0 : ℕ) = if (1 : ℕ) = 1 then 0 else q.val; rw [if_pos rfl])

/-- A scalar repeated over any shape: everywhere its one value. -/
theorem scalar_apply {t : Shape} (x : (⟨0, ![]⟩ : Shape).Idx → α) (dims : Fin 0 → Fin t.rank)
    (h : (⟨0, ![]⟩ : Shape).BroadcastsInDim t dims) (j : t.Idx) :
    broadcastInDim t dims h x j = x ix0 :=
  broadcastInDim_apply dims h x j ix0 (fun ax => ax.elim0)

end Cert.HostBroadcast

end
-- ==== Proof.LibBroadcast.lean ====
/-
  Broadcasts of a single column, read at an index, and the two small re-layouts of a vector as a matrix.

  An `[a, 1]` array broadcast to `[a, b]` has at `(p, c)` the column's entry `p`.  A vector of length `n` re-laid as a
  `[1, n]` row or as an `[n, 1]` column keeps its entries in order.
-/
import Idealize.ShloMosaic.Lib.Pipeline.Value
import Idealize.ShloMosaic.Lib.ValueLayout
import Idealize.ShloMosaic.Lib.ValueIdx

noncomputable section

namespace Cert.Layout

open Idealize.ShloMosaic Idealize.ShloMosaic.ValueIdx

variable {α : Type}

/-- An `[a, 1]` array broadcast to `[a, b]` reads, at `(p, c)`, the operand's one column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector re-laid as a one-row matrix: entry `(0, q)` is entry `q`. -/
theorem shapeCast_row_apply {n : ℕ} (v : (⟨1, ![n]⟩ : Shape).Idx → α) (h : (⟨1, ![n]⟩ : Shape).ShapeCasts ⟨2, ![1, n]⟩) (q : Fin n) :
    shapeCast (⟨2, ![1, n]⟩ : Shape) v h (ix2 (0 : Fin 1) q) = v (ix1 q) := by
  refine shapeCast_apply v h (ix2 (0 : Fin 1) q) (ix1 q) ?_
  rw [Shape.rowMajor_val_two, Shape.rowMajor_val_one]
  show q.val = 0 * n + q.val
  omega

/-- A vector re-laid as a one-column matrix: entry `(p, 0)` is entry `p`. -/
theorem shapeCast_col_apply {n : ℕ} (v : (⟨1, ![n]⟩ : Shape).Idx → α) (h : (⟨1, ![n]⟩ : Shape).ShapeCasts ⟨2, ![n, 1]⟩) (p : Fin n) :
    shapeCast (⟨2, ![n, 1]⟩ : Shape) v h (ix2 p (0 : Fin 1)) = v (ix1 p) := by
  refine shapeCast_apply v h (ix2 p (0 : Fin 1)) (ix1 p) ?_
  rw [Shape.rowMajor_val_two, Shape.rowMajor_val_one]
  show p.val = p.val * 1 + 0
  omega

end Cert.Layout

end
-- ==== Proof.LibRowsProduct.lean ====
/-
  Two small facts about `[m, k]` arrays, at the ideal values where a product is an exact sum.

  A one-row matrix broadcast down `a` rows has at `(p, q)` the row's entry `q`.  The matrix product that contracts the
  SECOND axis of both operands — `A · Bᵀ` for `A : [m, k]`, `B : [n, k]` — into a zero accumulator has at `(a, b)` the
  sum over `c` of `A (a, c) · B (b, c)`.
-/
import Idealize.ShloMosaic.Lib.Pipeline.Value
import Idealize.ShloMosaic.Lib.ValueLayout
import Idealize.ShloMosaic.Lib.ValueIdx
import Idealize.ShloMosaic.PureOps.Ideal.Laws

noncomputable section

namespace Cert.RowsProduct

open Idealize.ShloMosaic Idealize.ShloMosaic.ValueIdx

/-- A `[1, n]` array broadcast to `[a, n]` reads, at `(p, q)`, the operand's one row at `q`. -/
theorem broadcastTo_1n_an_apply {α : Type} {a n : ℕ} (v : (⟨2, ![1, n]⟩ : Shape).Idx → α)
    (h : (⟨2, ![1, n]⟩ : Shape).Broadcasts ⟨2, ![a, n]⟩) (p : Fin a) (q : Fin n) :
    broadcastTo ⟨2, ![a, n]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if n = 1 then 0 else q.val
    split
    · have := q.isLt; omega
    · rfl

/-- `A · Bᵀ` into the zero accumulator, read at `(a, b)`: the sum over the shared second coordinate of the products. -/
theorem matmul_nt_apply {m n k : ℕ} {φ₁ φ₂ : FTy}
    (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂) (a : Fin m) (b : Fin n) :
    FloatOps.matmul (⟨[1], [1], [0], [0], [], [], w⟩ : DotDims _ _ _) prec A B (constant _ .f32 0x00000000#32) (ix2 a b)
      = ∑ c : Fin k, A (ix2 a c) * B (ix2 b c) := by
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end Cert.RowsProduct

end
-- ==== Proof.LayerMath.lean ====
/-
  One mean-aggregation layer of the network, read at a single entry, at the ideal values.

  Both programs compute  relu(((agg + x) / (deg + 1)) · W + b) : the reference on the whole 100000-row table, the kernel
  on one block of 4000 rows.  At the ideal values a matrix product is an exact sum, a format change is the identity and
  every broadcast repeats its operand, so entry (n, q) of the result depends only on row n of agg and of x, on the degree
  of n, on column q of W and on entry q of b.  `sageAt` is that scalar formula; each side read at an index is `sageAt`
  of the matching row, degree, column and bias entry.
-/
import proofs.«136289_j37039797961388_1_alg».proof.Proof.SageSpec
import proofs.«136289_j37039797961388_1_alg».proof.Proof.Gen.ReferenceIdeal
import proofs.«136289_j37039797961388_1_alg».proof.Proof.Gen.KernelIdeal.Skeleton
import proofs.«136289_j37039797961388_1_alg».proof.Proof.LibPlainProduct
import proofs.«136289_j37039797961388_1_alg».proof.Proof.LibHostProduct
import proofs.«136289_j37039797961388_1_alg».proof.Proof.LibHostBroadcast
import proofs.«136289_j37039797961388_1_alg».proof.Proof.LibBroadcast
import proofs.«136289_j37039797961388_1_alg».proof.Proof.LibRowsProduct
import Idealize.ShloMosaic.Lib.ValueIdx
import Idealize.ShloMosaic.Lib.IdealHost
import Idealize.ShloMosaic.PureOps.Ideal

noncomputable section

namespace Cert.Sage.LayerMath

open Idealize.ShloMosaic Idealize.ShloMosaic.ValueIdx

/-- One entry of a layer's result: from the node's row of aggregated messages `a` and of features `x`, its in-degree `d`,
    a column `w` of the weights and a bias entry `b`, the value  max (∑ k, ((a k + x k) / (d + 1)) · w k + b) 0 ,
    the quotient being the ideal division and 1, 0 the values of the words of the float literals. -/
def sageAt (a x : Fin 128 → EReal) (d : EReal) (w : Fin 128 → EReal) (b : EReal) : EReal :=
  max ((∑ k : Fin 128, Ideal.div (a k + x k) (d + Ideal.ofBits .f32 0x3F800000#32) * w k) + b)
    (Ideal.ofBits .f32 0x00000000#32)

/-- The reference's layer on whole arrays, read at entry (n, q): `sageAt` of row n of the aggregate and of the features,
    the degree of n, column q of the weights and entry q of the bias. -/
theorem layer_apply (agg x : FVec Ideal Cert.ReferenceIdeal.S100000x128 .f32) (deg : FVec Ideal Cert.ReferenceIdeal.S100000 .f32)
    (W : FVec Ideal Cert.ReferenceIdeal.S128x128 .f32) (b : FVec Ideal Cert.ReferenceIdeal.S128 .f32) (n : Fin 100000) (q : Fin 128) :
    Cert.Sage.layer (F := Ideal) agg x deg W b (ix2 n q)
      = sageAt (fun k => agg (ix2 n k)) (fun k => x (ix2 n k)) (deg (ix1 n)) (fun k => W (ix2 k q)) (b (ix1 q)) := by
  unfold Cert.Sage.layer sageAt
  -- the outer maximum with the zero table and the sum with the bias, entry by entry
  refine (maximumf_apply _ _ _).trans (congrArg₂ max ((addf_apply _ _ _).trans (congrArg₂ (· + ·) ?_ ?_)) ?_)
  · -- the product at (n, q): the sum over k of the scaled row entry times W (k, q)
    refine (Cert.HostProduct.dotGeneral_nn_apply (m := 100000) (n := 128) (k := 128)
      Cert.ReferenceIdeal.dot_S100000x128_S128x128_S100000x128_1_0_0_1_n_n.wf none _ _ n q).trans ?_
    refine Finset.sum_congr rfl fun k _ => ?_
    refine congrArg₂ (· * ·) ?_ rfl
    -- the quotient at (n, k): the sum of the two rows over the degree column, which repeats deg n + 1 along the row
    refine (hostDivf_apply _ _ _).trans (congrArg₂ Ideal.div (addf_apply _ _ _) ?_)
    refine (Cert.HostBroadcast.col_apply _ _ _ n k).trans ?_
    refine (addf_apply _ _ _).trans (congrArg₂ (· + ·) rfl ?_)
    exact Cert.HostBroadcast.scalar_apply _ _ _ _
  · -- the bias laid as a row and repeated down the rows: entry q
    exact Cert.HostBroadcast.row_apply _ _ _ n q
  · -- the zero scalar repeated over the table
    exact Cert.HostBroadcast.scalar_apply _ _ _ _

/-- The first layer's block arithmetic, read at entry (p, q) of the block: `sageAt` of row p of the two loaded blocks,
    the degree column at p, column q of the weights and entry q of the bias row. -/
theorem pay0_apply (xa xx : Vec Ideal Cert.KernelIdeal.S4000x128 .f32) (xd : Vec Ideal Cert.KernelIdeal.S4000x1 .f32)
    (xw : Vec Ideal Cert.KernelIdeal.S128x128 .f32) (xb : Vec Ideal Cert.KernelIdeal.S1x128 .f32) (p : Fin 4000) (q : Fin 128) :
    Cert.KernelIdeal.Gen.k0_pay1 (F := Ideal) xa xx xd xw xb (ix2 p q)
      = sageAt (fun k => xa (ix2 p k)) (fun k => xx (ix2 p k)) (xd (ix2 p (0 : Fin 1))) (fun k => xw (ix2 k q)) (xb (ix2 (0 : Fin 1) q)) := by
  unfold Cert.KernelIdeal.Gen.k0_pay1 sageAt
  -- the outer maximum with the zero block and the sum with the bias, entry by entry
  refine (maximumf_apply _ _ _).trans (congrArg₂ max ((addf_apply _ _ _).trans (congrArg₂ (· + ·) ?_ ?_)) rfl)
  · -- the product into the zero accumulator at (p, q): the sum over k of the scaled row entry times W (k, q);
    -- the two format changes of its operands are the identity at the ideal values
    refine (Cert.PlainProduct.matmul_nn_apply (m := 4000) (n := 128) (k := 128)
      Cert.KernelIdeal.dot_S4000x128_S128x128_S4000x128_1_0_0_1_n_n.wf none _ _ p q).trans ?_
    refine Finset.sum_congr rfl fun k _ => ?_
    refine congrArg₂ (· * ·) ?_ rfl
    -- the quotient at (p, k): the sum of the two rows over the degree column plus one, repeated along the row
    refine (divf_apply _ _ _).trans (congrArg₂ Ideal.div ((addf_apply _ _ _).trans (congrArg₂ (· + ·) ?_ rfl)) ?_)
    · exact congrFun (shapeCast_self xa _) (ix2 p k)
    · refine (Cert.Layout.broadcastTo_a1_ab_apply _ _ p k).trans ?_
      refine (addf_apply _ _ _).trans (congrArg₂ (· + ·) ?_ rfl)
      exact congrFun (shapeCast_self xd _) (ix2 p (0 : Fin 1))
  · -- the one-row bias repeated down the rows: entry (0, q)
    refine (Cert.RowsProduct.broadcastTo_1n_an_apply _ _ p q).trans ?_
    exact congrFun (shapeCast_self xb _) (ix2 (0 : Fin 1) q)

/-- The second layer's block arithmetic, read at entry (p, q) of the block: the same `sageAt`. -/
theorem pay1_apply (xa xx : Vec Ideal Cert.KernelIdeal.S4000x128 .f32) (xd : Vec Ideal Cert.KernelIdeal.S4000x1 .f32)
    (xw : Vec Ideal Cert.KernelIdeal.S128x128 .f32) (xb : Vec Ideal Cert.KernelIdeal.S1x128 .f32) (p : Fin 4000) (q : Fin 128) :
    Cert.KernelIdeal.Gen.k1_pay1 (F := Ideal) xa xx xd xw xb (ix2 p q)
      = sageAt (fun k => xa (ix2 p k)) (fun k => xx (ix2 p k)) (xd (ix2 p (0 : Fin 1))) (fun k => xw (ix2 k q)) (xb (ix2 (0 : Fin 1) q)) := by
  unfold Cert.KernelIdeal.Gen.k1_pay1 sageAt
  -- the outer maximum with the zero block and the sum with the bias, entry by entry
  refine (maximumf_apply _ _ _).trans (congrArg₂ max ((addf_apply _ _ _).trans (congrArg₂ (· + ·) ?_ ?_)) rfl)
  · -- the product into the zero accumulator at (p, q): the sum over k of the scaled row entry times W (k, q);
    -- the two format changes of its operands are the identity at the ideal values
    refine (Cert.PlainProduct.matmul_nn_apply (m := 4000) (n := 128) (k := 128)
      Cert.KernelIdeal.dot_S4000x128_S128x128_S4000x128_1_0_0_1_n_n.wf none _ _ p q).trans ?_
    refine Finset.sum_congr rfl fun k _ => ?_
    refine congrArg₂ (· * ·) ?_ rfl
    -- the quotient at (p, k): the sum of the two rows over the degree column plus one, repeated along the row
    refine (divf_apply _ _ _).trans (congrArg₂ Ideal.div ((addf_apply _ _ _).trans (congrArg₂ (· + ·) ?_ ?_)) ?_)
    · exact congrFun (shapeCast_self xa _) (ix2 p k)
    · exact congrFun (shapeCast_self xx _) (ix2 p k)
    · refine (Cert.Layout.broadcastTo_a1_ab_apply _ _ p k).trans ?_
      refine (addf_apply _ _ _).trans (congrArg₂ (· + ·) ?_ rfl)
      exact congrFun (shapeCast_self xd _) (ix2 p (0 : Fin 1))
  · -- the one-row bias repeated down the rows: entry (0, q)
    refine (Cert.RowsProduct.broadcastTo_1n_an_apply _ _ p q).trans ?_
    exact congrFun (shapeCast_self xb _) (ix2 (0 : Fin 1) q)

end Cert.Sage.LayerMath

end
-- ==== Proof.LibRowFolds.lean ====
/-
  Reductions along the second axis of an `[a, b]` array, read at a row.

  At the ideal values a lane sum of row `p` is the sum of the row's entries, and a lane maximum the fold of `max` over
  them from the accumulator's value; the host's reduction by a commutative, associative operation is the same fold
  from its initial value.
-/
import Idealize.ShloMosaic.Lib.ValueIdx
import Idealize.ShloMosaic.PureOps.Ideal.Laws

noncomputable section

namespace Cert.RowFolds

open Idealize.ShloMosaic Idealize.ShloMosaic.ValueIdx

/-- Inserting coordinate `k` on the second axis of the one-coordinate index `p` gives `(p, k)`. -/
theorem lift_row {a b : ℕ} (h : Shape.Reduces ⟨2, ![a, b]⟩ [1] ⟨1, ![a]⟩) (p : Fin a) (k : Fin b) :
    h.lift (ix1 p) k = ix2 p k :=
  funext fun ax => Fin.ext (by match ax with | ⟨0, _⟩ => rfl | ⟨1, _⟩ => rfl)

/-- A lane sum over the second axis, at row `p`: the sum of the row. -/
theorem laneSum_apply {a b : ℕ} {φ : FTy} (v : FVec Ideal ⟨2, ![a, b]⟩ φ) (acc : BitVec φ.bits)
    (h : Shape.Reduces ⟨2, ![a, b]⟩ [1] ⟨1, ![a]⟩) (hφ : FKind.Formats φ) (hacc : acc = FKind.add.neutral φ hφ) (p : Fin a) :
    multiReduction .add [1] ⟨1, ![a]⟩ v acc h hφ hacc (ix1 p) = ∑ k : Fin b, v (ix2 p k) :=
  (Ideal.multiReduction_add_single v acc h hφ hacc (ix1 p)).trans
    (Finset.sum_congr rfl fun k _ => congrArg v (lift_row h p k))

/-- A lane maximum over the second axis, at row `p`: the fold of `max` over the row from the accumulator's value. -/
theorem laneMax_apply {a b : ℕ} {φ : FTy} (v : FVec Ideal ⟨2, ![a, b]⟩ φ) (acc : BitVec φ.bits)
    (h : Shape.Reduces ⟨2, ![a, b]⟩ [1] ⟨1, ![a]⟩) (hφ : FKind.Formats φ) (hacc : acc = FKind.maximumf.neutral φ hφ) (p : Fin a) :
    multiReduction .maximumf [1] ⟨1, ![a]⟩ v acc h hφ hacc (ix1 p)
      = (Finset.univ : Finset (Fin b)).fold max (Ideal.ofBits φ acc) (fun k => v (ix2 p k)) :=
  (Ideal.multiReduction_maximumf_single v acc h hφ hacc (ix1 p)).trans
    (congrArg (Finset.fold max (Ideal.ofBits φ acc) · (Finset.univ : Finset (Fin b)))
      (funext fun k => congrArg v (lift_row h p k)))

/-- The host's reduction over the second axis by a commutative, associative operation, at row `p`: the fold over the
    row from the initial value. -/
theorem hostFold_apply {α : Type} {a b : ℕ} {u : Shape} (f : α → α → α) [Std.Commutative f] [Std.Associative f]
    (x : (⟨2, ![a, b]⟩ : Shape).Idx → α) (init : u.Idx → α) (h' : Shape.ReducesTo ⟨2, ![a, b]⟩ [1] ⟨1, ![a]⟩)
    (h : Shape.Reduces ⟨2, ![a, b]⟩ [1] ⟨1, ![a]⟩) (hu : 0 < u.numel) (p : Fin a) :
    Host.reduce f x init h' hu (ix1 p)
      = (Finset.univ : Finset (Fin b)).fold f (init (Shape.Idx.first hu)) (fun k => x (ix2 p k)) :=
  (Host.reduce_eq_fold_single f x init h' h hu (ix1 p)).trans
    (congrArg (Finset.fold f (init (Shape.Idx.first hu)) · (Finset.univ : Finset (Fin b)))
      (funext fun k => congrArg x (lift_row h p k)))

end Cert.RowFolds

end
-- ==== Proof.HeadMath.lean ====
/-
  The classifier head read at one entry.

  Both programs end with log_softmax(xb · Wl + bl) over a [1024, 40] array.  At the ideal values, where every float
  operation is the exact one on the extended reals, entry (r, j) of that array depends only on row r of xb, on Wl and on
  bl: with the logits z j' = (∑ k, x k · W k j') + b j', the row maximum M = max (-∞) (max over j' of z j' from -∞) and the
  shifted logits s j' = z j' - M, it is s j - log (∑ j', exp (s j')).  That scalar formula is `headAt`; the two theorems
  say that the reference's head and the kernel's head, each read at (r, j), are it.
-/
import proofs.«136289_j37039797961388_1_alg».proof.Proof.SageSpec
import proofs.«136289_j37039797961388_1_alg».proof.Proof.Gen.ReferenceIdeal
import proofs.«136289_j37039797961388_1_alg».proof.Proof.Gen.KernelIdeal.Skeleton
import proofs.«136289_j37039797961388_1_alg».proof.Proof.LibPlainProduct
import proofs.«136289_j37039797961388_1_alg».proof.Proof.LibHostProduct
import proofs.«136289_j37039797961388_1_alg».proof.Proof.LibHostBroadcast
import proofs.«136289_j37039797961388_1_alg».proof.Proof.LibBroadcast
import proofs.«136289_j37039797961388_1_alg».proof.Proof.LibRowsProduct
import proofs.«136289_j37039797961388_1_alg».proof.Proof.LibRowFolds
import Idealize.ShloMosaic.Lib.Pipeline.Value
import Idealize.ShloMosaic.Lib.ValueIdx
import Idealize.ShloMosaic.PureOps.Ideal.Laws

noncomputable section

namespace Cert.Sage.HeadMath

open Idealize.ShloMosaic Idealize.ShloMosaic.ValueIdx

/-- logit j' of one batch row: the row of features against column j' of the weights, plus the bias -/
def logitAt (xr : Fin 128 → EReal) (W : Fin 128 → Fin 40 → EReal) (b : Fin 40 → EReal) (j' : Fin 40) : EReal :=
  (∑ k, xr k * W k j') + b j'

/-- the maximum of a row of 40 logits, folded from -∞ and joined with -∞ once more -/
def rowMax (z : Fin 40 → EReal) : EReal :=
  max (Ideal.ofBits .f32 0xFF800000#32) ((Finset.univ : Finset (Fin 40)).fold max (Ideal.ofBits .f32 0xFF800000#32) z)

/-- shifted logit j' of one batch row: the logit minus the row's maximum -/
def shiftAt (xr : Fin 128 → EReal) (W : Fin 128 → Fin 40 → EReal) (b : Fin 40 → EReal) (j' : Fin 40) : EReal :=
  logitAt xr W b j' - rowMax (logitAt xr W b)

/-- entry j of the log-probabilities of one batch row: from the row of features, the weights and the bias -/
def headAt (xr : Fin 128 → EReal) (W : Fin 128 → Fin 40 → EReal) (b : Fin 40 → EReal) (j : Fin 40) : EReal :=
  shiftAt xr W b j - Ideal.log (∑ j', Ideal.exp (shiftAt xr W b j'))

/-! ## The kernel's head -/

section Kernel

open Cert.KernelIdeal Cert.KernelIdeal.Gen

/-- The kernel's logits as a whole array: the product of the features and the weights into zeros, plus the bias row. -/
def kLogits (x0 : Vec Ideal S1024x128 .f32) (x1 : Vec Ideal S128x40 .f32) (x2 : Vec Ideal S1x40 .f32) :
    FVec Ideal S1024x40 .f32 :=
  addf
    (matmul dot_S1024x128_S128x40_S1024x40_1_0_0_1_n_n none
      (truncf .bf16 (shapeCast S1024x128 x0 shapeCasts_S1024x128_S1024x128) bitsLt_bf16_f32)
      (truncf .bf16 x1 bitsLt_bf16_f32) (constant S1024x40 .f32 0x00000000#32))
    (broadcastTo S1024x40 (shapeCast S1x40 x2 shapeCasts_S1x40_S1x40) broadcasts_S1x40_S1024x40)

/-- A whole array of logits minus its rows' maxima, as the kernel computes it: the lane maximum from -∞, joined with
    -∞, laid as a column and spread over the classes. -/
def kShift (z : FVec Ideal S1024x40 .f32) : FVec Ideal S1024x40 .f32 :=
  subf z
    (broadcastTo S1024x40
      (shapeCast S1024x1
        (maximumf (broadcast S1024 (Scalar.ofBits .f32 0xFF800000#32))
          (multiReduction .maximumf [1] S1024 z 0xFF800000#32 reduces_S1024x40_S1024 (.inl rfl) rfl))
        shapeCasts_S1024_S1024x1)
      broadcasts_S1024x1_S1024x40)

/-- A whole array of shifted logits minus the logarithm of its rows' sums of exponentials, as the kernel computes it. -/
def kLse (s : FVec Ideal S1024x40 .f32) : FVec Ideal S1024x40 .f32 :=
  subf s
    (broadcastTo S1024x40
      (log
        (shapeCast S1024x1
          (multiReduction .add [1] S1024 (exp s) 0x00000000#32 reduces_S1024x40_S1024 (.inl rfl) rfl)
          shapeCasts_S1024_S1024x1))
      broadcasts_S1024x1_S1024x40)

/-- The kernel's payload is those three stages in turn. -/
theorem k2_pay1_eq (x0 : Vec Ideal S1024x128 .f32) (x1 : Vec Ideal S128x40 .f32) (x2 : Vec Ideal S1x40 .f32) :
    k2_pay1 (F := Ideal) x0 x1 x2 = kLse (kShift (kLogits x0 x1 x2)) := rfl

/-- The kernel's logit (r, j'): row r of the features against column j' of the weights, plus entry j' of the bias. -/
theorem kLogits_apply (x0 : Vec Ideal S1024x128 .f32) (x1 : Vec Ideal S128x40 .f32) (x2 : Vec Ideal S1x40 .f32)
    (r : Fin 1024) (j' : Fin 40) :
    kLogits x0 x1 x2 (ix2 r j')
      = logitAt (fun k => x0 (ix2 r k)) (fun k j' => x1 (ix2 k j')) (fun j' => x2 (ix2 (0 : Fin 1) j')) j' := by
  unfold kLogits logitAt
  rw [shapeCast_self, shapeCast_self, addf_apply]
  refine congrArg₂ (· + ·) ?_ ?_
  · exact Cert.PlainProduct.matmul_nn_apply _ none _ _ r j'
  · exact Cert.RowsProduct.broadcastTo_1n_an_apply _ _ r j'

/-- The kernel's shifted array at (r, j'): the entry minus the maximum of row r. -/
theorem kShift_apply (z : FVec Ideal S1024x40 .f32) (r : Fin 1024) (j' : Fin 40) :
    kShift z (ix2 r j') = z (ix2 r j') - rowMax (fun k => z (ix2 r k)) := by
  unfold kShift rowMax
  rw [subf_apply]
  refine congrArg (z (ix2 r j') - ·) ?_
  refine (Cert.Layout.broadcastTo_a1_ab_apply _ _ r j').trans ?_
  refine (Cert.Layout.shapeCast_col_apply _ _ r).trans ?_
  rw [maximumf_apply]
  refine congrArg₂ max rfl ?_
  exact Cert.RowFolds.laneMax_apply z _ _ _ _ r

/-- The kernel's last stage at (r, j): the entry minus the logarithm of the sum of the exponentials of row r. -/
theorem kLse_apply (s : FVec Ideal S1024x40 .f32) (r : Fin 1024) (j : Fin 40) :
    kLse s (ix2 r j) = s (ix2 r j) - Ideal.log (∑ k, Ideal.exp (s (ix2 r k))) := by
  unfold kLse
  rw [subf_apply]
  refine congrArg (s (ix2 r j) - ·) ?_
  refine (Cert.Layout.broadcastTo_a1_ab_apply _ _ r j).trans ?_
  refine congrArg Ideal.log ?_
  refine (Cert.Layout.shapeCast_col_apply _ _ r).trans ?_
  exact Cert.RowFolds.laneSum_apply _ _ _ _ _ r

end Kernel

/-! ## The reference's head -/

section Reference

open Cert.ReferenceIdeal

/-- The host's sum over the second axis of an `[a, b]` array from an initial value, at row `p`: the initial value plus
    the sum of the row. -/
theorem hostSum_apply {a b : ℕ} {u : Shape} {φ : FTy} (x : FVec Ideal ⟨2, ![a, b]⟩ φ) (init : u.Idx → Ideal φ)
    (h' : Shape.ReducesTo ⟨2, ![a, b]⟩ [1] ⟨1, ![a]⟩) (h : Shape.Reduces ⟨2, ![a, b]⟩ [1] ⟨1, ![a]⟩) (hu : 0 < u.numel)
    (p : Fin a) :
    Host.reduceAdd x init h' hu (ix1 p) = init (Shape.Idx.first hu) + ∑ k : Fin b, x (ix2 p k) :=
  (Ideal.hostReduceAdd_single h' h x (init (Shape.Idx.first hu)) (ix1 p)).trans
    (congrArg (init (Shape.Idx.first hu) + ·) (Finset.sum_congr rfl fun k _ => congrArg x (Cert.RowFolds.lift_row h p k)))

/-- The reference's logit (r, j'): row r of the features against column j' of the weights, plus entry j' of the bias. -/
theorem logits_apply (xb : FVec Ideal S1024x128 .f32) (Wl : FVec Ideal S128x40 .f32) (bl : FVec Ideal S40 .f32)
    (r : Fin 1024) (j' : Fin 40) :
    Cert.Sage.logits (F := Ideal) xb Wl bl (ix2 r j')
      = logitAt (fun k => xb (ix2 r k)) (fun k j' => Wl (ix2 k j')) (fun j' => bl (ix1 j')) j' := by
  unfold Cert.Sage.logits logitAt
  rw [addf_apply]
  refine congrArg₂ (· + ·) ?_ ?_
  · exact Cert.HostProduct.dotGeneral_nn_apply _ none xb Wl r j'
  · exact Cert.HostBroadcast.row_apply bl _ _ r j'

/-- The reference's shifted array at (r, j'): the entry minus the maximum of row r. -/
theorem shifted_apply (z : FVec Ideal S1024x40 .f32) (r : Fin 1024) (j' : Fin 40) :
    Cert.Sage.shifted (F := Ideal) z (ix2 r j') = z (ix2 r j') - rowMax (fun k => z (ix2 r k)) := by
  unfold Cert.Sage.shifted rowMax
  rw [subf_apply]
  refine congrArg (z (ix2 r j') - ·) ?_
  refine (Cert.HostBroadcast.col_apply _ _ _ r j').trans ?_
  rw [maximumf_apply]
  refine congrArg₂ max ?_ ?_
  · exact Cert.HostBroadcast.scalar_apply _ _ _ (ix1 r)
  · exact Cert.RowFolds.hostFold_apply FloatOps.maximumf z _ _ (by decide) _ r

/-- The reference's log_softmax at (r, j): the shifted entry minus the logarithm of the sum of the exponentials of the
    shifted row r. -/
theorem logSoftmax_apply (z : FVec Ideal S1024x40 .f32) (r : Fin 1024) (j : Fin 40) :
    Cert.Sage.logSoftmax (F := Ideal) z (ix2 r j)
      = Cert.Sage.shifted (F := Ideal) z (ix2 r j)
        - Ideal.log (∑ k, Ideal.exp (Cert.Sage.shifted (F := Ideal) z (ix2 r k))) := by
  unfold Cert.Sage.logSoftmax
  rw [subf_apply]
  refine congrArg (Cert.Sage.shifted (F := Ideal) z (ix2 r j) - ·) ?_
  refine (Cert.HostBroadcast.col_spread_apply _ _ r j).trans ?_
  refine congrArg Ideal.log ?_
  refine (Cert.HostBroadcast.col_one_apply _ _ r).trans ?_
  refine (hostSum_apply _ _ _ (by decide) _ r).trans ?_
  exact (congrArg (· + _) Ideal.ofBits_zero_f32).trans (zero_add _)

end Reference

/-- The reference's head read at (r, j): the scalar formula on row r of the features. -/
theorem head_apply (xb : FVec Ideal Cert.ReferenceIdeal.S1024x128 .f32) (Wl : FVec Ideal Cert.ReferenceIdeal.S128x40 .f32)
    (bl : FVec Ideal Cert.ReferenceIdeal.S40 .f32) (r : Fin 1024) (j : Fin 40) :
    Cert.Sage.head (F := Ideal) xb Wl bl (ix2 r j)
      = headAt (fun k => xb (ix2 r k)) (fun k j' => Wl (ix2 k j')) (fun j' => bl (ix1 j')) j := by
  unfold Cert.Sage.head
  rw [logSoftmax_apply]
  have hz : (fun k => Cert.Sage.logits (F := Ideal) xb Wl bl (ix2 r k))
      = logitAt (fun k => xb (ix2 r k)) (fun k j' => Wl (ix2 k j')) (fun j' => bl (ix1 j')) :=
    funext fun k => logits_apply xb Wl bl r k
  have hs : ∀ j' : Fin 40, Cert.Sage.shifted (F := Ideal) (Cert.Sage.logits (F := Ideal) xb Wl bl) (ix2 r j')
      = shiftAt (fun k => xb (ix2 r k)) (fun k j' => Wl (ix2 k j')) (fun j' => bl (ix1 j')) j' := fun j' => by
    rw [shifted_apply, hz, logits_apply]
    rfl
  unfold headAt
  rw [hs j]
  exact congrArg (_ - Ideal.log ·) (Finset.sum_congr rfl fun j' _ => congrArg Ideal.exp (hs j'))

/-- The kernel's head payload read at (r, j): the same scalar formula on row r of the loaded features. -/
theorem pay2_apply (x0 : Vec Ideal Cert.KernelIdeal.S1024x128 .f32) (x1 : Vec Ideal Cert.KernelIdeal.S128x40 .f32)
    (x2 : Vec Ideal Cert.KernelIdeal.S1x40 .f32) (r : Fin 1024) (j : Fin 40) :
    Cert.KernelIdeal.Gen.k2_pay1 (F := Ideal) x0 x1 x2 (ix2 r j)
      = headAt (fun k => x0 (ix2 r k)) (fun k j' => x1 (ix2 k j')) (fun j' => x2 (ix2 (0 : Fin 1) j')) j := by
  rw [k2_pay1_eq, kLse_apply]
  have hz : (fun k => kLogits x0 x1 x2 (ix2 r k))
      = logitAt (fun k => x0 (ix2 r k)) (fun k j' => x1 (ix2 k j')) (fun j' => x2 (ix2 (0 : Fin 1) j')) :=
    funext fun k => kLogits_apply x0 x1 x2 r k
  have hs : ∀ j' : Fin 40, kShift (kLogits x0 x1 x2) (ix2 r j')
      = shiftAt (fun k => x0 (ix2 r k)) (fun k j' => x1 (ix2 k j')) (fun j' => x2 (ix2 (0 : Fin 1) j')) j' := fun j' => by
    rw [kShift_apply, hz, kLogits_apply]
    rfl
  unfold headAt
  rw [hs j]
  exact congrArg (_ - Ideal.log ·) (Finset.sum_congr rfl fun j' _ => congrArg Ideal.exp (hs j'))

end Cert.Sage.HeadMath

end
-- ==== Proof.Bridge.lean ====
/-
  The two whole-array identities that join the kernel regions' results to the reference's stages.

  A layer's node table, written entry by entry from the arrays a kernel region finds — the degree as a [100000, 1]
  column and the bias as a [1, 128] row, each the re-layout of a vector —, is the reference's layer on the vectors
  themselves; and the head's table, its bias a [1, 40] row, is the reference's head.  Entry by entry both sides are the
  same scalar formula: a vector re-laid as a column reads at (n, 0) its entry n, and re-laid as a row reads at (0, q) its
  entry q.
-/
import proofs.«136289_j37039797961388_1_alg».proof.Proof.KernelForms
import proofs.«136289_j37039797961388_1_alg».proof.Proof.LayerMath
import proofs.«136289_j37039797961388_1_alg».proof.Proof.HeadMath
import proofs.«136289_j37039797961388_1_alg».proof.Proof.LibBroadcast
import proofs.«136289_j37039797961388_1_alg».proof.Proof.Gen.KernelIdeal
import proofs.«136289_j37039797961388_1_alg».proof.Proof.Gen.ReferenceIdeal
import Idealize.ShloMosaic.Lib.ValueIdx

noncomputable section

namespace Cert.Sage.Bridge

open Idealize.ShloMosaic Idealize.ShloMosaic.ValueIdx

/-- A layer's node table written entry by entry, with the degree vector re-laid as a column and the bias vector as a
    row, is the reference's layer on whole arrays: at (n, q) both are the layer's scalar formula on row n of the
    aggregate and of the features, the degree of n, column q of the weights and bias entry q. -/
theorem layerG_eq (agg x : FVec Ideal Cert.ReferenceIdeal.S100000x128 .f32) (d : FVec Ideal Cert.ReferenceIdeal.S100000 .f32)
    (W : FVec Ideal Cert.ReferenceIdeal.S128x128 .f32) (b : FVec Ideal Cert.ReferenceIdeal.S128 .f32) :
    Cert.Sage.Forms.layerG Cert.Sage.LayerMath.sageAt agg x
        (shapeCast Cert.KernelIdeal.S100000x1 d Cert.KernelIdeal.Facts₀.shapeCasts_S100000_S100000x1) W
        (shapeCast Cert.KernelIdeal.S1x128 b Cert.KernelIdeal.Facts₀.shapeCasts_S128_S1x128)
      = Cert.Sage.layer (F := Ideal) agg x d W b := by
  funext i
  obtain ⟨n, q, rfl⟩ : ∃ (n : Fin 100000) (q : Fin 128), i = ix2 n q := ⟨i 0, i 1, eq_ix2 i⟩
  refine Eq.trans ?_ (Cert.Sage.LayerMath.layer_apply agg x d W b n q).symm
  show Cert.Sage.Forms.layerAt Cert.Sage.LayerMath.sageAt agg x _ W _ n q = _
  unfold Cert.Sage.Forms.layerAt
  exact congrArg₂
    (fun dn bq => Cert.Sage.LayerMath.sageAt (fun k => agg (ix2 n k)) (fun k => x (ix2 n k)) dn (fun k => W (ix2 k q)) bq)
    (Cert.Layout.shapeCast_col_apply d _ n) (Cert.Layout.shapeCast_row_apply b _ q)

/-- The head's table written entry by entry, with the bias vector re-laid as a row, is the reference's head on whole
    arrays: at (r, j) both are the head's scalar formula on row r of the batch features, the weights and the bias. -/
theorem headG_eq (xb : FVec Ideal Cert.ReferenceIdeal.S1024x128 .f32) (Wl : FVec Ideal Cert.ReferenceIdeal.S128x40 .f32)
    (bl : FVec Ideal Cert.ReferenceIdeal.S40 .f32) :
    Cert.Sage.Forms.headG Cert.Sage.HeadMath.headAt xb Wl
        (shapeCast Cert.KernelIdeal.S1x40 bl Cert.KernelIdeal.Facts₀.shapeCasts_S40_S1x40)
      = Cert.Sage.head (F := Ideal) xb Wl bl := by
  funext i
  obtain ⟨r, j, rfl⟩ : ∃ (r : Fin 1024) (j : Fin 40), i = ix2 r j := ⟨i 0, i 1, eq_ix2 i⟩
  refine Eq.trans ?_ (Cert.Sage.HeadMath.head_apply xb Wl bl r j).symm
  show Cert.Sage.Forms.headAt Cert.Sage.HeadMath.headAt xb Wl _ r j = _
  unfold Cert.Sage.Forms.headAt
  exact congrArg
    (fun bv : Fin 40 → EReal => Cert.Sage.HeadMath.headAt (fun k => xb (ix2 r k)) (fun k j' => Wl (ix2 k j')) bv j)
    (funext fun j' => Cert.Layout.shapeCast_row_apply bl _ j')

end Cert.Sage.Bridge

end
-- ==== Proof.KernelValue.lean ====
/-
  The idealized kernel program's result is the network of the ten argument arrays. The last fold of the program's
  memory, read at the result's reference, is the head region's output array: the head's table of the batch rows taken
  from the second layer's node table; that table is the second row-blocked region's output array, the layer's table of
  the messages aggregated from the first layer's node table, of that table itself, of the degree column and of the
  second weights and bias; and the first layer's node table is the first region's output array in the same way from
  the input features. Each region's array is one function of the arrays it finds (the blocks module), each host
  stretch leaves the reference's own stage functions of the buffers before it (the host module), and the kernel's
  forms of a layer and of the head are the reference's layer and head (the bridge).
-/
import proofs.«136289_j37039797961388_1_alg».proof.Proof.Gen.KernelIdeal.Frame
import proofs.«136289_j37039797961388_1_alg».proof.Proof.Gen.ReferenceIdeal
import proofs.«136289_j37039797961388_1_alg».proof.Proof.SageSpec
import proofs.«136289_j37039797961388_1_alg».proof.Proof.KernelForms
import proofs.«136289_j37039797961388_1_alg».proof.Proof.KernelBlocks
import proofs.«136289_j37039797961388_1_alg».proof.Proof.KernelHost
import proofs.«136289_j37039797961388_1_alg».proof.Proof.LayerMath
import proofs.«136289_j37039797961388_1_alg».proof.Proof.HeadMath
import proofs.«136289_j37039797961388_1_alg».proof.Proof.Bridge

noncomputable section

namespace Cert.Sage.KernelValue

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg) (c : Dev nD)

/-- The first region's output array: the first layer's node table of the input features. -/
theorem hidden1_eq :
    W4 m ρ c (Proc.devRef .tc main_v10)
      = Cert.Sage.hidden1 (F := Ideal) (m ((c : Thread nD τ).loc main_arg0)) (m ((c : Thread nD τ).loc main_arg1))
          (m ((c : Thread nD τ).loc main_arg2)) (m ((c : Thread nD τ).loc main_arg4)) (m ((c : Thread nD τ).loc main_arg5)) := by
  refine ((W4_arr m ρ c 5).trans
    (Cert.Sage.KernelBlocks.final0 Cert.Sage.LayerMath.sageAt (V3 m ρ) Cert.Sage.LayerMath.pay0_apply c)).trans ?_
  show Cert.Sage.Forms.layerG Cert.Sage.LayerMath.sageAt (W3 m ρ c (Proc.devRef .tc main_v8)) (W3 m ρ c (Proc.devRef .tc main_arg0))
      (W3 m ρ c (Proc.devRef .tc main_v4)) (W3 m ρ c (Proc.devRef .tc main_arg4)) (W3 m ρ c (Proc.devRef .tc main_v9)) = _
  rw [Cert.Sage.KernelHost.W3_v8 m ρ c, Cert.Sage.KernelHost.W3_arg0 m ρ c, Cert.Sage.KernelHost.W3_v4 m ρ c,
    Cert.Sage.KernelHost.W3_arg4 m ρ c, Cert.Sage.KernelHost.W3_v9 m ρ c, Cert.Sage.Bridge.layerG_eq]
  rfl

/-- The second region's output array: the second layer's node table. -/
theorem hidden2_eq :
    W7 m ρ c (Proc.devRef .tc main_v16)
      = Cert.Sage.hidden2 (F := Ideal) (m ((c : Thread nD τ).loc main_arg0)) (m ((c : Thread nD τ).loc main_arg1))
          (m ((c : Thread nD τ).loc main_arg2)) (m ((c : Thread nD τ).loc main_arg4)) (m ((c : Thread nD τ).loc main_arg5))
          (m ((c : Thread nD τ).loc main_arg6)) (m ((c : Thread nD τ).loc main_arg7)) := by
  refine ((W7_arr m ρ c 5).trans
    (Cert.Sage.KernelBlocks.final1 Cert.Sage.LayerMath.sageAt (V6 m ρ) Cert.Sage.LayerMath.pay1_apply c)).trans ?_
  show Cert.Sage.Forms.layerG Cert.Sage.LayerMath.sageAt (W6 m ρ c (Proc.devRef .tc main_v14)) (W6 m ρ c (Proc.devRef .tc main_v10))
      (W6 m ρ c (Proc.devRef .tc main_v4)) (W6 m ρ c (Proc.devRef .tc main_arg6)) (W6 m ρ c (Proc.devRef .tc main_v15)) = _
  rw [Cert.Sage.KernelHost.W6_v14 m ρ c, Cert.Sage.KernelHost.W6_v10 m ρ c, Cert.Sage.KernelHost.W6_v4 m ρ c,
    Cert.Sage.KernelHost.W6_arg6 m ρ c, Cert.Sage.KernelHost.W6_v15 m ρ c, hidden1_eq m ρ c, Cert.Sage.Bridge.layerG_eq]
  rfl

/-- The program's result: the network of the ten argument arrays. -/
theorem out_eq :
    W10 m ρ c (Proc.devRef .tc main_v19)
      = Cert.Sage.net (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7))
          (m ((c : Thread nD τ).loc main_arg8)) (m ((c : Thread nD τ).loc main_arg9)) := by
  refine ((W10_arr m ρ c 3).trans
    (Cert.Sage.KernelBlocks.final2 Cert.Sage.HeadMath.headAt (V9 m ρ) Cert.Sage.HeadMath.pay2_apply c)).trans ?_
  show Cert.Sage.Forms.headG Cert.Sage.HeadMath.headAt (W9 m ρ c (Proc.devRef .tc main_v17)) (W9 m ρ c (Proc.devRef .tc main_arg8))
      (W9 m ρ c (Proc.devRef .tc main_v18)) = _
  rw [Cert.Sage.KernelHost.W9_v17 m ρ c, Cert.Sage.KernelHost.W9_arg8 m ρ c, Cert.Sage.KernelHost.W9_v18 m ρ c,
    hidden2_eq m ρ c, Cert.Sage.Bridge.headG_eq]
  rfl

end Cert.Sage.KernelValue

end
-- ==== Proof.RefRunA.lean ====
/-
  The reference program's @main as a straight line. It is 136 host operations once the six calls of outlined functions
  are opened at their call sites (each callee's operations over that call's own buffers). The line is cut into six
  stretches that follow the network's stages — a gather of rows, a layer, a gather, a layer, the gather of the batch
  rows, the classifier head. Stated here: the line equals @main; every operation touches TensorCore buffers only and
  determines its results; and, per stretch, the list of the buffers it writes, so that any other buffer keeps its
  contents across the stretch.
-/
import proofs.«136289_j37039797961388_1_alg».proof.Proof.Gen.ReferenceIdeal
import Idealize.ShloMosaic.Lib.StableHlo.Run

noncomputable section

namespace Cert.Sage.RefRun

open Cert.ReferenceIdeal Cert.ReferenceIdeal.Gen Idealize.ShloMosaic Idealize.ShloMosaic.TcCoe Idealize.SL.Sem Idealize.ShloMosaic.StableHlo

variable {F : FTy → Type} [FloatOps F]

/-! ## The line, stage by stage -/

/-- The first gather of source rows: the 23 operations of the first row-lookup call, on the node features and the edge sources. -/
abbrev gather1 : List (HloOp τ sig (Elt F)) :=
  [ StableHlo.TRef.nullary main_call0.c (constantI S_ 32 0#32),
    StableHlo.TRef.unary main_call0.c main_call0.v0 (broadcastInDim S1600000 ![] bcast_S_S1600000),
    StableHlo.TRef.binary (.of main_arg1 : StableHlo.TRef sig ⟨S1600000, .i32⟩) main_call0.v0 main_call0.v1 (cmpi .slt),
    StableHlo.TRef.nullary main_call0.c_0 (constantI S_ 32 100000#32),
    StableHlo.TRef.unary main_call0.c_0 main_call0.v2 (broadcastInDim S1600000 ![] bcast_S_S1600000),
    StableHlo.TRef.binary (.of main_arg1 : StableHlo.TRef sig ⟨S1600000, .i32⟩) main_call0.v2 main_call0.v3 addi,
    StableHlo.TRef.ternary main_call0.v1 main_call0.v3 (.of main_arg1 : StableHlo.TRef sig ⟨S1600000, .i32⟩) main_call0.call0.v0 select,
    StableHlo.TRef.unary main_call0.call0.v0 main_call0.v5 (broadcastInDim S1600000x1 ![0] bcast_S1600000_S1600000x1_0),
    StableHlo.TRef.nullary main_call0.c_1 (constantI S1 32 99999#32),
    StableHlo.TRef.nullary main_call0.c_2 (constantI S_ 32 0#32),
    StableHlo.TRef.unary main_call0.c_2 main_call0.v6 (broadcastInDim S1600000x1 ![] bcast_S_S1600000x1),
    StableHlo.TRef.binary main_call0.v5 main_call0.v6 main_call0.v7 (cmpi .sge),
    StableHlo.TRef.unary main_call0.c_1 main_call0.v8 (broadcastInDim S1x1 ![1] bcast_S1_S1x1_1),
    StableHlo.TRef.unary main_call0.v8 main_call0.v9 (broadcastInDim S1600000x1 ![0, 1] bcast_S1x1_S1600000x1_0_1),
    StableHlo.TRef.binary main_call0.v5 main_call0.v9 main_call0.v10 (cmpi .sle),
    StableHlo.TRef.binary main_call0.v7 main_call0.v10 main_call0.v11 andi,
    StableHlo.TRef.nullary main_call0.c_3 (constantI S_ 1 1#1),
    StableHlo.TRef.binary main_call0.v11 main_call0.c_3 main_call0.v12 (fun x v => Host.reduce IntOp.andi x v reducesTo_S1600000x1_S1600000_d1 h_S_),
    StableHlo.TRef.binary (.of main_arg0 : StableHlo.TRef sig ⟨S100000x128, .f32⟩) main_call0.v5 main_call0.v13 (fun x i => Host.gather gather_S100000x128_S1600000x1_S1600000x128_1_0_n_n_0_1_1128 x i),
    StableHlo.TRef.unary main_call0.v12 main_call0.v14 (broadcastInDim S1600000x128 ![0] bcast_S1600000_S1600000x128_0),
    StableHlo.TRef.nullary main_call0.cst (constant S_ .f32 0x7FC00000#32),
    StableHlo.TRef.unary main_call0.cst main_call0.v15 (broadcastInDim S1600000x128 ![] bcast_S_S1600000x128),
    StableHlo.TRef.ternary main_call0.v14 main_call0.v13 main_call0.v15 main_call0.v16 select ]

/-- The first layer after its gather: the scatter-add of the messages, the degree count, the mean, the dense product, the bias and the rectifier (24 operations). -/
abbrev layer1 : List (HloOp τ sig (Elt F)) :=
  [ StableHlo.nullary main_cst (constant S_ .f32 0x00000000#32),
    StableHlo.unary main_cst main_v1 (broadcastInDim S100000x128 ![] bcast_S_S100000x128 : (⟨S_, .f32⟩ : BufTy).Contents (Elt F) → (⟨S100000x128, .f32⟩ : BufTy).Contents (Elt F)),
    StableHlo.unary main_arg2 main_v2 (broadcastInDim S1600000x1 ![0] bcast_S1600000_S1600000x1_0 : (⟨S1600000, .i32⟩ : BufTy).Contents (Elt F) → (⟨S1600000x1, .i32⟩ : BufTy).Contents (Elt F)),
    StableHlo.ternary main_v1 main_v2 main_v0 main_v3 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.nullary main_cst_0 (constant S_ .f32 0x3F800000#32),
    StableHlo.unary main_cst_0 main_v4 (broadcastInDim S1600000 ![] bcast_S_S1600000 : (⟨S_, .f32⟩ : BufTy).Contents (Elt F) → (⟨S1600000, .f32⟩ : BufTy).Contents (Elt F)),
    StableHlo.nullary main_cst_1 (constant S_ .f32 0x00000000#32),
    StableHlo.unary main_cst_1 main_v5 (broadcastInDim S100000 ![] bcast_S_S100000 : (⟨S_, .f32⟩ : BufTy).Contents (Elt F) → (⟨S100000, .f32⟩ : BufTy).Contents (Elt F)),
    StableHlo.unary main_arg2 main_v6 (broadcastInDim S1600000x1 ![0] bcast_S1600000_S1600000x1_0 : (⟨S1600000, .i32⟩ : BufTy).Contents (Elt F) → (⟨S1600000x1, .i32⟩ : BufTy).Contents (Elt F)),
    StableHlo.ternary main_v5 main_v6 main_v4 main_v7 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    StableHlo.binary main_v3 main_arg0 main_v8 (addf : (⟨S100000x128, .f32⟩ : BufTy).Contents (Elt F) → (⟨S100000x128, .f32⟩ : BufTy).Contents (Elt F) → (⟨S100000x128, .f32⟩ : BufTy).Contents (Elt F)),
    StableHlo.nullary main_cst_2 (constant S_ .f32 0x3F800000#32),
    StableHlo.unary main_cst_2 main_v9 (broadcastInDim S100000 ![] bcast_S_S100000 : (⟨S_, .f32⟩ : BufTy).Contents (Elt F) → (⟨S100000, .f32⟩ : BufTy).Contents (Elt F)),
    StableHlo.binary main_v7 main_v9 main_v10 (addf : (⟨S100000, .f32⟩ : BufTy).Contents (Elt F) → (⟨S100000, .f32⟩ : BufTy).Contents (Elt F) → (⟨S100000, .f32⟩ : BufTy).Contents (Elt F)),
    StableHlo.unary main_v10 main_v11 (broadcastInDim S100000x1 ![0] bcast_S100000_S100000x1_0 : (⟨S100000, .f32⟩ : BufTy).Contents (Elt F) → (⟨S100000x1, .f32⟩ : BufTy).Contents (Elt F)),
    StableHlo.unary main_v11 main_v12 (broadcastInDim S100000x128 ![0, 1] bcast_S100000x1_S100000x128_0_1 : (⟨S100000x1, .f32⟩ : BufTy).Contents (Elt F) → (⟨S100000x128, .f32⟩ : BufTy).Contents (Elt F)),
    StableHlo.binary main_v8 main_v12 main_v13 (Host.divf : (⟨S100000x128, .f32⟩ : BufTy).Contents (Elt F) → (⟨S100000x128, .f32⟩ : BufTy).Contents (Elt F) → (⟨S100000x128, .f32⟩ : BufTy).Contents (Elt F)),
    StableHlo.binary main_v13 main_arg4 main_v14 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg5 main_v15 (broadcastInDim S1x128 ![1] bcast_S128_S1x128_1 : (⟨S128, .f32⟩ : BufTy).Contents (Elt F) → (⟨S1x128, .f32⟩ : BufTy).Contents (Elt F)),
    StableHlo.unary main_v15 main_v16 (broadcastInDim S100000x128 ![0, 1] bcast_S1x128_S100000x128_0_1 : (⟨S1x128, .f32⟩ : BufTy).Contents (Elt F) → (⟨S100000x128, .f32⟩ : BufTy).Contents (Elt F)),
    StableHlo.binary main_v14 main_v16 main_v17 (addf : (⟨S100000x128, .f32⟩ : BufTy).Contents (Elt F) → (⟨S100000x128, .f32⟩ : BufTy).Contents (Elt F) → (⟨S100000x128, .f32⟩ : BufTy).Contents (Elt F)),
    StableHlo.TRef.nullary main_call1.cst (constant S_ .f32 0x00000000#32),
    StableHlo.TRef.unary main_call1.cst main_call1.v0 (broadcastInDim S100000x128 ![] bcast_S_S100000x128),
    StableHlo.TRef.binary (.of main_v17 : StableHlo.TRef sig ⟨S100000x128, .f32⟩) main_call1.v0 main_call1.v1 maximumf ]

/-- The second gather of source rows: the 23 operations of the second row-lookup call, on the first layer's table and the edge sources. -/
abbrev gather2 : List (HloOp τ sig (Elt F)) :=
  [ StableHlo.TRef.nullary main_call2.c (constantI S_ 32 0#32),
    StableHlo.TRef.unary main_call2.c main_call2.v0 (broadcastInDim S1600000 ![] bcast_S_S1600000),
    StableHlo.TRef.binary (.of main_arg1 : StableHlo.TRef sig ⟨S1600000, .i32⟩) main_call2.v0 main_call2.v1 (cmpi .slt),
    StableHlo.TRef.nullary main_call2.c_0 (constantI S_ 32 100000#32),
    StableHlo.TRef.unary main_call2.c_0 main_call2.v2 (broadcastInDim S1600000 ![] bcast_S_S1600000),
    StableHlo.TRef.binary (.of main_arg1 : StableHlo.TRef sig ⟨S1600000, .i32⟩) main_call2.v2 main_call2.v3 addi,
    StableHlo.TRef.ternary main_call2.v1 main_call2.v3 (.of main_arg1 : StableHlo.TRef sig ⟨S1600000, .i32⟩) main_call2.call0.v0 select,
    StableHlo.TRef.unary main_call2.call0.v0 main_call2.v5 (broadcastInDim S1600000x1 ![0] bcast_S1600000_S1600000x1_0),
    StableHlo.TRef.nullary main_call2.c_1 (constantI S1 32 99999#32),
    StableHlo.TRef.nullary main_call2.c_2 (constantI S_ 32 0#32),
    StableHlo.TRef.unary main_call2.c_2 main_call2.v6 (broadcastInDim S1600000x1 ![] bcast_S_S1600000x1),
    StableHlo.TRef.binary main_call2.v5 main_call2.v6 main_call2.v7 (cmpi .sge),
    StableHlo.TRef.unary main_call2.c_1 main_call2.v8 (broadcastInDim S1x1 ![1] bcast_S1_S1x1_1),
    StableHlo.TRef.unary main_call2.v8 main_call2.v9 (broadcastInDim S1600000x1 ![0, 1] bcast_S1x1_S1600000x1_0_1),
    StableHlo.TRef.binary main_call2.v5 main_call2.v9 main_call2.v10 (cmpi .sle),
    StableHlo.TRef.binary main_call2.v7 main_call2.v10 main_call2.v11 andi,
    StableHlo.TRef.nullary main_call2.c_3 (constantI S_ 1 1#1),
    StableHlo.TRef.binary main_call2.v11 main_call2.c_3 main_call2.v12 (fun x v => Host.reduce IntOp.andi x v reducesTo_S1600000x1_S1600000_d1 h_S_),
    StableHlo.TRef.binary (.of main_v18 : StableHlo.TRef sig ⟨S100000x128, .f32⟩) main_call2.v5 main_call2.v13 (fun x i => Host.gather gather_S100000x128_S1600000x1_S1600000x128_1_0_n_n_0_1_1128 x i),
    StableHlo.TRef.unary main_call2.v12 main_call2.v14 (broadcastInDim S1600000x128 ![0] bcast_S1600000_S1600000x128_0),
    StableHlo.TRef.nullary main_call2.cst (constant S_ .f32 0x7FC00000#32),
    StableHlo.TRef.unary main_call2.cst main_call2.v15 (broadcastInDim S1600000x128 ![] bcast_S_S1600000x128),
    StableHlo.TRef.ternary main_call2.v14 main_call2.v13 main_call2.v15 main_call2.v16 select ]

/-- The second layer after its gather (24 operations, those of the first layer on the first layer's table and the second weights). -/
abbrev layer2 : List (HloOp τ sig (Elt F)) :=
  [ StableHlo.nullary main_cst_3 (constant S_ .f32 0x00000000#32),
    StableHlo.unary main_cst_3 main_v20 (broadcastInDim S100000x128 ![] bcast_S_S100000x128 : (⟨S_, .f32⟩ : BufTy).Contents (Elt F) → (⟨S100000x128, .f32⟩ : BufTy).Contents (Elt F)),
    StableHlo.unary main_arg2 main_v21 (broadcastInDim S1600000x1 ![0] bcast_S1600000_S1600000x1_0 : (⟨S1600000, .i32⟩ : BufTy).Contents (Elt F) → (⟨S1600000x1, .i32⟩ : BufTy).Contents (Elt F)),
    StableHlo.ternary main_v20 main_v21 main_v19 main_v22 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.nullary main_cst_4 (constant S_ .f32 0x3F800000#32),
    StableHlo.unary main_cst_4 main_v23 (broadcastInDim S1600000 ![] bcast_S_S1600000 : (⟨S_, .f32⟩ : BufTy).Contents (Elt F) → (⟨S1600000, .f32⟩ : BufTy).Contents (Elt F)),
    StableHlo.nullary main_cst_5 (constant S_ .f32 0x00000000#32),
    StableHlo.unary main_cst_5 main_v24 (broadcastInDim S100000 ![] bcast_S_S100000 : (⟨S_, .f32⟩ : BufTy).Contents (Elt F) → (⟨S100000, .f32⟩ : BufTy).Contents (Elt F)),
    StableHlo.unary main_arg2 main_v25 (broadcastInDim S1600000x1 ![0] bcast_S1600000_S1600000x1_0 : (⟨S1600000, .i32⟩ : BufTy).Contents (Elt F) → (⟨S1600000x1, .i32⟩ : BufTy).Contents (Elt F)),
    StableHlo.ternary main_v24 main_v25 main_v23 main_v26 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    StableHlo.binary main_v22 main_v18 main_v27 (addf : (⟨S100000x128, .f32⟩ : BufTy).Contents (Elt F) → (⟨S100000x128, .f32⟩ : BufTy).Contents (Elt F) → (⟨S100000x128, .f32⟩ : BufTy).Contents (Elt F)),
    StableHlo.nullary main_cst_6 (constant S_ .f32 0x3F800000#32),
    StableHlo.unary main_cst_6 main_v28 (broadcastInDim S100000 ![] bcast_S_S100000 : (⟨S_, .f32⟩ : BufTy).Contents (Elt F) → (⟨S100000, .f32⟩ : BufTy).Contents (Elt F)),
    StableHlo.binary main_v26 main_v28 main_v29 (addf : (⟨S100000, .f32⟩ : BufTy).Contents (Elt F) → (⟨S100000, .f32⟩ : BufTy).Contents (Elt F) → (⟨S100000, .f32⟩ : BufTy).Contents (Elt F)),
    StableHlo.unary main_v29 main_v30 (broadcastInDim S100000x1 ![0] bcast_S100000_S100000x1_0 : (⟨S100000, .f32⟩ : BufTy).Contents (Elt F) → (⟨S100000x1, .f32⟩ : BufTy).Contents (Elt F)),
    StableHlo.unary main_v30 main_v31 (broadcastInDim S100000x128 ![0, 1] bcast_S100000x1_S100000x128_0_1 : (⟨S100000x1, .f32⟩ : BufTy).Contents (Elt F) → (⟨S100000x128, .f32⟩ : BufTy).Contents (Elt F)),
    StableHlo.binary main_v27 main_v31 main_v32 (Host.divf : (⟨S100000x128, .f32⟩ : BufTy).Contents (Elt F) → (⟨S100000x128, .f32⟩ : BufTy).Contents (Elt F) → (⟨S100000x128, .f32⟩ : BufTy).Contents (Elt F)),
    StableHlo.binary main_v32 main_arg6 main_v33 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg7 main_v34 (broadcastInDim S1x128 ![1] bcast_S128_S1x128_1 : (⟨S128, .f32⟩ : BufTy).Contents (Elt F) → (⟨S1x128, .f32⟩ : BufTy).Contents (Elt F)),
    StableHlo.unary main_v34 main_v35 (broadcastInDim S100000x128 ![0, 1] bcast_S1x128_S100000x128_0_1 : (⟨S1x128, .f32⟩ : BufTy).Contents (Elt F) → (⟨S100000x128, .f32⟩ : BufTy).Contents (Elt F)),
    StableHlo.binary main_v33 main_v35 main_v36 (addf : (⟨S100000x128, .f32⟩ : BufTy).Contents (Elt F) → (⟨S100000x128, .f32⟩ : BufTy).Contents (Elt F) → (⟨S100000x128, .f32⟩ : BufTy).Contents (Elt F)),
    StableHlo.TRef.nullary main_call3.cst (constant S_ .f32 0x00000000#32),
    StableHlo.TRef.unary main_call3.cst main_call3.v0 (broadcastInDim S100000x128 ![] bcast_S_S100000x128),
    StableHlo.TRef.binary (.of main_v36 : StableHlo.TRef sig ⟨S100000x128, .f32⟩) main_call3.v0 main_call3.v1 maximumf ]

/-- The gather of the batch rows: the 23 operations of the third row-lookup call, on the second layer's table and the batch nodes. -/
abbrev gather3 : List (HloOp τ sig (Elt F)) :=
  [ StableHlo.TRef.nullary main_call4.c (constantI S_ 32 0#32),
    StableHlo.TRef.unary main_call4.c main_call4.v0 (broadcastInDim S1024 ![] bcast_S_S1024),
    StableHlo.TRef.binary (.of main_arg3 : StableHlo.TRef sig ⟨S1024, .i32⟩) main_call4.v0 main_call4.v1 (cmpi .slt),
    StableHlo.TRef.nullary main_call4.c_0 (constantI S_ 32 100000#32),
    StableHlo.TRef.unary main_call4.c_0 main_call4.v2 (broadcastInDim S1024 ![] bcast_S_S1024),
    StableHlo.TRef.binary (.of main_arg3 : StableHlo.TRef sig ⟨S1024, .i32⟩) main_call4.v2 main_call4.v3 addi,
    StableHlo.TRef.ternary main_call4.v1 main_call4.v3 (.of main_arg3 : StableHlo.TRef sig ⟨S1024, .i32⟩) main_call4.call0.v0 select,
    StableHlo.TRef.unary main_call4.call0.v0 main_call4.v5 (broadcastInDim S1024x1 ![0] bcast_S1024_S1024x1_0),
    StableHlo.TRef.nullary main_call4.c_1 (constantI S1 32 99999#32),
    StableHlo.TRef.nullary main_call4.c_2 (constantI S_ 32 0#32),
    StableHlo.TRef.unary main_call4.c_2 main_call4.v6 (broadcastInDim S1024x1 ![] bcast_S_S1024x1),
    StableHlo.TRef.binary main_call4.v5 main_call4.v6 main_call4.v7 (cmpi .sge),
    StableHlo.TRef.unary main_call4.c_1 main_call4.v8 (broadcastInDim S1x1 ![1] bcast_S1_S1x1_1),
    StableHlo.TRef.unary main_call4.v8 main_call4.v9 (broadcastInDim S1024x1 ![0, 1] bcast_S1x1_S1024x1_0_1),
    StableHlo.TRef.binary main_call4.v5 main_call4.v9 main_call4.v10 (cmpi .sle),
    StableHlo.TRef.binary main_call4.v7 main_call4.v10 main_call4.v11 andi,
    StableHlo.TRef.nullary main_call4.c_3 (constantI S_ 1 1#1),
    StableHlo.TRef.binary main_call4.v11 main_call4.c_3 main_call4.v12 (fun x v => Host.reduce IntOp.andi x v reducesTo_S1024x1_S1024_d1 h_S_),
    StableHlo.TRef.binary (.of main_v37 : StableHlo.TRef sig ⟨S100000x128, .f32⟩) main_call4.v5 main_call4.v13 (fun x i => Host.gather gather_S100000x128_S1024x1_S1024x128_1_0_n_n_0_1_1128 x i),
    StableHlo.TRef.unary main_call4.v12 main_call4.v14 (broadcastInDim S1024x128 ![0] bcast_S1024_S1024x128_0),
    StableHlo.TRef.nullary main_call4.cst (constant S_ .f32 0x7FC00000#32),
    StableHlo.TRef.unary main_call4.cst main_call4.v15 (broadcastInDim S1024x128 ![] bcast_S_S1024x128),
    StableHlo.TRef.ternary main_call4.v14 main_call4.v13 main_call4.v15 main_call4.v16 select ]

/-- The classifier head: the dense product, the bias, and the 15 operations of the log-softmax call (19 operations). -/
abbrev headOps : List (HloOp τ sig (Elt F)) :=
  [ StableHlo.binary main_v38 main_arg8 main_v39 ((fun l r => Host.dotGeneral dot_S1024x128_S128x40_S1024x40_1_0_0_1_n_n none l r) : (⟨S1024x128, .f32⟩ : BufTy).Contents (Elt F) → (⟨S128x40, .f32⟩ : BufTy).Contents (Elt F) → (⟨S1024x40, .f32⟩ : BufTy).Contents (Elt F)),
    StableHlo.unary main_arg9 main_v40 (broadcastInDim S1x40 ![1] bcast_S40_S1x40_1 : (⟨S40, .f32⟩ : BufTy).Contents (Elt F) → (⟨S1x40, .f32⟩ : BufTy).Contents (Elt F)),
    StableHlo.unary main_v40 main_v41 (broadcastInDim S1024x40 ![0, 1] bcast_S1x40_S1024x40_0_1 : (⟨S1x40, .f32⟩ : BufTy).Contents (Elt F) → (⟨S1024x40, .f32⟩ : BufTy).Contents (Elt F)),
    StableHlo.binary main_v39 main_v41 main_v42 (addf : (⟨S1024x40, .f32⟩ : BufTy).Contents (Elt F) → (⟨S1024x40, .f32⟩ : BufTy).Contents (Elt F) → (⟨S1024x40, .f32⟩ : BufTy).Contents (Elt F)),
    StableHlo.TRef.nullary main_call5.cst (constant S_ .f32 0xFF800000#32),
    StableHlo.TRef.binary (.of main_v42 : StableHlo.TRef sig ⟨S1024x40, .f32⟩) main_call5.cst main_call5.v0 (fun x v => Host.reduce FloatOps.maximumf x v reducesTo_S1024x40_S1024_d1 h_S_),
    StableHlo.TRef.nullary main_call5.cst_0 (constant S_ .f32 0xFF800000#32),
    StableHlo.TRef.unary main_call5.cst_0 main_call5.v1 (broadcastInDim S1024 ![] bcast_S_S1024),
    StableHlo.TRef.binary main_call5.v1 main_call5.v0 main_call5.v2 maximumf,
    StableHlo.TRef.unary main_call5.v2 main_call5.v3 (broadcastInDim S1024x1 ![0] bcast_S1024_S1024x1_0),
    StableHlo.TRef.unary main_call5.v3 main_call5.v4 (broadcastInDim S1024x40 ![0, 1] bcast_S1024x1_S1024x40_0_1),
    StableHlo.TRef.binary (.of main_v42 : StableHlo.TRef sig ⟨S1024x40, .f32⟩) main_call5.v4 main_call5.v5 subf,
    StableHlo.TRef.unary main_call5.v5 main_call5.v6 Host.exp,
    StableHlo.TRef.nullary main_call5.cst_1 (constant S_ .f32 0x00000000#32),
    StableHlo.TRef.binary main_call5.v6 main_call5.cst_1 main_call5.v7 (fun x v => Host.reduceAdd x v reducesTo_S1024x40_S1024_d1 h_S_),
    StableHlo.TRef.unary main_call5.v7 main_call5.v8 (broadcastInDim S1024x1 ![0] bcast_S1024_S1024x1_0),
    StableHlo.TRef.unary main_call5.v8 main_call5.v9 Host.log,
    StableHlo.TRef.unary main_call5.v9 main_call5.v10 (broadcastInDim S1024x40 ![0, 1] bcast_S1024x1_S1024x40_0_1),
    StableHlo.TRef.binary main_call5.v5 main_call5.v10 main_call5.v11 subf ]

/-- @main's 136 operations, in order. -/
abbrev ops : List (HloOp τ sig (Elt F)) :=
  gather1 ++ (layer1 ++ (gather2 ++ (layer2 ++ (gather3 ++ headOps))))

set_option maxRecDepth 16384 in
/-- @main is that straight line: the functions' definitions unfolded at their calls, both sides are one chain of
    `hlo` steps once sequencing is reassociated. -/
theorem main_eq (c : Dev nD) : main (F := F) c = seq ops := by
  simp only [main, fn_take.body, fn_take_0.body, fn_take_1.body, fn_where.body, fn_where_2.body, fn_relu.body,
    fn_log_softmax.body, ops, seq_append, seq, bind_assoc, pure_bind]

/-! ## Lists in two parts -/

/-- The contents after two lines run one after the other. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- A property of every element of two lists holds of every element of their concatenation. -/
theorem forall_append {α : Type} {p : α → Prop} {l₁ l₂ : List α} (h₁ : l₁.Forall p) (h₂ : l₂.Forall p) : (l₁ ++ l₂).Forall p :=
  List.forall_iff_forall_mem.2 fun x hx =>
    (List.mem_append.1 hx).elim (List.forall_iff_forall_mem.1 h₁ x) (List.forall_iff_forall_mem.1 h₂ x)

/-- A buffer among a list of references is among the list's device buffers. -/
theorem writes_sub_of_mem {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem h))

/-! ## Every operation touches TensorCore buffers only, and determines its results -/

theorem gather1_sub : (gather1 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩
theorem layer1_sub : (layer1 : List (HloOp τ sig (Elt F))).Forall fun op => op.bufs ⊆ tcRefs τ sig :=
  ⟨nullary_bufs_sub .., unary_bufs_sub .., unary_bufs_sub .., ternary_bufs_sub .., nullary_bufs_sub .., unary_bufs_sub .., nullary_bufs_sub .., unary_bufs_sub .., unary_bufs_sub .., ternary_bufs_sub .., binary_bufs_sub .., nullary_bufs_sub .., unary_bufs_sub .., binary_bufs_sub .., unary_bufs_sub .., unary_bufs_sub .., binary_bufs_sub .., binary_bufs_sub .., unary_bufs_sub .., unary_bufs_sub .., binary_bufs_sub .., nullary_bufs_sub .., unary_bufs_sub .., binary_bufs_sub ..⟩
theorem gather2_sub : (gather2 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩
theorem layer2_sub : (layer2 : List (HloOp τ sig (Elt F))).Forall fun op => op.bufs ⊆ tcRefs τ sig :=
  ⟨nullary_bufs_sub .., unary_bufs_sub .., unary_bufs_sub .., ternary_bufs_sub .., nullary_bufs_sub .., unary_bufs_sub .., nullary_bufs_sub .., unary_bufs_sub .., unary_bufs_sub .., ternary_bufs_sub .., binary_bufs_sub .., nullary_bufs_sub .., unary_bufs_sub .., binary_bufs_sub .., unary_bufs_sub .., unary_bufs_sub .., binary_bufs_sub .., binary_bufs_sub .., unary_bufs_sub .., unary_bufs_sub .., binary_bufs_sub .., nullary_bufs_sub .., unary_bufs_sub .., binary_bufs_sub ..⟩
theorem gather3_sub : (gather3 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩
theorem headOps_sub : (headOps : List (HloOp τ sig (Elt F))).Forall fun op => op.bufs ⊆ tcRefs τ sig :=
  ⟨binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

theorem ops_sub : (ops : List (HloOp τ sig (Elt F))).Forall fun op => op.bufs ⊆ tcRefs τ sig :=
  forall_append gather1_sub (forall_append layer1_sub (forall_append gather2_sub (forall_append layer2_sub
    (forall_append gather3_sub headOps_sub))))

theorem gather1_fresh : ∀ op ∈ (gather1 : List (HloOp τ sig (Elt F))), op.fresh = ∅ := by
  intro _ h; (repeat (cases h with | head => rfl | tail _ h => ?_)); exact nomatch h
theorem layer1_fresh : ∀ op ∈ (layer1 : List (HloOp τ sig (Elt F))), op.fresh = ∅ := by
  intro _ h; (repeat (cases h with | head => rfl | tail _ h => ?_)); exact nomatch h
theorem gather2_fresh : ∀ op ∈ (gather2 : List (HloOp τ sig (Elt F))), op.fresh = ∅ := by
  intro _ h; (repeat (cases h with | head => rfl | tail _ h => ?_)); exact nomatch h
theorem layer2_fresh : ∀ op ∈ (layer2 : List (HloOp τ sig (Elt F))), op.fresh = ∅ := by
  intro _ h; (repeat (cases h with | head => rfl | tail _ h => ?_)); exact nomatch h
theorem gather3_fresh : ∀ op ∈ (gather3 : List (HloOp τ sig (Elt F))), op.fresh = ∅ := by
  intro _ h; (repeat (cases h with | head => rfl | tail _ h => ?_)); exact nomatch h
theorem headOps_fresh : ∀ op ∈ (headOps : List (HloOp τ sig (Elt F))), op.fresh = ∅ := by
  intro _ h; (repeat (cases h with | head => rfl | tail _ h => ?_)); exact nomatch h

theorem ops_fresh : ∀ op ∈ (ops : List (HloOp τ sig (Elt F))), op.fresh = ∅ := by
  intro op h
  simp only [ops, List.mem_append] at h
  rcases h with h | h | h | h | h | h
  exacts [gather1_fresh op h, layer1_fresh op h, gather2_fresh op h, layer2_fresh op h, gather3_fresh op h, headOps_fresh op h]

/-! ## What each stretch writes, and what it leaves alone -/

/-- The buffers the operations of `gather1` write, in order. -/
abbrev gather1W : List (Ref sig .tc) :=
  [main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_v14, main_call0_cst, main_call0_v15, main_v0]
theorem gather1_writes : (gather1 : List (HloOp τ sig (Elt F))).Forall fun op =>
    op.writes ⊆ (gather1W.map (Proc.devRef (τ := τ) .tc)).toFinset :=
  ⟨writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide)⟩
/-- A buffer `gather1` does not write keeps its contents across it. -/
theorem gather1_frame (V : Valuation τ sig (Elt F)) {r : Ref sig .tc} (hr : r ∉ gather1W) :
    after gather1 V (Proc.devRef .tc r) = V (Proc.devRef .tc r) :=
  after_of_writes_sub gather1 V gather1_writes hr

/-- The buffers the operations of `layer1` write, in order. -/
abbrev layer1W : List (Ref sig .tc) :=
  [main_cst, main_v1, main_v2, main_v3, main_cst_0, main_v4, main_cst_1, main_v5, main_v6, main_v7, main_v8, main_cst_2, main_v9, main_v10, main_v11, main_v12, main_v13, main_v14, main_v15, main_v16, main_v17, main_call1_cst, main_call1_v0, main_v18]
theorem layer1_writes : (layer1 : List (HloOp τ sig (Elt F))).Forall fun op =>
    op.writes ⊆ (layer1W.map (Proc.devRef (τ := τ) .tc)).toFinset :=
  ⟨writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide)⟩
/-- A buffer `layer1` does not write keeps its contents across it. -/
theorem layer1_frame (V : Valuation τ sig (Elt F)) {r : Ref sig .tc} (hr : r ∉ layer1W) :
    after layer1 V (Proc.devRef .tc r) = V (Proc.devRef .tc r) :=
  after_of_writes_sub layer1 V layer1_writes hr

/-- The buffers the operations of `gather2` write, in order. -/
abbrev gather2W : List (Ref sig .tc) :=
  [main_call2_c, main_call2_v0, main_call2_v1, main_call2_c_0, main_call2_v2, main_call2_v3, main_call2_v4, main_call2_v5, main_call2_c_1, main_call2_c_2, main_call2_v6, main_call2_v7, main_call2_v8, main_call2_v9, main_call2_v10, main_call2_v11, main_call2_c_3, main_call2_v12, main_call2_v13, main_call2_v14, main_call2_cst, main_call2_v15, main_v19]
theorem gather2_writes : (gather2 : List (HloOp τ sig (Elt F))).Forall fun op =>
    op.writes ⊆ (gather2W.map (Proc.devRef (τ := τ) .tc)).toFinset :=
  ⟨writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide)⟩
/-- A buffer `gather2` does not write keeps its contents across it. -/
theorem gather2_frame (V : Valuation τ sig (Elt F)) {r : Ref sig .tc} (hr : r ∉ gather2W) :
    after gather2 V (Proc.devRef .tc r) = V (Proc.devRef .tc r) :=
  after_of_writes_sub gather2 V gather2_writes hr

/-- The buffers the operations of `layer2` write, in order. -/
abbrev layer2W : List (Ref sig .tc) :=
  [main_cst_3, main_v20, main_v21, main_v22, main_cst_4, main_v23, main_cst_5, main_v24, main_v25, main_v26, main_v27, main_cst_6, main_v28, main_v29, main_v30, main_v31, main_v32, main_v33, main_v34, main_v35, main_v36, main_call3_cst, main_call3_v0, main_v37]
theorem layer2_writes : (layer2 : List (HloOp τ sig (Elt F))).Forall fun op =>
    op.writes ⊆ (layer2W.map (Proc.devRef (τ := τ) .tc)).toFinset :=
  ⟨writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide)⟩
/-- A buffer `layer2` does not write keeps its contents across it. -/
theorem layer2_frame (V : Valuation τ sig (Elt F)) {r : Ref sig .tc} (hr : r ∉ layer2W) :
    after layer2 V (Proc.devRef .tc r) = V (Proc.devRef .tc r) :=
  after_of_writes_sub layer2 V layer2_writes hr

/-- The buffers the operations of `gather3` write, in order. -/
abbrev gather3W : List (Ref sig .tc) :=
  [main_call4_c, main_call4_v0, main_call4_v1, main_call4_c_0, main_call4_v2, main_call4_v3, main_call4_v4, main_call4_v5, main_call4_c_1, main_call4_c_2, main_call4_v6, main_call4_v7, main_call4_v8, main_call4_v9, main_call4_v10, main_call4_v11, main_call4_c_3, main_call4_v12, main_call4_v13, main_call4_v14, main_call4_cst, main_call4_v15, main_v38]
theorem gather3_writes : (gather3 : List (HloOp τ sig (Elt F))).Forall fun op =>
    op.writes ⊆ (gather3W.map (Proc.devRef (τ := τ) .tc)).toFinset :=
  ⟨writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide)⟩
/-- A buffer `gather3` does not write keeps its contents across it. -/
theorem gather3_frame (V : Valuation τ sig (Elt F)) {r : Ref sig .tc} (hr : r ∉ gather3W) :
    after gather3 V (Proc.devRef .tc r) = V (Proc.devRef .tc r) :=
  after_of_writes_sub gather3 V gather3_writes hr

/-- The buffers the operations of `headOps` write, in order. -/
abbrev headOpsW : List (Ref sig .tc) :=
  [main_v39, main_v40, main_v41, main_v42, main_call5_cst, main_call5_v0, main_call5_cst_0, main_call5_v1, main_call5_v2, main_call5_v3, main_call5_v4, main_call5_v5, main_call5_v6, main_call5_cst_1, main_call5_v7, main_call5_v8, main_call5_v9, main_call5_v10, main_v43]
theorem headOps_writes : (headOps : List (HloOp τ sig (Elt F))).Forall fun op =>
    op.writes ⊆ (headOpsW.map (Proc.devRef (τ := τ) .tc)).toFinset :=
  ⟨writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide)⟩
/-- A buffer `headOps` does not write keeps its contents across it. -/
theorem headOps_frame (V : Valuation τ sig (Elt F)) {r : Ref sig .tc} (hr : r ∉ headOpsW) :
    after headOps V (Proc.devRef .tc r) = V (Proc.devRef .tc r) :=
  after_of_writes_sub headOps V headOps_writes hr

/-- The whole line as its six stretches run in turn. -/
theorem after_ops (V : Valuation τ sig (Elt F)) :
    after ops V = after headOps (after gather3 (after layer2 (after gather2 (after layer1 (after gather1 V))))) := by
  simp only [ops, after_append]

end Cert.Sage.RefRun

end
-- ==== Proof.RefRunB.lean ====
/-
  What each stretch of the reference's line computes. For ANY contents `V` of the buffers before a stretch, the
  stretch's one live result is the stage function of `Cert.Sage` at the contents of the buffers the stage reads: each
  operation's result is read at its own buffer and every other buffer passed through (one pass over the stretch), the
  moves of contents to a typed reference's buffer and back cancel in pairs, and what is left is the stage's own term.
  The reductions, gathers, scatter-adds and broadcasts stay folded throughout: the equations are between the same
  operations applied to the same operands.
-/
import proofs.«136289_j37039797961388_1_alg».proof.Proof.RefRunA
import proofs.«136289_j37039797961388_1_alg».proof.Proof.SageSpec
import proofs.«136289_j37039797961388_1_alg».proof.Proof.LibTypedRef

noncomputable section

namespace Cert.Sage.RefRun

open Cert.ReferenceIdeal Cert.ReferenceIdeal.Gen Idealize.ShloMosaic Idealize.ShloMosaic.TcCoe Idealize.SL.Sem Idealize.ShloMosaic.StableHlo

variable {F : FTy → Type} [FloatOps F]

attribute [local irreducible] Host.reduce Host.gather Host.scatterAdd Host.reduceAdd broadcastInDim in
set_option maxRecDepth 16384 in
/-- The first gather leaves the rows of the node features picked by the edge sources. -/
theorem gather1_value (V : Valuation τ sig (Elt F)) :
    after gather1 V (main_v0 : DevRef τ sig)
      = takeE (V (main_arg0 : DevRef τ sig)) (V (main_arg1 : DevRef τ sig)) := by
  after_results_simp
  simp only [Cert.TypedRef.ofBuf_toBuf]
  unfold takeE
  rfl

attribute [local irreducible] Host.reduce Host.gather Host.scatterAdd Host.reduceAdd broadcastInDim in
set_option maxRecDepth 16384 in
/-- The first layer, from the gathered rows, the node features, the edge destinations and the first weights. -/
theorem layer1_value (V : Valuation τ sig (Elt F)) :
    after layer1 V (main_v18 : DevRef τ sig)
      = layer (segSum (V (main_v0 : DevRef τ sig)) (V (main_arg2 : DevRef τ sig))) (V (main_arg0 : DevRef τ sig))
          (degree (V (main_arg2 : DevRef τ sig))) (V (main_arg4 : DevRef τ sig)) (V (main_arg5 : DevRef τ sig)) := by
  after_results_simp
  simp only [Cert.TypedRef.ofBuf_toBuf]
  unfold layer segSum degree
  rfl

attribute [local irreducible] Host.reduce Host.gather Host.scatterAdd Host.reduceAdd broadcastInDim in
set_option maxRecDepth 16384 in
/-- The second gather leaves the rows of the first layer's table picked by the edge sources. -/
theorem gather2_value (V : Valuation τ sig (Elt F)) :
    after gather2 V (main_v19 : DevRef τ sig)
      = takeE (V (main_v18 : DevRef τ sig)) (V (main_arg1 : DevRef τ sig)) := by
  after_results_simp
  simp only [Cert.TypedRef.ofBuf_toBuf]
  unfold takeE
  rfl

attribute [local irreducible] Host.reduce Host.gather Host.scatterAdd Host.reduceAdd broadcastInDim in
set_option maxRecDepth 16384 in
/-- The second layer, from the gathered rows, the first layer's table, the edge destinations and the second weights. -/
theorem layer2_value (V : Valuation τ sig (Elt F)) :
    after layer2 V (main_v37 : DevRef τ sig)
      = layer (segSum (V (main_v19 : DevRef τ sig)) (V (main_arg2 : DevRef τ sig))) (V (main_v18 : DevRef τ sig))
          (degree (V (main_arg2 : DevRef τ sig))) (V (main_arg6 : DevRef τ sig)) (V (main_arg7 : DevRef τ sig)) := by
  after_results_simp
  simp only [Cert.TypedRef.ofBuf_toBuf]
  unfold layer segSum degree
  rfl

attribute [local irreducible] Host.reduce Host.gather Host.scatterAdd Host.reduceAdd broadcastInDim in
set_option maxRecDepth 16384 in
/-- The third gather leaves the rows of the second layer's table picked by the batch nodes. -/
theorem gather3_value (V : Valuation τ sig (Elt F)) :
    after gather3 V (main_v38 : DevRef τ sig)
      = takeB (V (main_v37 : DevRef τ sig)) (V (main_arg3 : DevRef τ sig)) := by
  after_results_simp
  simp only [Cert.TypedRef.ofBuf_toBuf]
  unfold takeB
  rfl

attribute [local irreducible] Host.reduce Host.gather Host.scatterAdd Host.reduceAdd broadcastInDim in
set_option maxRecDepth 16384 in
/-- The head leaves the class log-probabilities of the batch rows. -/
theorem headOps_value (V : Valuation τ sig (Elt F)) :
    after headOps V (main_v43 : DevRef τ sig)
      = head (V (main_v38 : DevRef τ sig)) (V (main_arg8 : DevRef τ sig)) (V (main_arg9 : DevRef τ sig)) := by
  after_results_simp
  simp only [Cert.TypedRef.ofBuf_toBuf]
  unfold head logSoftmax shifted logits
  rfl

end Cert.Sage.RefRun

end
-- ==== Proof.RefRun.lean ====
/-
  The reference program's run, read back. The line of RefRunA, stretch by stretch (RefRunB), leaves in the result
  buffer the stage functions composed: the head on the batch rows of the second layer's table, which is `Cert.Sage.net`
  of the ten arguments' contents; no stretch writes an argument. The run is the library's run of a straight line of
  host operations: every weakly fair execution terminates with each buffer at the fold of the operations' results over
  the launch contents.
-/
import proofs.«136289_j37039797961388_1_alg».proof.Proof.RefRunB

noncomputable section

namespace Cert.Sage.RefRun

open Cert.ReferenceIdeal Cert.ReferenceIdeal.Gen Idealize.ShloMosaic Idealize.ShloMosaic.TcCoe Idealize.SL.Sem Idealize.ShloMosaic.StableHlo

variable {F : FTy → Type} [FloatOps F]

/-- After the whole line the result buffer holds the network of the arguments' contents: each stretch's result is
    rewritten to its stage function, outermost first, and every buffer a later stage reads is carried back unchanged
    across the stretches that do not write it. -/
theorem net_value (V : Valuation τ sig (Elt F)) :
    after ops V (main_v43 : DevRef τ sig)
      = net (V (main_arg0 : DevRef τ sig)) (V (main_arg1 : DevRef τ sig)) (V (main_arg2 : DevRef τ sig))
          (V (main_arg3 : DevRef τ sig)) (V (main_arg4 : DevRef τ sig)) (V (main_arg5 : DevRef τ sig))
          (V (main_arg6 : DevRef τ sig)) (V (main_arg7 : DevRef τ sig)) (V (main_arg8 : DevRef τ sig))
          (V (main_arg9 : DevRef τ sig)) := by
  rw [after_ops, headOps_value, gather3_value,
    gather3_frame _ (r := main_arg8) (by decide), gather3_frame _ (r := main_arg9) (by decide),
    layer2_value,
    layer2_frame _ (r := main_arg3) (by decide), layer2_frame _ (r := main_arg8) (by decide), layer2_frame _ (r := main_arg9) (by decide),
    gather2_value,
    gather2_frame _ (r := main_v18) (by decide), gather2_frame _ (r := main_arg2) (by decide), gather2_frame _ (r := main_arg6) (by decide), gather2_frame _ (r := main_arg7) (by decide), gather2_frame _ (r := main_arg3) (by decide), gather2_frame _ (r := main_arg8) (by decide), gather2_frame _ (r := main_arg9) (by decide),
    layer1_value,
    layer1_frame _ (r := main_arg1) (by decide), layer1_frame _ (r := main_arg2) (by decide), layer1_frame _ (r := main_arg6) (by decide), layer1_frame _ (r := main_arg7) (by decide), layer1_frame _ (r := main_arg3) (by decide), layer1_frame _ (r := main_arg8) (by decide), layer1_frame _ (r := main_arg9) (by decide),
    gather1_value,
    gather1_frame _ (r := main_arg0) (by decide), gather1_frame _ (r := main_arg2) (by decide), gather1_frame _ (r := main_arg4) (by decide), gather1_frame _ (r := main_arg5) (by decide), gather1_frame _ (r := main_arg1) (by decide), gather1_frame _ (r := main_arg6) (by decide), gather1_frame _ (r := main_arg7) (by decide), gather1_frame _ (r := main_arg3) (by decide), gather1_frame _ (r := main_arg8) (by decide), gather1_frame _ (r := main_arg9) (by decide)]
  rfl

/-- A buffer no stretch writes holds after the whole line what it held before. -/
theorem kept (V : Valuation τ sig (Elt F)) {r : Ref sig .tc} (h₁ : r ∉ gather1W) (h₂ : r ∉ layer1W) (h₃ : r ∉ gather2W)
    (h₄ : r ∉ layer2W) (h₅ : r ∉ gather3W) (h₆ : r ∉ headOpsW) :
    after ops V (Proc.devRef .tc r) = V (Proc.devRef .tc r) := by
  rw [after_ops, headOps_frame _ h₆, gather3_frame _ h₅, layer2_frame _ h₄, gather2_frame _ h₃, layer1_frame _ h₂,
    gather1_frame _ h₁]

theorem scopedRefs_eq : (Finset.univ.filter fun b : Ref sig .tc => b.isScoped) = ∅ := by decide
theorem scopedSems_eq : (Finset.univ.filter fun sm : SemLoc sig => sm.isScoped .tc) = ∅ := by decide

/-- On every device, for any float values, from any memory with zero counters: every weakly fair execution of @main
    terminates with the result buffer at the network of the arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v43)
          = Cert.Sage.net (m ((c.tc : Thread nD τ).loc main_arg0)) (m ((c.tc : Thread nD τ).loc main_arg1)) (m ((c.tc : Thread nD τ).loc main_arg2))
              (m ((c.tc : Thread nD τ).loc main_arg3)) (m ((c.tc : Thread nD τ).loc main_arg4)) (m ((c.tc : Thread nD τ).loc main_arg5))
              (m ((c.tc : Thread nD τ).loc main_arg6)) (m ((c.tc : Thread nD τ).loc main_arg7)) (m ((c.tc : Thread nD τ).loc main_arg8))
              (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c main_v43).trans (net_value (launchContents m c)),
      (h c main_arg0).trans (kept (launchContents m c) (by decide) (by decide) (by decide) (by decide) (by decide) (by decide)),
      (h c main_arg1).trans (kept (launchContents m c) (by decide) (by decide) (by decide) (by decide) (by decide) (by decide)),
      (h c main_arg2).trans (kept (launchContents m c) (by decide) (by decide) (by decide) (by decide) (by decide) (by decide)),
      (h c main_arg3).trans (kept (launchContents m c) (by decide) (by decide) (by decide) (by decide) (by decide) (by decide)),
      (h c main_arg4).trans (kept (launchContents m c) (by decide) (by decide) (by decide) (by decide) (by decide) (by decide)),
      (h c main_arg5).trans (kept (launchContents m c) (by decide) (by decide) (by decide) (by decide) (by decide) (by decide)),
      (h c main_arg6).trans (kept (launchContents m c) (by decide) (by decide) (by decide) (by decide) (by decide) (by decide)),
      (h c main_arg7).trans (kept (launchContents m c) (by decide) (by decide) (by decide) (by decide) (by decide) (by decide)),
      (h c main_arg8).trans (kept (launchContents m c) (by decide) (by decide) (by decide) (by decide) (by decide) (by decide)),
      (h c main_arg9).trans (kept (launchContents m c) (by decide) (by decide) (by decide) (by decide) (by decide) (by decide))⟩)
    (run_seq scopedRefs_eq scopedSems_eq defs main (fun _ => ops) main_eq (fun _ => ops_sub) m ρ (fun _ => ops_fresh))

end Cert.Sage.RefRun

end
-- ==== Proof.lean ====
/-
  The certificate of a two-layer mean-aggregation graph network against its jnp reference, over the extended reals.

  Both programs compute, from node features x, an edge list (src, dst), batch nodes, and three weight/bias pairs,
      x₁ = relu(((segsum(take(x, src), dst) + x) / (deg + 1)) · W₁ + b₁),
      x₂ = the same from x₁ with W₂, b₂,
      out = log_softmax(take(x₂, batch) · Wₗ + bₗ),
  where deg counts the edges arriving at a node. The kernel program does the dense part of each stage in a kernel
  region (the two layers over 25 blocks of 4000 rows, the head on whole arrays) and the row gathers and scatter-adds
  on the host; the reference does everything on the host. At the ideal instance a matrix product into a zero
  accumulator is a plain sum over the contracted axis whatever the tiling, a lane reduction is the host's reduction,
  a change of float format is the identity, and the kernel's quotient, exponential and logarithm are the host's; so
  block by block the kernel's layer is the reference's layer, and the two results are one function `Cert.Sage.net` of
  the ten arguments. No law that needs finiteness is used: the precondition is never opened.

  The three frames are the generated frames of the two kernel programs and the reference's run with its result
  dropped; the ideal pass rewrote nothing, so `preserves` is trivial; `algebraic` pairs the kernel program's run, its
  result read as `net` of its arguments, with the reference's run read the same way, the arguments agreeing.
-/
import proofs.«136289_j37039797961388_1_alg».proof.Defs
import proofs.«136289_j37039797961388_1_alg».proof.Proof.Gen.Kernel
import proofs.«136289_j37039797961388_1_alg».proof.Proof.Gen.Kernel.Frame
import proofs.«136289_j37039797961388_1_alg».proof.Proof.Gen.KernelIdeal
import proofs.«136289_j37039797961388_1_alg».proof.Proof.Gen.KernelIdeal.Frame
import proofs.«136289_j37039797961388_1_alg».proof.Proof.Gen.ReferenceIdeal
import proofs.«136289_j37039797961388_1_alg».proof.Proof.Gen.Pre_finite_inputs
import proofs.«136289_j37039797961388_1_alg».proof.Proof.SageSpec
import proofs.«136289_j37039797961388_1_alg».proof.Proof.KernelRun
import proofs.«136289_j37039797961388_1_alg».proof.Proof.KernelValue
import proofs.«136289_j37039797961388_1_alg».proof.Proof.RefRun
import Idealize.ShloMosaic.Adequacy
import Idealize.ShloMosaic.Init

noncomputable section

namespace Cert.Proof

open Idealize.ShloMosaic Idealize.ShloMosaic.TcCoe Idealize.SL.Sem

/-- The word-level kernel program runs and keeps its arguments: its generated frame. -/
theorem frame_kernel : Cert.frame_Kernel := fun m ρ _ => Cert.Kernel.Gen.frame m ρ

/-- The idealized kernel program runs and keeps its arguments: its generated frame. -/
theorem frame_kernelIdeal : Cert.frame_KernelIdeal := fun m ρ _ => Cert.KernelIdeal.Gen.frame m ρ

/-- The reference runs and keeps its arguments: its run, the result dropped. -/
theorem frame_reference : Cert.frame_ReferenceIdeal := fun m ρ _ =>
  (θ_run Cert.ReferenceIdeal.defs _ _).mono (fun _ h c => (h c).2) (Cert.Sage.RefRun.run (F := Ideal) m ρ)

/-- The ideal pass rewrote no operation. -/
theorem preserves : Cert.preserves_Kernel_KernelIdeal := trivial

/-- Both programs end with the network of their (agreeing) arguments. -/
theorem algebraic : Cert.algebraic_KernelIdeal_ReferenceIdeal := by
  intro m ρ m' ρ' _ hagree
  refine ⟨fun c => Cert.Sage.net (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono
      (fun r h c => ⟨(h c).1.trans (Cert.Sage.KernelValue.out_eq m ρ c), (h c).2⟩) (Cert.Sage.KernelRun.run m ρ)
  · refine (θ_run Cert.ReferenceIdeal.defs _ _).mono (fun r h c => ⟨(h c).1.trans ?_, (h c).2⟩)
      (Cert.Sage.RefRun.run (F := Ideal) m' ρ')
    obtain ⟨e0, e1, e2, e3, e4, e5, e6, e7, e8, e9⟩ := hagree c
    rw [e0, e1, e2, e3, e4, e5, e6, e7, e8, e9]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
